-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S165888x10 : Shape := ⟨2, ![165888, 10]⟩
abbrev S2048x2x1620 : Shape := ⟨3, ![2048, 2, 1620]⟩
abbrev S10x16 : Shape := ⟨2, ![10, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16x16 : Shape := ⟨2, ![16, 16]⟩
abbrev S16x9 : Shape := ⟨2, ![16, 9]⟩
abbrev S9 : Shape := ⟨1, ![9]⟩
abbrev S_ : Shape := ⟨0, ![]⟩

class Facts : Prop where
  bcast_S_S165888x10 : S_.BroadcastsInDim S165888x10 (![] : Fin 0 → Fin S165888x10.rank)
  reducesTo_S165888x10_S_d0_1 : S165888x10.ReducesTo [0, 1] S_
  h_S_ : 0 < S_.numel
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_
  bcast_S_S16x16 : S_.BroadcastsInDim S16x16 (![] : Fin 0 → Fin S16x16.rank)
  reducesTo_S16x16_S_d0_1 : S16x16.ReducesTo [0, 1] S_
  bcast_S_S16x9 : S_.BroadcastsInDim S16x9 (![] : Fin 0 → Fin S16x9.rank)
  reducesTo_S16x9_S_d0_1 : S16x9.ReducesTo [0, 1] S_
  bcast_S_S9 : S_.BroadcastsInDim S9 (![] : Fin 0 → Fin S9.rank)
  reducesTo_S9_S_d0 : S9.ReducesTo [0] S_

variable [Facts]

def fn_part4 {F : FTy → Type} [FloatOps F] (main_arg15 : FVec F S9 .f32) (main_v63 : IVec S_ 1) (main_v67 : IVec S_ 1) : IVec S_ 1 :=
  let main_v68 : IVec S_ 1 := andi main_v63 main_v67
  let main_v69 : FVec F S9 .f32 := Host.absf main_arg15
  let main_cst_26 : FVec F S_ .f32 := constant S_ .f32 0x7F800000#32
  let main_v70 : FVec F S9 .f32 := broadcastInDim S9 ![] bcast_S_S9 main_cst_26
  let main_v71 : IVec S9 1 := cmpf .olt main_v69 main_v70
  let main_c_27 : IVec S_ 1 := constantI S_ 1 1#1
  let main_v72 : IVec S_ 1 := (fun x v => Host.reduce IntOp.andi x v reducesTo_S9_S_d0 h_S_) main_v71 main_c_27
  let main_v73 : IVec S_ 1 := andi main_v68 main_v72
  main_v73

def fn_part3 {F : FTy → Type} [FloatOps F] (main_arg12 : FVec F S16x16 .f32) (main_arg13 : FVec F S16 .f32) (main_arg14 : FVec F S16x9 .f32) (main_arg15 : FVec F S9 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg12
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x9 .f32 := Host.absf main_arg14
  let main_cst_24 : FVec F S_ .f32 := constant S_ .f32 0x7F800000#32
  let main_v65 : FVec F S16x9 .f32 := broadcastInDim S16x9 ![] bcast_S_S16x9 main_cst_24
  let main_v66 : IVec S16x9 1 := cmpf .olt main_v64 main_v65
  let main_c_25 : IVec S_ 1 := constantI S_ 1 1#1
  let main_v67 : IVec S_ 1 := (fun x v => Host.reduce IntOp.andi x v reducesTo_S16x9_S_d0_1 h_S_) main_v66 main_c_25
  fn_part4 (F := F) main_arg15 main_v63 main_v67

def fn_part2 {F : FTy → Type} [FloatOps F] (main_arg8 : FVec F S64x32 .f32) (main_arg9 : FVec F S32 .f32) (main_arg10 : FVec F S32x16 .f32) (main_arg11 : FVec F S16 .f32) (main_arg12 : FVec F S16x16 .f32) (main_arg13 : FVec F S16 .f32) (main_arg14 : FVec F S16x9 .f32) (main_arg15 : FVec F S9 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_v48 main_v49 main_v50

def fn_part1 {F : FTy → Type} [FloatOps F] (main_arg5 : FVec F S32 .f32) (main_arg6 : FVec F S32x64 .f32) (main_arg7 : FVec F S64 .f32) (main_arg8 : FVec F S64x32 .f32) (main_arg9 : FVec F S32 .f32) (main_arg10 : FVec F S32x16 .f32) (main_arg11 : FVec F S16 .f32) (main_arg12 : FVec F S16x16 .f32) (main_arg13 : FVec F S16 .f32) (main_arg14 : FVec F S16x9 .f32) (main_arg15 : FVec F S9 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S165888x10 .f32) (main_arg1 : IVec S2048x2x1620 32) (main_arg2 : FVec F S10x16 .f32) (main_arg3 : FVec F S16 .f32) (main_arg4 : FVec F S16x32 .f32) (main_arg5 : FVec F S32 .f32) (main_arg6 : FVec F S32x64 .f32) (main_arg7 : FVec F S64 .f32) (main_arg8 : FVec F S64x32 .f32) (main_arg9 : FVec F S32 .f32) (main_arg10 : FVec F S32x16 .f32) (main_arg11 : FVec F S16 .f32) (main_arg12 : FVec F S16x16 .f32) (main_arg13 : FVec F S16 .f32) (main_arg14 : FVec F S16x9 .f32) (main_arg15 : FVec F S9 .f32) : IVec S_ 1 :=
  let main_v0 : FVec F S165888x10 .f32 := Host.absf main_arg0
  let main_cst : FVec F S_ .f32 := constant S_ .f32 0x7F800000#32
  let main_v1 : FVec F S165888x10 .f32 := broadcastInDim S165888x10 ![] bcast_S_S165888x10 main_cst
  let main_v2 : IVec S165888x10 1 := cmpf .olt main_v0 main_v1
  let main_c : IVec S_ 1 := constantI S_ 1 1#1
  let main_v3 : IVec S_ 1 := (fun x v => Host.reduce IntOp.andi x v reducesTo_S165888x10_S_d0_1 h_S_) main_v2 main_c
  let main_v4 : FVec F S10x16 .f32 := Host.absf main_arg2
  let main_cst_0 : FVec F S_ .f32 := constant S_ .f32 0x7F800000#32
  let main_v5 : FVec F S10x16 .f32 := broadcastInDim S10x16 ![] bcast_S_S10x16 main_cst_0
  let main_v6 : IVec S10x16 1 := cmpf .olt main_v4 main_v5
  let main_c_1 : IVec S_ 1 := constantI S_ 1 1#1
  let main_v7 : IVec S_ 1 := (fun x v => Host.reduce IntOp.andi x v reducesTo_S10x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S165888x10 : Shape := ⟨2, ![165888, 10]⟩
abbrev S2048x2x1620 : Shape := ⟨3, ![2048, 2, 1620]⟩
abbrev S10x16 : Shape := ⟨2, ![10, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16x16 : Shape := ⟨2, ![16, 16]⟩
abbrev S16x9 : Shape := ⟨2, ![16, 9]⟩
abbrev S9 : Shape := ⟨1, ![9]⟩
abbrev S2x1620x2048 : Shape := ⟨3, ![2, 1620, 2048]⟩
abbrev S2x3317760 : Shape := ⟨2, ![2, 3317760]⟩
abbrev S1x3317760 : Shape := ⟨2, ![1, 3317760]⟩
abbrev S3317760 : Shape := ⟨1, ![3317760]⟩
abbrev S165888 : Shape := ⟨1, ![165888]⟩
abbrev S3483648 : Shape := ⟨1, ![3483648]⟩
abbrev S_ : Shape := ⟨0, ![]⟩
abbrev S3483648x1 : Shape := ⟨2, ![3483648, 1]⟩
abbrev S10 : Shape := ⟨1, ![10]⟩
abbrev S1x10 : Shape := ⟨2, ![1, 10]⟩
abbrev S1x16 : Shape := ⟨2, ![1, 16]⟩
abbrev S165888x16 : Shape := ⟨2, ![165888, 16]⟩
abbrev S10368x10 : Shape := ⟨2, ![10368, 10]⟩
abbrev S10368x16 : Shape := ⟨2, ![10368, 16]⟩
abbrev S3483648x16 : Shape := ⟨2, ![3483648, 16]⟩
abbrev S1x32 : Shape := ⟨2, ![1, 32]⟩
abbrev S165888x32 : Shape := ⟨2, ![165888, 32]⟩
abbrev S10368x32 : Shape := ⟨2, ![10368, 32]⟩
abbrev S3483648x32 : Shape := ⟨2, ![3483648, 32]⟩
abbrev S1x64 : Shape := ⟨2, ![1, 64]⟩
abbrev S165888x64 : Shape := ⟨2, ![165888, 64]⟩
abbrev S10368x64 : Shape := ⟨2, ![10368, 64]⟩
abbrev S3483648x64 : Shape := ⟨2, ![3483648, 64]⟩
abbrev S1x9 : Shape := ⟨2, ![1, 9]⟩
abbrev S165888x9 : Shape := ⟨2, ![165888, 9]⟩
abbrev S10368x9 : Shape := ⟨2, ![10368, 9]⟩
abbrev S2048x81x9 : Shape := ⟨3, ![2048, 81, 9]⟩

abbrev nBuf : Space → Nat
  | .hbm => 171
  | .vmem => 49
  | .smem => 0
  | _ => 0

abbrev hbmTy0_0 (i : Nat) : BufTy := match i % 128 with
  | 0 => ⟨S165888x10, .f32⟩
  | 1 => ⟨S2048x2x1620, .i32⟩
  | 2 => ⟨S10x16, .f32⟩
  | 3 => ⟨S16, .f32⟩
  | 4 => ⟨S16x32, .f32⟩
  | 5 => ⟨S32, .f32⟩
  | 6 => ⟨S32x64, .f32⟩
  | 7 => ⟨S64, .f32⟩
  | 8 => ⟨S64x32, .f32⟩
  | 9 => ⟨S32, .f32⟩
  | 10 => ⟨S32x16, .f32⟩
  | 11 => ⟨S16, .f32⟩
  | 12 => ⟨S16x16, .f32⟩
  | 13 => ⟨S16, .f32⟩
  | 14 => ⟨S16x9, .f32⟩
  | 15 => ⟨S9, .f32⟩
  | 16 => ⟨S2x1620x2048, .i32⟩
  | 17 => ⟨S2x3317760, .i32⟩
  | 18 => ⟨S1x3317760, .i32⟩
  | 19 => ⟨S3317760, .i32⟩
  | 20 => ⟨S1x3317760, .i32⟩
  | 21 => ⟨S3317760, .i32⟩
  | 22 => ⟨S165888, .i32⟩
  | 23 => ⟨S3483648, .i32⟩
  | 24 => ⟨S3483648, .i32⟩
  | 25 => ⟨S_, .f32⟩
  | 26 => ⟨S3483648, .f32⟩
  | 27 => ⟨S_, .f32⟩
  | 28 => ⟨S165888, .f32⟩
  | 29 => ⟨S3483648x1, .i32⟩
  | 30 => ⟨S165888, .f32⟩
  | 31 => ⟨S_, .f32⟩
  | 32 => ⟨S165888, .f32⟩
  | 33 => ⟨S165888, .i1⟩
  | 34 => ⟨S_, .f32⟩
  | 35 => ⟨S165888, .f32⟩
  | 36 => ⟨S165888, .f32⟩
  | 37 => ⟨S165888, .f32⟩
  | 38 => ⟨S_, .f32⟩
  | 39 => ⟨S_, .f32⟩
  | 40 => ⟨S165888, .f32⟩
  | 41 => ⟨S165888, .f32⟩
  | 42 => ⟨S_, .i32⟩
  | 43 => ⟨S3483648, .i32⟩
  | 44 => ⟨S3483648, .i1⟩
  | 45 => ⟨S_, .i32⟩
  | 46 => ⟨S3483648, .i32⟩
  | 47 => ⟨S3483648, .i32⟩
  | 48 => ⟨S3483648, .i32⟩
  | 49 => ⟨S3483648x1, .i32⟩
  | 50 => ⟨S3483648, .f32⟩
  | 51 => ⟨S_, .i32⟩
  | 52 => ⟨S3483648, .i32⟩
  | 53 => ⟨S3483648, .i1⟩
  | 54 => ⟨S_, .i32⟩
  | 55 => ⟨S3483648, .i32⟩
  | 56 => ⟨S3483648, .i32⟩
  | 57 => ⟨S3483648, .i32⟩
  | 58 => ⟨S3483648x1, .i32⟩
  | 59 => ⟨S3483648, .f32⟩
  | 60 => ⟨S3483648, .f32⟩
  | 61 => ⟨S_, .f32⟩
  | 62 => ⟨S10, .f32⟩
  | 63 => ⟨S_, .f32⟩
  | 64 => ⟨S16, .f32⟩
  | 65 => ⟨S_, .f32⟩
  | 66 => ⟨S32, .f32⟩
  | 67 => ⟨S_, .f32⟩
  | 68 => ⟨S64, .f32⟩
  | 69 => ⟨S1x10, .f32⟩
  | 70 => ⟨S1x16, .f32⟩
  | 71 => ⟨S165888x16, .f32⟩
  | 72 => ⟨S_, .i32⟩
  | 73 => ⟨S3483648, .i32⟩
  | 74 => ⟨S3483648, .i1⟩
  | 75 => ⟨S_, .i32⟩
  | 76 => ⟨S3483648, .i32⟩
  | 77 => ⟨S3483648, .i32⟩
  | 78 => ⟨S3483648, .i32⟩
  | 79 => ⟨S3483648x1, .i32⟩
  | 80 => ⟨S3483648x16, .f32⟩
  | 81 => ⟨S3483648x1, .f32⟩
  | 82 => ⟨S3483648x16, .f32⟩
  | 83 => ⟨S3483648x16, .f32⟩
  | 84 => ⟨S_, .f32⟩
  | 85 => ⟨S165888x16, .f32⟩
  | 86 => ⟨S3483648x1, .i32⟩
  | 87 => ⟨S165888x16, .f32⟩
  | 88 => ⟨S1x16, .f32⟩
  | 89 => ⟨S1x32, .f32⟩
  | 90 => ⟨S165888x32, .f32⟩
  | 91 => ⟨S_, .i32⟩
  | 92 => ⟨S3483648, .i32⟩
  | 93 => ⟨S3483648, .i1⟩
  | 94 => ⟨S_, .i32⟩
  | 95 => ⟨S3483648, .i32⟩
  | 96 => ⟨S3483648, .i32⟩
  | 97 => ⟨S3483648, .i32⟩
  | 98 => ⟨S3483648x1, .i32⟩
  | 99 => ⟨S3483648x32, .f32⟩
  | 100 => ⟨S3483648x1, .f32⟩
  | 101 => ⟨S3483648x32, .f32⟩
  | 102 => ⟨S3483648x32, .f32⟩
  | 103 => ⟨S_, .f32⟩
  | 104 => ⟨S165888x32, .f32⟩
  | 105 => ⟨S3483648x1, .i32⟩
  | 106 => ⟨S165888x32, .f32⟩
  | 107 => ⟨S1x32, .f32⟩
  | 108 => ⟨S1x64, .f32⟩
  | 109 => ⟨S165888x64, .f32⟩
  | 110 => ⟨S_, .i32⟩
  | 111 => ⟨S3483648, .i32⟩
  | 112 => ⟨S3483648, .i1⟩
  | 113 => ⟨S_, .i32⟩
  | 114 => ⟨S3483648, .i32⟩
  | 115 => ⟨S3483648, .i32⟩
  | 116 => ⟨S3483648, .i32⟩
  | 117 => ⟨S3483648x1, .i32⟩
  | 118 => ⟨S3483648x64, .f32⟩
  | 119 => ⟨S3483648x1, .f32⟩
  | 120 => ⟨S3483648x64, .f32⟩
  | 121 => ⟨S3483648x64, .f32⟩
  | 122 => ⟨S_, .f32⟩
  | 123 => ⟨S165888x64, .f32⟩
  | 124 => ⟨S3483648x1, .i32⟩
  | 125 => ⟨S165888x64, .f32⟩
  | 126 => ⟨S1x64, .f32⟩
  | 127 => ⟨S1x32, .f32⟩
  | _ => ⟨S165888x10, .f32⟩

abbrev hbmTy0_1 (i : Nat) : BufTy := match i % 128 with
  | 0 => ⟨S165888x32, .f32⟩
  | 1 => ⟨S_, .i32⟩
  | 2 => ⟨S3483648, .i32⟩
  | 3 => ⟨S3483648, .i1⟩
  | 4 => ⟨S_, .i32⟩
  | 5 => ⟨S3483648, .i32⟩
  | 6 => ⟨S3483648, .i32⟩
  | 7 => ⟨S3483648, .i32⟩
  | 8 => ⟨S3483648x1, .i32⟩
  | 9 => ⟨S3483648x32, .f32⟩
  | 10 => ⟨S3483648x1, .f32⟩
  | 11 => ⟨S3483648x32, .f32⟩
  | 12 => ⟨S3483648x32, .f32⟩
  | 13 => ⟨S_, .f32⟩
  | 14 => ⟨S165888x32, .f32⟩
  | 15 => ⟨S3483648x1, .i32⟩
  | 16 => ⟨S165888x32, .f32⟩
  | 17 => ⟨S1x32, .f32⟩
  | 18 => ⟨S1x16, .f32⟩
  | 19 => ⟨S165888x16, .f32⟩
  | 20 => ⟨S_, .i32⟩
  | 21 => ⟨S3483648, .i32⟩
  | 22 => ⟨S3483648, .i1⟩
  | 23 => ⟨S_, .i32⟩
  | 24 => ⟨S3483648, .i32⟩
  | 25 => ⟨S3483648, .i32⟩
  | 26 => ⟨S3483648, .i32⟩
  | 27 => ⟨S3483648x1, .i32⟩
  | 28 => ⟨S3483648x16, .f32⟩
  | 29 => ⟨S3483648x1, .f32⟩
  | 30 => ⟨S3483648x16, .f32⟩
  | 31 => ⟨S3483648x16, .f32⟩
  | 32 => ⟨S_, .f32⟩
  | 33 => ⟨S165888x16, .f32⟩
  | 34 => ⟨S3483648x1, .i32⟩
  | 35 => ⟨S165888x16, .f32⟩
  | 36 => ⟨S1x16, .f32⟩
  | 37 => ⟨S1x16, .f32⟩
  | 38 => ⟨S165888x16, .f32⟩
  | 39 => ⟨S1x16, .f32⟩
  | 40 => ⟨S1x9, .f32⟩
  | 41 => ⟨S165888x9, .f32⟩
  | 42 => ⟨S2048x81x9, .f32⟩
  | _ => ⟨S165888x10, .f32⟩

abbrev hbmTy (i : Nat) : BufTy := match i / 128 with
  | 0 => hbmTy0_0 i
  | 1 => hbmTy0_1 i
  | _ => ⟨S165888x10, .f32⟩

abbrev bufTy : (tb : Table) → Fin (tcTables nBuf tb) → BufTy
  | .hbm, ⟨i, _⟩ => hbmTy i
  | .local _ .vmem, ⟨0, _⟩ => ⟨S10368x10, .f32⟩
  | .local _ .vmem, ⟨1, _⟩ => ⟨S10368x10, .f32⟩
  | .local _ .vmem, ⟨2, _⟩ => ⟨S1x10, .f32⟩
  | .local _ .vmem, ⟨3, _⟩ => ⟨S10x16, .f32⟩
  | .local _ .vmem, ⟨4, _⟩ => ⟨S1x16, .f32⟩
  | .local _ .vmem, ⟨5, _⟩ => ⟨S10368x16, .f32⟩
  | .local _ .vmem, ⟨6, _⟩ => ⟨S10368x16, .f32⟩
  | .local _ .vmem, ⟨7, _⟩ => ⟨S10368x16, .f32⟩
  | .local _ .vmem, ⟨8, _⟩ => ⟨S10368x16, .f32⟩
  | .local _ .vmem, ⟨9, _⟩ => ⟨S1x16, .f32⟩
  | .local _ .vmem, ⟨10, _⟩ => ⟨S16x32, .f32⟩
  | .local _ .vmem, ⟨11, _⟩ => ⟨S1x32, .f32⟩
  | .local _ .vmem, ⟨12, _⟩ => ⟨S10368x32, .f32⟩
  | .local _ .vmem, ⟨13, _⟩ => ⟨S10368x32, .f32⟩
  | .local _ .vmem, ⟨14, _⟩ => ⟨S10368x32, .f32⟩
  | .local _ .vmem, ⟨15, _⟩ => ⟨S10368x32, .f32⟩
  | .local _ .vmem, ⟨16, _⟩ => ⟨S1x32, .f32⟩
  | .local _ .vmem, ⟨17, _⟩ => ⟨S32x64, .f32⟩
  | .local _ .vmem, ⟨18, _⟩ => ⟨S1x64, .f32⟩
  | .local _ .vmem, ⟨19, _⟩ => ⟨S10368x64, .f32⟩
  | .local _ .vmem, ⟨20, _⟩ => ⟨S10368x64, .f32⟩
  | .local _ .vmem, ⟨21, _⟩ => ⟨S10368x64, .f32⟩
  | .local _ .vmem, ⟨22, _⟩ => ⟨S10368x64, .f32⟩
  | .local _ .vmem, ⟨23, _⟩ => ⟨S1x64, .f32⟩
  | .local _ .vmem, ⟨24, _⟩ => ⟨S64x32, .f32⟩
  | .local _ .vmem, ⟨25, _⟩ => ⟨S1x32, .f32⟩
  | .local _ .vmem, ⟨26, _⟩ => ⟨S10368x32, .f32⟩
  | .local _ .vmem, ⟨27, _⟩ => ⟨S10368x32, .f32⟩
  | .local _ .vmem, ⟨28, _⟩ => ⟨S10368x32, .f32⟩
  | .local _ .vmem, ⟨29, _⟩ => ⟨S10368x32, .f32⟩
  | .local _ .vmem, ⟨30, _⟩ => ⟨S1x32, .f32⟩
  | .local _ .vmem, ⟨31, _⟩ => ⟨S32x16, .f32⟩
  | .local _ .vmem, ⟨32, _⟩ => ⟨S1x16, .f32⟩
  | .local _ .vmem, ⟨33, _⟩ => ⟨S10368x16, .f32⟩
  | .local _ .vmem, ⟨34, _⟩ => ⟨S10368x16, .f32⟩
  | .local _ .vmem, ⟨35, _⟩ => ⟨S10368x16, .f32⟩
  | .local _ .vmem, ⟨36, _⟩ => ⟨S10368x16, .f32⟩
  | .local _ .vmem, ⟨37, _⟩ => ⟨S1x16, .f32⟩
  | .local _ .vmem, ⟨38, _⟩ => ⟨S16x16, .f32⟩
  | .local _ .vmem, ⟨39, _⟩ => ⟨S1x16, .f32⟩
  | .local _ .vmem, ⟨40, _⟩ => ⟨S10368x16, .f32⟩
  | .local _ .vmem, ⟨41, _⟩ => ⟨S10368x16, .f32⟩
  | .local _ .vmem, ⟨42, _⟩ => ⟨S10368x16, .f32⟩
  | .local _ .vmem, ⟨43, _⟩ => ⟨S10368x16, .f32⟩
  | .local _ .vmem, ⟨44, _⟩ => ⟨S1x16, .f32⟩
  | .local _ .vmem, ⟨45, _⟩ => ⟨S16x9, .f32⟩
  | .local _ .vmem, ⟨46, _⟩ => ⟨S1x9, .f32⟩
  | .local _ .vmem, ⟨47, _⟩ => ⟨S10368x9, .f32⟩
  | .local _ .vmem, ⟨48, _⟩ => ⟨S10368x9, .f32⟩
  | _, _ => ⟨S165888x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_cst_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_11 : Ref sig .tc := ⟨.hbm, 72, rfl⟩
abbrev main_v41 : Ref sig .tc := ⟨.hbm, 73, rfl⟩
abbrev main_v42 : Ref sig .tc := ⟨.hbm, 74, rfl⟩
abbrev main_c_12 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_14 : Ref sig .tc := ⟨.hbm, 91, rfl⟩
abbrev main_v57 : Ref sig .tc := ⟨.hbm, 92, rfl⟩
abbrev main_v58 : Ref sig .tc := ⟨.hbm, 93, rfl⟩
abbrev main_c_15 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_17 : Ref sig .tc := ⟨.hbm, 110, rfl⟩
abbrev main_v73 : Ref sig .tc := ⟨.hbm, 111, rfl⟩
abbrev main_v74 : Ref sig .tc := ⟨.hbm, 112, rfl⟩
abbrev main_c_18 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_20 : Ref sig .tc := ⟨.hbm, 129, rfl⟩
abbrev main_v89 : Ref sig .tc := ⟨.hbm, 130, rfl⟩
abbrev main_v90 : Ref sig .tc := ⟨.hbm, 131, rfl⟩
abbrev main_c_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_22 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_23 : Ref sig .tc := ⟨.hbm, 148, rfl⟩
abbrev main_v105 : Ref sig .tc := ⟨.hbm, 149, rfl⟩
abbrev main_v106 : Ref sig .tc := ⟨.hbm, 150, rfl⟩
abbrev main_c_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_25 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg4_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem4_1 : DmaSem sig := 48

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10368x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10368x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10368x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10368x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10368x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10368x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10368x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10368x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10368x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10368x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10368x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S16x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10368x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10368x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16x9 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x9 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10368x9 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  transposes_S2048x2x1620_S2x1620x2048_1_2_0 : S2048x2x1620.Transposes [1, 2, 0] S2x1620x2048
  shapeCasts_S2x1620x2048_S2x3317760 : S2x1620x2048.ShapeCasts S2x3317760
  slices_S2x3317760_S1x3317760_0_0 : S2x3317760.Slices ![0, 0] S1x3317760
  shapeCasts_S1x3317760_S3317760 : S1x3317760.ShapeCasts S3317760
  slices_S2x3317760_S1x3317760_1_0 : S2x3317760.Slices ![1, 0] S1x3317760
  concatenates_S3317760_S165888_S3483648_d0 : Shape.Concatenates [S3317760, S165888] S3483648 0
  bcast_S_S3483648 : S_.BroadcastsInDim S3483648 (![] : Fin 0 → Fin S3483648.rank)
  bcast_S_S165888 : S_.BroadcastsInDim S165888 (![] : Fin 0 → Fin S165888.rank)
  bcast_S3483648_S3483648x1_0 : S3483648.BroadcastsInDim S3483648x1 (![0] : Fin 1 → Fin S3483648x1.rank)
  bcast_S_S10 : S_.BroadcastsInDim S10 (![] : Fin 0 → Fin S10.rank)
  bcast_S_S16 : S_.BroadcastsInDim S16 (![] : Fin 0 → Fin S16.rank)
  bcast_S_S32 : S_.BroadcastsInDim S32 (![] : Fin 0 → Fin S32.rank)
  bcast_S_S64 : S_.BroadcastsInDim S64 (![] : Fin 0 → Fin S64.rank)
  shapeCasts_S10_S1x10 : S10.ShapeCasts S1x10
  shapeCasts_S16_S1x16 : S16.ShapeCasts S1x16
  inb_S10368x10_S10368x10_0_0 : ∀ a, (![0, 0] : Fin 2 → Nat) a + S10368x10.size a ≤ S10368x10.size a
  h_S10368x10 : 0 < S10368x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10368x10 : S1x10.Broadcasts S10368x10
  bitsLt_bf16_f32 : FTy.bits .bf16 < FTy.bits .f32
  inb_S10x16_S10x16_0_0 : ∀ a, (![0, 0] : Fin 2 → Nat) a + S10x16.size a ≤ S10x16.size a
  h_S10x16 : 0 < S10x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10368x16 : S1x16.Broadcasts S10368x16
  inb_S10368x16_S10368x16_0_0 : ∀ a, (![0, 0] : Fin 2 → Nat) a + S10368x16.size a ≤ S10368x16.size a
  h_S10368x16 : 0 < S10368x16.numel
  bcast_S3483648x1_S3483648x16_0_1 : S3483648x1.BroadcastsInDim S3483648x16 (![0, 1] : Fin 2 → Fin S3483648x16.rank)
  bcast_S_S165888x16 : S_.BroadcastsInDim S165888x16 (![] : Fin 0 → Fin S165888x16.rank)
  shapeCasts_S32_S1x32 : S32.ShapeCasts S1x32
  shapeCasts_S10368x16_S10368x16 : S10368x16.ShapeCasts S10368x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10368x32 : S1x32.Broadcasts S10368x32
  inb_S10368x32_S10368x32_0_0 : ∀ a, (![0, 0] : Fin 2 → Nat) a + S10368x32.size a ≤ S10368x32.size a
  h_S10368x32 : 0 < S10368x32.numel
  bcast_S3483648x1_S3483648x32_0_1 : S3483648x1.BroadcastsInDim S3483648x32 (![0, 1] : Fin 2 → Fin S3483648x32.rank)
  bcast_S_S165888x32 : S_.BroadcastsInDim S165888x32 (![] : Fin 0 → Fin S165888x32.rank)
  shapeCasts_S64_S1x64 : S64.ShapeCasts S1x64
  shapeCasts_S10368x32_S10368x32 : S10368x32.ShapeCasts S10368x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10368x64 : S1x64.Broadcasts S10368x64
  inb_S10368x64_S10368x64_0_0 : ∀ a, (![0, 0] : Fin 2 → Nat) a + S10368x64.size a ≤ S10368x64.size a
  h_S10368x64 : 0 < S10368x64.numel
  bcast_S3483648x1_S3483648x64_0_1 : S3483648x1.BroadcastsInDim S3483648x64 (![0, 1] : Fin 2 → Fin S3483648x64.rank)
  bcast_S_S165888x64 : S_.BroadcastsInDim S165888x64 (![] : Fin 0 → Fin S165888x64.rank)
  shapeCasts_S10368x64_S10368x64 : S10368x64.ShapeCasts S10368x64
  inb_S64x32_S64x32_0_0 : ∀ a, (![0, 0] : Fin 2 → Nat) a + S64x32.size a ≤ S64x32.size a
  h_S64x32 : 0 < S64x32.numel
  inb_S32x16_S32x16_0_0 : ∀ a, (![0, 0] : Fin 2 → Nat) a + S32x16.size a ≤ S32x16.size a
  h_S32x16 : 0 < S32x16.numel
  inb_S16x16_S16x16_0_0 : ∀ a, (![0, 0] : Fin 2 → Nat) a + S16x16.size a ≤ S16x16.size a
  h_S16x16 : 0 < S16x16.numel
  shapeCasts_S9_S1x9 : S9.ShapeCasts S1x9
  inb_S16x9_S16x9_0_0 : ∀ a, (![0, 0] : Fin 2 → Nat) a + S16x9.size a ≤ S16x9.size a
  h_S16x9 : 0 < S16x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S10368x9 : S1x9.Broadcasts S10368x9
  inb_S10368x9_S10368x9_0_0 : ∀ a, (![0, 0] : Fin 2 → Nat) a + S10368x9.size a ≤ S10368x9.size a
  h_S10368x9 : 0 < S10368x9.numel
  shapeCasts_S165888x9_S2048x81x9 : S165888x9.ShapeCasts S2048x81x9
  scatter_S165888_S3483648x1_S3483648_n_0_0_1_wf : ScatterDims.WF S165888 S3483648x1 S3483648 [] [0] [0] 1
  gather_S165888_S3483648x1_S3483648_n_0_n_n_0_1_1_wf : GatherDims.WF S165888 S3483648x1 S3483648 [] [0] [] [0] [] 1 ![1]
  dot_S10368x10_S10x16_S10368x16_1_0_0_1_n_n_wf : DotDims.WF S10368x10 S10x16 S10368x16 [1] [0] [0] [1] [] []
  gather_S165888x16_S3483648x1_S3483648x16_1_0_n_n_0_1_116_wf : GatherDims.WF S165888x16 S3483648x1 S3483648x16 [1] [0] [] [0] [] 1 ![1, 16]
  scatter_S165888x16_S3483648x1_S3483648x16_1_0_0_1_wf : ScatterDims.WF S165888x16 S3483648x1 S3483648x16 [1] [0] [0] 1
  dot_S10368x16_S16x32_S10368x32_1_0_0_1_n_n_wf : DotDims.WF S10368x16 S16x32 S10368x32 [1] [0] [0] [1] [] []
  gather_S165888x32_S3483648x1_S3483648x32_1_0_n_n_0_1_132_wf : GatherDims.WF S165888x32 S3483648x1 S3483648x32 [1] [0] [] [0] [] 1 ![1, 32]
  scatter_S165888x32_S3483648x1_S3483648x32_1_0_0_1_wf : ScatterDims.WF S165888x32 S3483648x1 S3483648x32 [1] [0] [0] 1
  dot_S10368x32_S32x64_S10368x64_1_0_0_1_n_n_wf : DotDims.WF S10368x32 S32x64 S10368x64 [1] [0] [0] [1] [] []
  gather_S165888x64_S3483648x1_S3483648x64_1_0_n_n_0_1_164_wf : GatherDims.WF S165888x64 S3483648x1 S3483648x64 [1] [0] [] [0] [] 1 ![1, 64]
  scatter_S165888x64_S3483648x1_S3483648x64_1_0_0_1_wf : ScatterDims.WF S165888x64 S3483648x1 S3483648x64 [1] [0] [0] 1
  dot_S10368x64_S64x32_S10368x32_1_0_0_1_n_n_wf : DotDims.WF S10368x64 S64x32 S10368x32 [1] [0] [0] [1] [] []
  dot_S10368x32_S32x16_S10368x16_1_0_0_1_n_n_wf : DotDims.WF S10368x32 S32x16 S10368x16 [1] [0] [0] [1] [] []
  dot_S10368x16_S16x16_S10368x16_1_0_0_1_n_n_wf : DotDims.WF S10368x16 S16x16 S10368x16 [1] [0] [0] [1] [] []
  dot_S10368x16_S16x9_S10368x9_1_0_0_1_n_n_wf : DotDims.WF S10368x16 S16x9 S10368x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10368x10.size a ≤ S165888x10.size a
  hwx0_0 : ∀ i : grid0.Coords, EltTy.bits .f32 = 32 ∨ (Rect.block (s := S165888x10) S10368x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x10.size a ≤ S1x10.size a
  hwx0_1 : ∀ i : grid0.Coords, EltTy.bits .f32 = 32 ∨ (Rect.block (s := S1x10) S1x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x16.size a ≤ S10x16.size a
  hwx0_2 : ∀ i : grid0.Coords, EltTy.bits .f32 = 32 ∨ (Rect.block (s := S10x16) S10x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10368x16.size a ≤ S165888x16.size a
  hwx0_4 : ∀ i : grid0.Coords, EltTy.bits .f32 = 32 ∨ (Rect.block (s := S165888x16) S10368x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10368x16.size a ≤ S165888x16.size a
  hwx1_0 : ∀ i : grid1.Coords, EltTy.bits .f32 = 32 ∨ (Rect.block (s := S165888x16) S10368x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10368x32.size a ≤ S165888x32.size a
  hwx1_4 : ∀ i : grid1.Coords, EltTy.bits .f32 = 32 ∨ (Rect.block (s := S165888x32) S10368x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10368x32.size a ≤ S165888x32.size a
  hwx2_0 : ∀ i : grid2.Coords, EltTy.bits .f32 = 32 ∨ (Rect.block (s := S165888x32) S10368x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10368x64.size a ≤ S165888x64.size a
  hwx2_4 : ∀ i : grid2.Coords, EltTy.bits .f32 = 32 ∨ (Rect.block (s := S165888x64) S10368x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10368x64.size a ≤ S165888x64.size a
  hwx3_0 : ∀ i : grid3.Coords, EltTy.bits .f32 = 32 ∨ (Rect.block (s := S165888x64) S10368x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10368x32.size a ≤ S165888x32.size a
  hwx3_4 : ∀ i : grid3.Coords, EltTy.bits .f32 = 32 ∨ (Rect.block (s := S165888x32) S10368x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10368x32.size a ≤ S165888x32.size a
  hwx4_0 : ∀ i : grid4.Coords, EltTy.bits .f32 = 32 ∨ (Rect.block (s := S165888x32) S10368x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x16.size a ≤ S32x16.size a
  hwx4_2 : ∀ i : grid4.Coords, EltTy.bits .f32 = 32 ∨ (Rect.block (s := S32x16) S32x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x16.size a ≤ S1x16.size a
  hwx4_3 : ∀ i : grid4.Coords, EltTy.bits .f32 = 32 ∨ (Rect.block (s := S1x16) S1x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10368x16.size a ≤ S165888x16.size a
  hwx4_4 : ∀ i : grid4.Coords, EltTy.bits .f32 = 32 ∨ (Rect.block (s := S165888x16) S10368x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10368x16.size a ≤ S165888x16.size a
  hwx5_0 : ∀ i : grid5.Coords, EltTy.bits .f32 = 32 ∨ (Rect.block (s := S165888x16) S10368x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S16x16.size a ≤ S16x16.size a
  hwx5_2 : ∀ i : grid5.Coords, EltTy.bits .f32 = 32 ∨ (Rect.block (s := S16x16) S16x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10368x16.size a ≤ S165888x16.size a
  hwx5_4 : ∀ i : grid5.Coords, EltTy.bits .f32 = 32 ∨ (Rect.block (s := S165888x16) S10368x16.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10368x16.size a ≤ S165888x16.size a
  hwx6_0 : ∀ i : grid6.Coords, EltTy.bits .f32 = 32 ∨ (Rect.block (s := S165888x16) S10368x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x16.size a ≤ S1x16.size a
  hwx6_1 : ∀ i : grid6.Coords, EltTy.bits .f32 = 32 ∨ (Rect.block (s := S1x16) S1x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16x9.size a ≤ S16x9.size a
  hwx6_2 : ∀ i : grid6.Coords, EltTy.bits .f32 = 32 ∨ (Rect.block (s := S16x9) S16x9.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x9.size a ≤ S1x9.size a
  hwx6_3 : ∀ i : grid6.Coords, EltTy.bits .f32 = 32 ∨ (Rect.block (s := S1x9) S1x9.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10368x9.size a ≤ S165888x9.size a
  hwx6_4 : ∀ i : grid6.Coords, EltTy.bits .f32 = 32 ∨ (Rect.block (s := S165888x9) S10368x9.size (cc6_transform_4 i) (hinb6_4 i)).WholeWords (EltTy.packing .f32)

variable [Facts₀]

def scatter_S165888_S3483648x1_S3483648_n_0_0_1 : ScatterDims S165888 S3483648x1 S3483648 where
  updateWindowDims := []
  insertedWindowDims := [0]
  scatterDimsToOperandDims := [0]
  indexVectorDim := 1
  wf := scatter_S165888_S3483648x1_S3483648_n_0_0_1_wf
def gather_S165888_S3483648x1_S3483648_n_0_n_n_0_1_1 : GatherDims S165888 S3483648x1 S3483648 where
  offsetDims := []
  collapsedSliceDims := [0]
  operandBatchingDims := []
  startIndicesBatchingDims := []
  startIndexMap := [0]
  indexVectorDim := 1
  sliceSizes := ![1]
  wf := gather_S165888_S3483648x1_S3483648_n_0_n_n_0_1_1_wf
def dot_S10368x10_S10x16_S10368x16_1_0_0_1_n_n : DotDims S10368x10 S10x16 S10368x16 where
  lhsContracting := [1]
  rhsContracting := [0]
  lhsNonContracting := [0]
  rhsNonContracting := [1]
  lhsBatch := []
  rhsBatch := []
  wf := dot_S10368x10_S10x16_S10368x16_1_0_0_1_n_n_wf
def gather_S165888x16_S3483648x1_S3483648x16_1_0_n_n_0_1_116 : GatherDims S165888x16 S3483648x1 S3483648x16 where
  offsetDims := [1]
  collapsedSliceDims := [0]
  operandBatchingDims := []
  startIndicesBatchingDims := []
  startIndexMap := [0]
  indexVectorDim := 1
  sliceSizes := ![1, 16]
  wf := gather_S165888x16_S3483648x1_S3483648x16_1_0_n_n_0_1_116_wf
def scatter_S165888x16_S3483648x1_S3483648x16_1_0_0_1 : ScatterDims S165888x16 S3483648x1 S3483648x16 where
  updateWindowDims := [1]
  insertedWindowDims := [0]
  scatterDimsToOperandDims := [0]
  indexVectorDim := 1
  wf := scatter_S165888x16_S3483648x1_S3483648x16_1_0_0_1_wf
def dot_S10368x16_S16x32_S10368x32_1_0_0_1_n_n : DotDims S10368x16 S16x32 S10368x32 where
  lhsContracting := [1]
  rhsContracting := [0]
  lhsNonContracting := [0]
  rhsNonContracting := [1]
  lhsBatch := []
  rhsBatch := []
  wf := dot_S10368x16_S16x32_S10368x32_1_0_0_1_n_n_wf
def gather_S165888x32_S3483648x1_S3483648x32_1_0_n_n_0_1_132 : GatherDims S165888x32 S3483648x1 S3483648x32 where
  offsetDims := [1]
  collapsedSliceDims := [0]
  operandBatchingDims := []
  startIndicesBatchingDims := []
  startIndexMap := [0]
  indexVectorDim := 1
  sliceSizes := ![1, 32]
  wf := gather_S165888x32_S3483648x1_S3483648x32_1_0_n_n_0_1_132_wf
def scatter_S165888x32_S3483648x1_S3483648x32_1_0_0_1 : ScatterDims S165888x32 S3483648x1 S3483648x32 where
  updateWindowDims := [1]
  insertedWindowDims := [0]
  scatterDimsToOperandDims := [0]
  indexVectorDim := 1
  wf := scatter_S165888x32_S3483648x1_S3483648x32_1_0_0_1_wf
def dot_S10368x32_S32x64_S10368x64_1_0_0_1_n_n : DotDims S10368x32 S32x64 S10368x64 where
  lhsContracting := [1]
  rhsContracting := [0]
  lhsNonContracting := [0]
  rhsNonContracting := [1]
  lhsBatch := []
  rhsBatch := []
  wf := dot_S10368x32_S32x64_S10368x64_1_0_0_1_n_n_wf
def gather_S165888x64_S3483648x1_S3483648x64_1_0_n_n_0_1_164 : GatherDims S165888x64 S3483648x1 S3483648x64 where
  offsetDims := [1]
  collapsedSliceDims := [0]
  operandBatchingDims := []
  startIndicesBatchingDims := []
  startIndexMap := [0]
  indexVectorDim := 1
  sliceSizes := ![1, 64]
  wf := gather_S165888x64_S3483648x1_S3483648x64_1_0_n_n_0_1_164_wf
def scatter_S165888x64_S3483648x1_S3483648x64_1_0_0_1 : ScatterDims S165888x64 S3483648x1 S3483648x64 where
  updateWindowDims := [1]
  insertedWindowDims := [0]
  scatterDimsToOperandDims := [0]
  indexVectorDim := 1
  wf := scatter_S165888x64_S3483648x1_S3483648x64_1_0_0_1_wf
def dot_S10368x64_S64x32_S10368x32_1_0_0_1_n_n : DotDims S10368x64 S64x32 S10368x32 where
  lhsContracting := [1]
  rhsContracting := [0]
  lhsNonContracting := [0]
  rhsNonContracting := [1]
  lhsBatch := []
  rhsBatch := []
  wf := dot_S10368x64_S64x32_S10368x32_1_0_0_1_n_n_wf
def dot_S10368x32_S32x16_S10368x16_1_0_0_1_n_n : DotDims S10368x32 S32x16 S10368x16 where
  lhsContracting := [1]
  rhsContracting := [0]
  lhsNonContracting := [0]
  rhsNonContracting := [1]
  lhsBatch := []
  rhsBatch := []
  wf := dot_S10368x32_S32x16_S10368x16_1_0_0_1_n_n_wf
def dot_S10368x16_S16x16_S10368x16_1_0_0_1_n_n : DotDims S10368x16 S16x16 S10368x16 where
  lhsContracting := [1]
  rhsContracting := [0]
  lhsNonContracting := [0]
  rhsNonContracting := [1]
  lhsBatch := []
  rhsBatch := []
  wf := dot_S10368x16_S16x16_S10368x16_1_0_0_1_n_n_wf
def dot_S10368x16_S16x9_S10368x9_1_0_0_1_n_n : DotDims S10368x16 S16x9 S10368x9 where
  lhsContracting := [1]
  rhsContracting := [0]
  lhsNonContracting := [0]
  rhsNonContracting := [1]
  lhsBatch := []
  rhsBatch := []
  wf := dot_S10368x16_S16x9_S10368x9_1_0_0_1_n_n_wf

abbrev win0_0 : Pipeline.Window sig grid0 :=
  Pipeline.Window.ofSpec (Memref.whole main_arg0) S10368x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S10368x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v53) S10368x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S10368x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v69) S10368x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S10368x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v85) S10368x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S10368x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v101) S10368x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S32x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v103) S1x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v104) S10368x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v117) S10368x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S16x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v119) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S10368x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v120) S10368x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S1x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S16x9.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v122) S1x9.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v123) S10368x9.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S165888x10 : Shape := ⟨2, ![165888, 10]⟩
abbrev S2048x2x1620 : Shape := ⟨3, ![2048, 2, 1620]⟩
abbrev S10x16 : Shape := ⟨2, ![10, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16x16 : Shape := ⟨2, ![16, 16]⟩
abbrev S16x9 : Shape := ⟨2, ![16, 9]⟩
abbrev S9 : Shape := ⟨1, ![9]⟩
abbrev S2x1620x2048 : Shape := ⟨3, ![2, 1620, 2048]⟩
abbrev S2x3317760 : Shape := ⟨2, ![2, 3317760]⟩
abbrev S1x3317760 : Shape := ⟨2, ![1, 3317760]⟩
abbrev S3317760 : Shape := ⟨1, ![3317760]⟩
abbrev S165888 : Shape := ⟨1, ![165888]⟩
abbrev S3483648 : Shape := ⟨1, ![3483648]⟩
abbrev S_ : Shape := ⟨0, ![]⟩
abbrev S3483648x1 : Shape := ⟨2, ![3483648, 1]⟩
abbrev S165888x16 : Shape := ⟨2, ![165888, 16]⟩
abbrev S3483648x16 : Shape := ⟨2, ![3483648, 16]⟩
abbrev S1x16 : Shape := ⟨2, ![1, 16]⟩
abbrev S165888x32 : Shape := ⟨2, ![165888, 32]⟩
abbrev S3483648x32 : Shape := ⟨2, ![3483648, 32]⟩
abbrev S1x32 : Shape := ⟨2, ![1, 32]⟩
abbrev S165888x64 : Shape := ⟨2, ![165888, 64]⟩
abbrev S3483648x64 : Shape := ⟨2, ![3483648, 64]⟩
abbrev S1x64 : Shape := ⟨2, ![1, 64]⟩
abbrev S165888x9 : Shape := ⟨2, ![165888, 9]⟩
abbrev S1x9 : Shape := ⟨2, ![1, 9]⟩
abbrev S2048x81x9 : Shape := ⟨3, ![2048, 81, 9]⟩

abbrev nBuf : Space → Nat
  | .hbm => 188
  | .vmem => 0
  | .smem => 0
  | _ => 0

abbrev hbmTy0_0 (i : Nat) : BufTy := match i % 128 with
  | 0 => ⟨S165888x10, .f32⟩
  | 1 => ⟨S2048x2x1620, .i32⟩
  | 2 => ⟨S10x16, .f32⟩
  | 3 => ⟨S16, .f32⟩
  | 4 => ⟨S16x32, .f32⟩
  | 5 => ⟨S32, .f32⟩
  | 6 => ⟨S32x64, .f32⟩
  | 7 => ⟨S64, .f32⟩
  | 8 => ⟨S64x32, .f32⟩
  | 9 => ⟨S32, .f32⟩
  | 10 => ⟨S32x16, .f32⟩
  | 11 => ⟨S16, .f32⟩
  | 12 => ⟨S16x16, .f32⟩
  | 13 => ⟨S16, .f32⟩
  | 14 => ⟨S16x9, .f32⟩
  | 15 => ⟨S9, .f32⟩
  | 16 => ⟨S2x1620x2048, .i32⟩
  | 17 => ⟨S2x3317760, .i32⟩
  | 18 => ⟨S1x3317760, .i32⟩
  | 19 => ⟨S3317760, .i32⟩
  | 20 => ⟨S1x3317760, .i32⟩
  | 21 => ⟨S3317760, .i32⟩
  | 22 => ⟨S165888, .i32⟩
  | 23 => ⟨S3483648, .i32⟩
  | 24 => ⟨S3483648, .i32⟩
  | 25 => ⟨S_, .f32⟩
  | 26 => ⟨S3483648, .f32⟩
  | 27 => ⟨S_, .f32⟩
  | 28 => ⟨S165888, .f32⟩
  | 29 => ⟨S3483648x1, .i32⟩
  | 30 => ⟨S165888, .f32⟩
  | 31 => ⟨S_, .f32⟩
  | 32 => ⟨S165888, .f32⟩
  | 33 => ⟨S165888, .i1⟩
  | 34 => ⟨S_, .f32⟩
  | 35 => ⟨S165888, .f32⟩
  | 36 => ⟨S165888, .f32⟩
  | 37 => ⟨S165888, .f32⟩
  | 38 => ⟨S_, .f32⟩
  | 39 => ⟨S_, .f32⟩
  | 40 => ⟨S165888, .f32⟩
  | 41 => ⟨S165888, .f32⟩
  | 42 => ⟨S_, .i32⟩
  | 43 => ⟨S3483648, .i32⟩
  | 44 => ⟨S3483648, .i1⟩
  | 45 => ⟨S_, .i32⟩
  | 46 => ⟨S3483648, .i32⟩
  | 47 => ⟨S3483648, .i32⟩
  | 48 => ⟨S3483648, .i32⟩
  | 49 => ⟨S3483648x1, .i32⟩
  | 50 => ⟨S3483648, .f32⟩
  | 51 => ⟨S_, .i32⟩
  | 52 => ⟨S3483648, .i32⟩
  | 53 => ⟨S3483648, .i1⟩
  | 54 => ⟨S_, .i32⟩
  | 55 => ⟨S3483648, .i32⟩
  | 56 => ⟨S3483648, .i32⟩
  | 57 => ⟨S3483648, .i32⟩
  | 58 => ⟨S3483648x1, .i32⟩
  | 59 => ⟨S3483648, .f32⟩
  | 60 => ⟨S3483648, .f32⟩
  | 61 => ⟨S165888x16, .f32⟩
  | 62 => ⟨S_, .i32⟩
  | 63 => ⟨S3483648, .i32⟩
  | 64 => ⟨S3483648, .i1⟩
  | 65 => ⟨S_, .i32⟩
  | 66 => ⟨S3483648, .i32⟩
  | 67 => ⟨S3483648, .i32⟩
  | 68 => ⟨S3483648, .i32⟩
  | 69 => ⟨S3483648x1, .i32⟩
  | 70 => ⟨S3483648x16, .f32⟩
  | 71 => ⟨S3483648x1, .f32⟩
  | 72 => ⟨S3483648x16, .f32⟩
  | 73 => ⟨S3483648x16, .f32⟩
  | 74 => ⟨S_, .f32⟩
  | 75 => ⟨S165888x16, .f32⟩
  | 76 => ⟨S3483648x1, .i32⟩
  | 77 => ⟨S165888x16, .f32⟩
  | 78 => ⟨S1x16, .f32⟩
  | 79 => ⟨S165888x16, .f32⟩
  | 80 => ⟨S165888x16, .f32⟩
  | 81 => ⟨S_, .f32⟩
  | 82 => ⟨S165888x16, .f32⟩
  | 83 => ⟨S165888x16, .f32⟩
  | 84 => ⟨S165888x32, .f32⟩
  | 85 => ⟨S_, .i32⟩
  | 86 => ⟨S3483648, .i32⟩
  | 87 => ⟨S3483648, .i1⟩
  | 88 => ⟨S_, .i32⟩
  | 89 => ⟨S3483648, .i32⟩
  | 90 => ⟨S3483648, .i32⟩
  | 91 => ⟨S3483648, .i32⟩
  | 92 => ⟨S3483648x1, .i32⟩
  | 93 => ⟨S3483648x32, .f32⟩
  | 94 => ⟨S3483648x1, .f32⟩
  | 95 => ⟨S3483648x32, .f32⟩
  | 96 => ⟨S3483648x32, .f32⟩
  | 97 => ⟨S_, .f32⟩
  | 98 => ⟨S165888x32, .f32⟩
  | 99 => ⟨S3483648x1, .i32⟩
  | 100 => ⟨S165888x32, .f32⟩
  | 101 => ⟨S1x32, .f32⟩
  | 102 => ⟨S165888x32, .f32⟩
  | 103 => ⟨S165888x32, .f32⟩
  | 104 => ⟨S_, .f32⟩
  | 105 => ⟨S165888x32, .f32⟩
  | 106 => ⟨S165888x32, .f32⟩
  | 107 => ⟨S165888x64, .f32⟩
  | 108 => ⟨S_, .i32⟩
  | 109 => ⟨S3483648, .i32⟩
  | 110 => ⟨S3483648, .i1⟩
  | 111 => ⟨S_, .i32⟩
  | 112 => ⟨S3483648, .i32⟩
  | 113 => ⟨S3483648, .i32⟩
  | 114 => ⟨S3483648, .i32⟩
  | 115 => ⟨S3483648x1, .i32⟩
  | 116 => ⟨S3483648x64, .f32⟩
  | 117 => ⟨S3483648x1, .f32⟩
  | 118 => ⟨S3483648x64, .f32⟩
  | 119 => ⟨S3483648x64, .f32⟩
  | 120 => ⟨S_, .f32⟩
  | 121 => ⟨S165888x64, .f32⟩
  | 122 => ⟨S3483648x1, .i32⟩
  | 123 => ⟨S165888x64, .f32⟩
  | 124 => ⟨S1x64, .f32⟩
  | 125 => ⟨S165888x64, .f32⟩
  | 126 => ⟨S165888x64, .f32⟩
  | 127 => ⟨S_, .f32⟩
  | _ => ⟨S165888x10, .f32⟩

abbrev hbmTy0_1 (i : Nat) : BufTy := match i % 128 with
  | 0 => ⟨S165888x64, .f32⟩
  | 1 => ⟨S165888x64, .f32⟩
  | 2 => ⟨S165888x32, .f32⟩
  | 3 => ⟨S_, .i32⟩
  | 4 => ⟨S3483648, .i32⟩
  | 5 => ⟨S3483648, .i1⟩
  | 6 => ⟨S_, .i32⟩
  | 7 => ⟨S3483648, .i32⟩
  | 8 => ⟨S3483648, .i32⟩
  | 9 => ⟨S3483648, .i32⟩
  | 10 => ⟨S3483648x1, .i32⟩
  | 11 => ⟨S3483648x32, .f32⟩
  | 12 => ⟨S3483648x1, .f32⟩
  | 13 => ⟨S3483648x32, .f32⟩
  | 14 => ⟨S3483648x32, .f32⟩
  | 15 => ⟨S_, .f32⟩
  | 16 => ⟨S165888x32, .f32⟩
  | 17 => ⟨S3483648x1, .i32⟩
  | 18 => ⟨S165888x32, .f32⟩
  | 19 => ⟨S1x32, .f32⟩
  | 20 => ⟨S165888x32, .f32⟩
  | 21 => ⟨S165888x32, .f32⟩
  | 22 => ⟨S_, .f32⟩
  | 23 => ⟨S165888x32, .f32⟩
  | 24 => ⟨S165888x32, .f32⟩
  | 25 => ⟨S165888x16, .f32⟩
  | 26 => ⟨S_, .i32⟩
  | 27 => ⟨S3483648, .i32⟩
  | 28 => ⟨S3483648, .i1⟩
  | 29 => ⟨S_, .i32⟩
  | 30 => ⟨S3483648, .i32⟩
  | 31 => ⟨S3483648, .i32⟩
  | 32 => ⟨S3483648, .i32⟩
  | 33 => ⟨S3483648x1, .i32⟩
  | 34 => ⟨S3483648x16, .f32⟩
  | 35 => ⟨S3483648x1, .f32⟩
  | 36 => ⟨S3483648x16, .f32⟩
  | 37 => ⟨S3483648x16, .f32⟩
  | 38 => ⟨S_, .f32⟩
  | 39 => ⟨S165888x16, .f32⟩
  | 40 => ⟨S3483648x1, .i32⟩
  | 41 => ⟨S165888x16, .f32⟩
  | 42 => ⟨S1x16, .f32⟩
  | 43 => ⟨S165888x16, .f32⟩
  | 44 => ⟨S165888x16, .f32⟩
  | 45 => ⟨S_, .f32⟩
  | 46 => ⟨S165888x16, .f32⟩
  | 47 => ⟨S165888x16, .f32⟩
  | 48 => ⟨S165888x16, .f32⟩
  | 49 => ⟨S1x16, .f32⟩
  | 50 => ⟨S165888x16, .f32⟩
  | 51 => ⟨S165888x16, .f32⟩
  | 52 => ⟨S_, .f32⟩
  | 53 => ⟨S165888x16, .f32⟩
  | 54 => ⟨S165888x16, .f32⟩
  | 55 => ⟨S165888x9, .f32⟩
  | 56 => ⟨S1x9, .f32⟩
  | 57 => ⟨S165888x9, .f32⟩
  | 58 => ⟨S165888x9, .f32⟩
  | 59 => ⟨S2048x81x9, .f32⟩
  | _ => ⟨S165888x10, .f32⟩

abbrev hbmTy (i : Nat) : BufTy := match i / 128 with
  | 0 => hbmTy0_0 i
  | 1 => hbmTy0_1 i
  | _ => ⟨S165888x10, .f32⟩

abbrev bufTy : (tb : Table) → Fin (tcTables nBuf tb) → BufTy
  | .hbm, ⟨i, _⟩ => hbmTy i
  | _, _ => ⟨S165888x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_c : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call2_cst : Ref sig .tc := ⟨.hbm, 104, rfl⟩
abbrev main_call2_v0 : Ref sig .tc := ⟨.hbm, 105, rfl⟩
abbrev main_v69 : Ref sig .tc := ⟨.hbm, 106, rfl⟩
abbrev main_v70 : Ref sig .tc := ⟨.hbm, 107, rfl⟩
abbrev main_c_13 : Ref sig .tc := ⟨.hbm, 108, rfl⟩
abbrev main_v71 : Ref sig .tc := ⟨.hbm, 109, rfl⟩
abbrev main_v72 : Ref sig .tc := ⟨.hbm, 110, rfl⟩
abbrev main_c_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_15 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_call3_cst : Ref sig .tc := ⟨.hbm, 127, rfl⟩
abbrev main_call3_v0 : Ref sig .tc := ⟨.hbm, 128, rfl⟩
abbrev main_v87 : Ref sig .tc := ⟨.hbm, 129, rfl⟩
abbrev main_v88 : Ref sig .tc := ⟨.hbm, 130, rfl⟩
abbrev main_c_16 : Ref sig .tc := ⟨.hbm, 131, rfl⟩
abbrev main_v89 : Ref sig .tc := ⟨.hbm, 132, rfl⟩
abbrev main_v90 : Ref sig .tc := ⟨.hbm, 133, rfl⟩
abbrev main_c_17 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_18 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call4_cst : Ref sig .tc := ⟨.hbm, 150, rfl⟩
abbrev main_call4_v0 : Ref sig .tc := ⟨.hbm, 151, rfl⟩
abbrev main_v105 : Ref sig .tc := ⟨.hbm, 152, rfl⟩
abbrev main_v106 : Ref sig .tc := ⟨.hbm, 153, rfl⟩
abbrev main_c_19 : Ref sig .tc := ⟨.hbm, 154, rfl⟩
abbrev main_v107 : Ref sig .tc := ⟨.hbm, 155, rfl⟩
abbrev main_v108 : Ref sig .tc := ⟨.hbm, 156, rfl⟩
abbrev main_c_20 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_21 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_call5_cst : Ref sig .tc := ⟨.hbm, 173, rfl⟩
abbrev main_call5_v0 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_call6_cst : Ref sig .tc := ⟨.hbm, 180, rfl⟩
abbrev main_call6_v0 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩

abbrev nD : Nat := 1
abbrev τ : Topo := Topo.v7x

variable {F : FTy → Type} [FloatOps F]

class Facts₀ : Prop where
  transposes_S2048x2x1620_S2x1620x2048_1_2_0 : S2048x2x1620.Transposes [1, 2, 0] S2x1620x2048
  shapeCasts_S2x1620x2048_S2x3317760 : S2x1620x2048.ShapeCasts S2x3317760
  slices_S2x3317760_S1x3317760_0_0 : S2x3317760.Slices ![0, 0] S1x3317760
  shapeCasts_S1x3317760_S3317760 : S1x3317760.ShapeCasts S3317760
  slices_S2x3317760_S1x3317760_1_0 : S2x3317760.Slices ![1, 0] S1x3317760
  concatenates_S3317760_S165888_S3483648_d0 : Shape.Concatenates [S3317760, S165888] S3483648 0
  bcast_S_S3483648 : S_.BroadcastsInDim S3483648 (![] : Fin 0 → Fin S3483648.rank)
  bcast_S_S165888 : S_.BroadcastsInDim S165888 (![] : Fin 0 → Fin S165888.rank)
  bcast_S3483648_S3483648x1_0 : S3483648.BroadcastsInDim S3483648x1 (![0] : Fin 1 → Fin S3483648x1.rank)
  bcast_S3483648x1_S3483648x16_0_1 : S3483648x1.BroadcastsInDim S3483648x16 (![0, 1] : Fin 2 → Fin S3483648x16.rank)
  bcast_S_S165888x16 : S_.BroadcastsInDim S165888x16 (![] : Fin 0 → Fin S165888x16.rank)
  bcast_S16_S1x16_1 : S16.BroadcastsInDim S1x16 (![1] : Fin 1 → Fin S1x16.rank)
  bcast_S1x16_S165888x16_0_1 : S1x16.BroadcastsInDim S165888x16 (![0, 1] : Fin 2 → Fin S165888x16.rank)
  bcast_S3483648x1_S3483648x32_0_1 : S3483648x1.BroadcastsInDim S3483648x32 (![0, 1] : Fin 2 → Fin S3483648x32.rank)
  bcast_S_S165888x32 : S_.BroadcastsInDim S165888x32 (![] : Fin 0 → Fin S165888x32.rank)
  bcast_S32_S1x32_1 : S32.BroadcastsInDim S1x32 (![1] : Fin 1 → Fin S1x32.rank)
  bcast_S1x32_S165888x32_0_1 : S1x32.BroadcastsInDim S165888x32 (![0, 1] : Fin 2 → Fin S165888x32.rank)
  bcast_S3483648x1_S3483648x64_0_1 : S3483648x1.BroadcastsInDim S3483648x64 (![0, 1] : Fin 2 → Fin S3483648x64.rank)
  bcast_S_S165888x64 : S_.BroadcastsInDim S165888x64 (![] : Fin 0 → Fin S165888x64.rank)
  bcast_S64_S1x64_1 : S64.BroadcastsInDim S1x64 (![1] : Fin 1 → Fin S1x64.rank)
  bcast_S1x64_S165888x64_0_1 : S1x64.BroadcastsInDim S165888x64 (![0, 1] : Fin 2 → Fin S165888x64.rank)
  bcast_S9_S1x9_1 : S9.BroadcastsInDim S1x9 (![1] : Fin 1 → Fin S1x9.rank)
  bcast_S1x9_S165888x9_0_1 : S1x9.BroadcastsInDim S165888x9 (![0, 1] : Fin 2 → Fin S165888x9.rank)
  shapeCasts_S165888x9_S2048x81x9 : S165888x9.ShapeCasts S2048x81x9
  scatter_S165888_S3483648x1_S3483648_n_0_0_1_wf : ScatterDims.WF S165888 S3483648x1 S3483648 [] [0] [0] 1
  gather_S165888_S3483648x1_S3483648_n_0_n_n_0_1_1_wf : GatherDims.WF S165888 S3483648x1 S3483648 [] [0] [] [0] [] 1 ![1]
  dot_S165888x10_S10x16_S165888x16_1_0_0_1_n_n_wf : DotDims.WF S165888x10 S10x16 S165888x16 [1] [0] [0] [1] [] []
  gather_S165888x16_S3483648x1_S3483648x16_1_0_n_n_0_1_116_wf : GatherDims.WF S165888x16 S3483648x1 S3483648x16 [1] [0] [] [0] [] 1 ![1, 16]
  scatter_S165888x16_S3483648x1_S3483648x16_1_0_0_1_wf : ScatterDims.WF S165888x16 S3483648x1 S3483648x16 [1] [0] [0] 1
  dot_S165888x16_S16x32_S165888x32_1_0_0_1_n_n_wf : DotDims.WF S165888x16 S16x32 S165888x32 [1] [0] [0] [1] [] []
  gather_S165888x32_S3483648x1_S3483648x32_1_0_n_n_0_1_132_wf : GatherDims.WF S165888x32 S3483648x1 S3483648x32 [1] [0] [] [0] [] 1 ![1, 32]
  scatter_S165888x32_S3483648x1_S3483648x32_1_0_0_1_wf : ScatterDims.WF S165888x32 S3483648x1 S3483648x32 [1] [0] [0] 1
  dot_S165888x32_S32x64_S165888x64_1_0_0_1_n_n_wf : DotDims.WF S165888x32 S32x64 S165888x64 [1] [0] [0] [1] [] []
  gather_S165888x64_S3483648x1_S3483648x64_1_0_n_n_0_1_164_wf : GatherDims.WF S165888x64 S3483648x1 S3483648x64 [1] [0] [] [0] [] 1 ![1, 64]
  scatter_S165888x64_S3483648x1_S3483648x64_1_0_0_1_wf : ScatterDims.WF S165888x64 S3483648x1 S3483648x64 [1] [0] [0] 1
  dot_S165888x64_S64x32_S165888x32_1_0_0_1_n_n_wf : DotDims.WF S165888x64 S64x32 S165888x32 [1] [0] [0] [1] [] []
  dot_S165888x32_S32x16_S165888x16_1_0_0_1_n_n_wf : DotDims.WF S165888x32 S32x16 S165888x16 [1] [0] [0] [1] [] []
  dot_S165888x16_S16x16_S165888x16_1_0_0_1_n_n_wf : DotDims.WF S165888x16 S16x16 S165888x16 [1] [0] [0] [1] [] []
  dot_S165888x16_S16x9_S165888x9_1_0_0_1_n_n_wf : DotDims.WF S165888x16 S16x9 S165888x9 [1] [0] [0] [1] [] []

variable [Facts₀]

def scatter_S165888_S3483648x1_S3483648_n_0_0_1 : ScatterDims S165888 S3483648x1 S3483648 where
  updateWindowDims := []
  insertedWindowDims := [0]
  scatterDimsToOperandDims := [0]
  indexVectorDim := 1
  wf := scatter_S165888_S3483648x1_S3483648_n_0_0_1_wf
def gather_S165888_S3483648x1_S3483648_n_0_n_n_0_1_1 : GatherDims S165888 S3483648x1 S3483648 where
  offsetDims := []
  collapsedSliceDims := [0]
  operandBatchingDims := []
  startIndicesBatchingDims := []
  startIndexMap := [0]
  indexVectorDim := 1
  sliceSizes := ![1]
  wf := gather_S165888_S3483648x1_S3483648_n_0_n_n_0_1_1_wf
def dot_S165888x10_S10x16_S165888x16_1_0_0_1_n_n : DotDims S165888x10 S10x16 S165888x16 where
  lhsContracting := [1]
  rhsContracting := [0]
  lhsNonContracting := [0]
  rhsNonContracting := [1]
  lhsBatch := []
  rhsBatch := []
  wf := dot_S165888x10_S10x16_S165888x16_1_0_0_1_n_n_wf
def gather_S165888x16_S3483648x1_S3483648x16_1_0_n_n_0_1_116 : GatherDims S165888x16 S3483648x1 S3483648x16 where
  offsetDims := [1]
  collapsedSliceDims := [0]
  operandBatchingDims := []
  startIndicesBatchingDims := []
  startIndexMap := [0]
  indexVectorDim := 1
  sliceSizes := ![1, 16]
  wf := gather_S165888x16_S3483648x1_S3483648x16_1_0_n_n_0_1_116_wf
def scatter_S165888x16_S3483648x1_S3483648x16_1_0_0_1 : ScatterDims S165888x16 S3483648x1 S3483648x16 where
  updateWindowDims := [1]
  insertedWindowDims := [0]
  scatterDimsToOperandDims := [0]
  indexVectorDim := 1
  wf := scatter_S165888x16_S3483648x1_S3483648x16_1_0_0_1_wf
def dot_S165888x16_S16x32_S165888x32_1_0_0_1_n_n : DotDims S165888x16 S16x32 S165888x32 where
  lhsContracting := [1]
  rhsContracting := [0]
  lhsNonContracting := [0]
  rhsNonContracting := [1]
  lhsBatch := []
  rhsBatch := []
  wf := dot_S165888x16_S16x32_S165888x32_1_0_0_1_n_n_wf
def gather_S165888x32_S3483648x1_S3483648x32_1_0_n_n_0_1_132 : GatherDims S165888x32 S3483648x1 S3483648x32 where
  offsetDims := [1]
  collapsedSliceDims := [0]
  operandBatchingDims := []
  startIndicesBatchingDims := []
  startIndexMap := [0]
  indexVectorDim := 1
  sliceSizes := ![1, 32]
  wf := gather_S165888x32_S3483648x1_S3483648x32_1_0_n_n_0_1_132_wf
def scatter_S165888x32_S3483648x1_S3483648x32_1_0_0_1 : ScatterDims S165888x32 S3483648x1 S3483648x32 where
  updateWindowDims := [1]
  insertedWindowDims := [0]
  scatterDimsToOperandDims := [0]
  indexVectorDim := 1
  wf := scatter_S165888x32_S3483648x1_S3483648x32_1_0_0_1_wf
def dot_S165888x32_S32x64_S165888x64_1_0_0_1_n_n : DotDims S165888x32 S32x64 S165888x64 where
  lhsContracting := [1]
  rhsContracting := [0]
  lhsNonContracting := [0]
  rhsNonContracting := [1]
  lhsBatch := []
  rhsBatch := []
  wf := dot_S165888x32_S32x64_S165888x64_1_0_0_1_n_n_wf
def gather_S165888x64_S3483648x1_S3483648x64_1_0_n_n_0_1_164 : GatherDims S165888x64 S3483648x1 S3483648x64 where
  offsetDims := [1]
  collapsedSliceDims := [0]
  operandBatchingDims := []
  startIndicesBatchingDims := []
  startIndexMap := [0]
  indexVectorDim := 1
  sliceSizes := ![1, 64]
  wf := gather_S165888x64_S3483648x1_S3483648x64_1_0_n_n_0_1_164_wf
def scatter_S165888x64_S3483648x1_S3483648x64_1_0_0_1 : ScatterDims S165888x64 S3483648x1 S3483648x64 where
  updateWindowDims := [1]
  insertedWindowDims := [0]
  scatterDimsToOperandDims := [0]
  indexVectorDim := 1
  wf := scatter_S165888x64_S3483648x1_S3483648x64_1_0_0_1_wf
def dot_S165888x64_S64x32_S165888x32_1_0_0_1_n_n : DotDims S165888x64 S64x32 S165888x32 where
  lhsContracting := [1]
  rhsContracting := [0]
  lhsNonContracting := [0]
  rhsNonContracting := [1]
  lhsBatch := []
  rhsBatch := []
  wf := dot_S165888x64_S64x32_S165888x32_1_0_0_1_n_n_wf
def dot_S165888x32_S32x16_S165888x16_1_0_0_1_n_n : DotDims S165888x32 S32x16 S165888x16 where
  lhsContracting := [1]
  rhsContracting := [0]
  lhsNonContracting := [0]
  rhsNonContracting := [1]
  lhsBatch := []
  rhsBatch := []
  wf := dot_S165888x32_S32x16_S165888x16_1_0_0_1_n_n_wf
def dot_S165888x16_S16x16_S165888x16_1_0_0_1_n_n : DotDims S165888x16 S16x16 S165888x16 where
  lhsContracting := [1]
  rhsContracting := [0]
  lhsNonContracting := [0]
  rhsNonContracting := [1]
  lhsBatch := []
  rhsBatch := []
  wf := dot_S165888x16_S16x16_S165888x16_1_0_0_1_n_n_wf
def dot_S165888x16_S16x9_S165888x9_1_0_0_1_n_n : DotDims S165888x16 S16x9 S165888x9 where
  lhsContracting := [1]
  rhsContracting := [0]
  lhsNonContracting := [0]
  rhsNonContracting := [1]
  lhsBatch := []
  rhsBatch := []
  wf := dot_S165888x16_S16x9_S165888x9_1_0_0_1_n_n_wf

class Facts : Prop extends Facts₀ where

variable [Facts]
-- ==== Proof.KRun.lean ====
/- The kernel's run with every buffer named.

   The kernel program is a chain of host stretches and seven pipelined regions. The generated frame module
   computes, segment by segment, the contents of every unscoped buffer at each boundary (`Gen.W0` at launch,
   ..., `Gen.W17` at the end) and launches the chain against them. Here the same launch is stated with the
   strongest post the chain offers: at the end EVERY unscoped buffer `b` of every device holds `Gen.W17 m ρ c b`
   (`run_all`). From it: the result buffer holds `Gen.W17 m ρ c main_v124` and each of the sixteen arguments
   still holds what it held at launch (`run_value`), the arguments read back through the fold by the generated
   `Gen.W17_main_argJ`. -/
import proofs.«105346_j23545010717334_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unifying its conclusion with this one, which takes unfolding
-- plain definitions in a metavariable's type
set_option backward.isDefEq.respectTransparency.types false in
/-- At the compiled mesh, from any memory with zero counters, every weakly fair execution of @main on the
    TensorCores terminates, nothing faulting, and in every final state each unscoped buffer `b` of each device `c`
    holds `Gen.W17 m ρ c b`: the chain of segments launched from `Gen.W0`, each segment taking one boundary's
    contents to the next, the last thread state read against the final memory. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

/-- The same run, keeping the result buffer and the sixteen arguments: at the end `main_v124` holds
    `Gen.W17 m ρ c main_v124` and every argument holds its launch contents (no segment writes an argument). -/
theorem run_value : θ_run defs (onTc (τ := τ) (main (F := F))) ⟨m, fun _ => 0, ρ⟩ (fun r => ∀ c : Dev nD,
      r.2.mem ((c.tc : Thread nD τ).loc main_v124) = W17 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨h c _ (mem_uc main_v124 (by decide)),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c),
     (h c _ (mem_uc main_arg5 (by decide))).trans (W17_main_arg5 m ρ c),
     (h c _ (mem_uc main_arg6 (by decide))).trans (W17_main_arg6 m ρ c),
     (h c _ (mem_uc main_arg7 (by decide))).trans (W17_main_arg7 m ρ c),
     (h c _ (mem_uc main_arg8 (by decide))).trans (W17_main_arg8 m ρ c),
     (h c _ (mem_uc main_arg9 (by decide))).trans (W17_main_arg9 m ρ c),
     (h c _ (mem_uc main_arg10 (by decide))).trans (W17_main_arg10 m ρ c),
     (h c _ (mem_uc main_arg11 (by decide))).trans (W17_main_arg11 m ρ c),
     (h c _ (mem_uc main_arg12 (by decide))).trans (W17_main_arg12 m ρ c),
     (h c _ (mem_uc main_arg13 (by decide))).trans (W17_main_arg13 m ρ c),
     (h c _ (mem_uc main_arg14 (by decide))).trans (W17_main_arg14 m ρ c),
     (h c _ (mem_uc main_arg15 (by decide))).trans (W17_main_arg15 m ρ c)⟩)
    (run_all m ρ)

end Cert.KernelIdeal.KRun

end
-- ==== Proof.StageSpec.lean ====
/-
  One dense stage of the network, as a function of whole arrays, index by index, on the extended reals.

  A stage takes a node-feature matrix `A0` (n rows, cin columns), a row `A1` added to every row of `A0` before the
  product, a weight matrix `A2` (cin by cout) and a row `A3` added to every row after the product:

      stage pre post A0 A1 A2 A3 (r, j) = post ( (Σ k, pre (A0 (r, k) + A1 (0, k)) · A2 (k, j)) + A3 (0, j) ).

  `pre` and `post` are the identity or the rectifier `relu x = max x 0`. Every layer of the message-passing network,
  and both layers of its final perceptron, is one such stage; what differs is which of the two rows is zero and where
  the rectifier sits.
-/
import Idealize.ShloMosaic.PureOps.Ideal
import Idealize.ShloMosaic.Lib.ValueIdx

noncomputable section

namespace Cert.StageSpec

open Idealize.ShloMosaic Idealize.ShloMosaic.ValueIdx

/-- The rectifier on the extended reals: the larger of `x` and the value of the all-zero f32 word (which is 0). -/
def relu (x : EReal) : EReal := max x (Ideal.ofBits .f32 0x00000000#32)

/-- One dense stage, index by index (see the header). -/
def stage (pre post : EReal → EReal) {n cin cout : ℕ}
    (A0 : (⟨2, ![n, cin]⟩ : Shape).Idx → EReal) (A1 : (⟨2, ![1, cin]⟩ : Shape).Idx → EReal)
    (A2 : (⟨2, ![cin, cout]⟩ : Shape).Idx → EReal) (A3 : (⟨2, ![1, cout]⟩ : Shape).Idx → EReal) :
    (⟨2, ![n, cout]⟩ : Shape).Idx → EReal :=
  fun i => post ((∑ k : Fin cin, pre (A0 (ix2 (i 0) k) + A1 (ix2 (0 : Fin 1) k)) * A2 (ix2 k (i 1))) + A3 (ix2 (0 : Fin 1) (i 1)))

/-- The stage at a pair of coordinates. -/
theorem stage_ix2 (pre post : EReal → EReal) {n cin cout : ℕ}
    (A0 : (⟨2, ![n, cin]⟩ : Shape).Idx → EReal) (A1 : (⟨2, ![1, cin]⟩ : Shape).Idx → EReal)
    (A2 : (⟨2, ![cin, cout]⟩ : Shape).Idx → EReal) (A3 : (⟨2, ![1, cout]⟩ : Shape).Idx → EReal)
    (r : Fin n) (j : Fin cout) :
    stage pre post A0 A1 A2 A3 (ix2 r j)
      = post ((∑ k : Fin cin, pre (A0 (ix2 r k) + A1 (ix2 (0 : Fin 1) k)) * A2 (ix2 k j)) + A3 (ix2 (0 : Fin 1) j)) := rfl

end Cert.StageSpec

end
-- ==== Proof.Stage0Pay.lean ====
/-
  The body of the first dense stage, read at one entry of its output block.

  The body adds the first row to the loaded block of node features, multiplies by the weight matrix and adds a second row. At the exact instance the two
  changes of float format are the identity and the product into a zero accumulator is the plain sum over the contracted
  index, so entry (p, q) of the stored block is
      id ((Σ k, id (x0 (p, k) + x1 (0, k)) · x2 (k, q)) + x3 (0, q)).
-/
import proofs.«105346_j23545010717334_1_alg».proof.Proof.Gen.KernelIdeal.Skeleton
import proofs.«105346_j23545010717334_1_alg».proof.Proof.StageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage0

open Cert.KernelIdeal Cert.KernelIdeal.Gen Cert.StageSpec Idealize.ShloMosaic Idealize.ShloMosaic.ValueIdx

/-- The contraction of the block product has one axis, of extent 10. -/
abbrev contr := ValueIdx.contrEquiv1 dot_S10368x10_S10x16_S10368x16_1_0_0_1_n_n 10 rfl rfl

theorem lhs0 (i : S10368x16.Idx) (q : dot_S10368x10_S10x16_S10368x16_1_0_0_1_n_n.contr.Idx) :
    (dot_S10368x10_S10x16_S10368x16_1_0_0_1_n_n.lhsIdx i q 0).val = (i 0).val := by
  unfold DotDims.lhsIdx
  rw [dif_neg (show ¬(0 : Fin S10368x10.rank) ∈ dot_S10368x10_S10x16_S10368x16_1_0_0_1_n_n.lhsBatch by decide), dif_pos (show (0 : Fin S10368x10.rank) ∈ dot_S10368x10_S10x16_S10368x16_1_0_0_1_n_n.lhsNonContracting by decide)]
  rfl
theorem lhs1 (i : S10368x16.Idx) (q : dot_S10368x10_S10x16_S10368x16_1_0_0_1_n_n.contr.Idx) :
    (dot_S10368x10_S10x16_S10368x16_1_0_0_1_n_n.lhsIdx i q 1).val = (q ⟨0, by decide⟩).val :=
  dot_S10368x10_S10x16_S10368x16_1_0_0_1_n_n.lhsIdx_val_of_single rfl i q
theorem rhs0 (i : S10368x16.Idx) (q : dot_S10368x10_S10x16_S10368x16_1_0_0_1_n_n.contr.Idx) :
    (dot_S10368x10_S10x16_S10368x16_1_0_0_1_n_n.rhsIdx i q 0).val = (q ⟨0, by decide⟩).val :=
  dot_S10368x10_S10x16_S10368x16_1_0_0_1_n_n.rhsIdx_val_of_single rfl i q
theorem rhs1 (i : S10368x16.Idx) (q : dot_S10368x10_S10x16_S10368x16_1_0_0_1_n_n.contr.Idx) :
    (dot_S10368x10_S10x16_S10368x16_1_0_0_1_n_n.rhsIdx i q 1).val = (i 1).val := by
  unfold DotDims.rhsIdx
  rw [dif_neg (show ¬(1 : Fin S10x16.rank) ∈ dot_S10368x10_S10x16_S10368x16_1_0_0_1_n_n.rhsBatch by decide), dif_pos (show (1 : Fin S10x16.rank) ∈ dot_S10368x10_S10x16_S10368x16_1_0_0_1_n_n.rhsNonContracting by decide)]
  rfl

/-- The block product at entry (p, q): the sum over the contracted index of left (p, k) times right (k, q). -/
theorem matmul_entry (l : FVec Ideal S10368x10 .bf16) (r : FVec Ideal S10x16 .bf16) (p : Fin 10368) (q : Fin 16) :
    FloatOps.matmul dot_S10368x10_S10x16_S10368x16_1_0_0_1_n_n none l r (constant S10368x16 .f32 0x00000000#32) (ix2 p q)
      = ∑ k : Fin 10, l (ix2 p k) * r (ix2 k q) := by
  refine (Ideal.matmul_constant_zero_apply dot_S10368x10_S10x16_S10368x16_1_0_0_1_n_n none l r (ix2 p q)).trans ?_
  refine (Equiv.sum_comp contr.symm _).symm.trans ?_
  refine Finset.sum_congr rfl fun k _ => ?_
  have hk := ValueIdx.contrEquiv1_symm_val dot_S10368x10_S10x16_S10368x16_1_0_0_1_n_n 10 rfl rfl k
  have el : dot_S10368x10_S10x16_S10368x16_1_0_0_1_n_n.lhsIdx (ix2 p q) (contr.symm k) = ix2 p k := funext fun a => Fin.ext (by
    match a with
    | ⟨0, _⟩ => exact lhs0 _ _
    | ⟨1, _⟩ => exact (lhs1 _ _).trans hk)
  have er : dot_S10368x10_S10x16_S10368x16_1_0_0_1_n_n.rhsIdx (ix2 p q) (contr.symm k) = ix2 k q := funext fun a => Fin.ext (by
    match a with
    | ⟨0, _⟩ => exact (rhs0 _ _).trans hk
    | ⟨1, _⟩ => exact rhs1 _ _)
  rw [el, er]

/-- Entry (p, q) of the block the body stores. -/
theorem pay_apply (x0 : Vec Ideal S10368x10 .f32) (x1 : Vec Ideal S1x10 .f32) (x2 : Vec Ideal S10x16 .f32) (x3 : Vec Ideal S1x16 .f32)
    (p : Fin 10368) (q : Fin 16) :
    k0_pay1 x0 x1 x2 x3 (ix2 p q)
      = id ((∑ k : Fin 10, id (x0 (ix2 p k) + x1 (ix2 (0 : Fin 1) k)) * x2 (ix2 k q)) + x3 (ix2 (0 : Fin 1) q)) := by
  unfold k0_pay1
  rw [shapeCast_self x1, shapeCast_self x3]
  refine congrArg₂ (· + ·) ?_ ?_
  · refine (matmul_entry _ _ p q).trans ?_
    refine Finset.sum_congr rfl fun k _ => ?_
    refine congrArg₂ (· * ·) ?_ rfl
    show x0 (ix2 p k) + broadcastTo S10368x10 x1 broadcasts_S1x10_S10368x10 (ix2 p k) = _
    rw [broadcastTo_1b_ab_apply]
    rfl
  · exact broadcastTo_1b_ab_apply x3 broadcasts_S1x16_S10368x16 p q

end Cert.KernelIdeal.Stage0

end
-- ==== Proof.Stage0.lean ====
/-
  The first dense stage as a whole-array function.

  The region runs the body at 16 grid points. Point t reads rows 10368·t … 10368·t + 10367 of the node-feature matrix
  (all 10 columns), the whole first row, the whole weight matrix and the whole second row, and writes rows
  10368·t … 10368·t + 10367 of the output (all 16 columns). The 16 output blocks tile the 165888 rows, so when the region
  ends the output array is the stage function of the four input arrays as the region found them, at every index.
-/
import proofs.«105346_j23545010717334_1_alg».proof.Proof.Gen.KernelIdeal.Frame
import proofs.«105346_j23545010717334_1_alg».proof.Proof.Stage0Pay

set_option maxRecDepth 16384

noncomputable section

namespace Cert.KernelIdeal.Stage0

open Cert.KernelIdeal Cert.KernelIdeal.Gen Cert.StageSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the node features and the output move with the point along the rows;
    the two rows and the weight matrix stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's block at a point whose inputs are the blocks of four arrays is the block of the stage function: entry
    (p, q) of the stored block is the stage at row r, column q, when the loaded rows are row r of the features. -/
theorem block_eq (A0 : S165888x10.Idx → EReal) (A1 : S1x10.Idx → EReal) (A2 : S10x16.Idx → EReal) (A3 : S1x16.Idx → EReal)
    (x0 : Vec Ideal S10368x10 .f32) (x1 : Vec Ideal S1x10 .f32) (x2 : Vec Ideal S10x16 .f32) (x3 : Vec Ideal S1x16 .f32)
    (r : Fin 165888) (p : Fin 10368) (q : Fin 16)
    (h0 : ∀ k : Fin 10, x0 (ix2 p k) = A0 (ix2 r k))
    (h1 : ∀ k : Fin 10, x1 (ix2 (0 : Fin 1) k) = A1 (ix2 (0 : Fin 1) k))
    (h2 : ∀ (k : Fin 10), x2 (ix2 k q) = A2 (ix2 k q))
    (h3 : x3 (ix2 (0 : Fin 1) q) = A3 (ix2 (0 : Fin 1) q)) :
    k0_pay1 x0 x1 x2 x3 (ix2 p q) = stage id id A0 A1 A2 A3 (ix2 r q) := by
  rw [pay_apply, stage_ix2, h3]
  refine congrArg id (congrArg₂ (· + ·) (Finset.sum_congr rfl fun k _ => ?_) rfl)
  rw [h0 k, h1 k, h2 k]

/-- The features' block at point t, entry (p, k), is the array at row 10368·t + p, column k. -/
theorem read0 (c : Dev nD) (t : Fin cfg0.N) (p : Fin 10368) (k : Fin 10) (r : Fin 165888) (hr : r.val = t.val * 10368 + p.val) :
    iblk0 V c 0 t (ix2 p k) = V c (Pipeline.arrRef spec0 0) (ix2 r k) := by
  obtain ⟨e00, e01, -⟩ := idx_facts t
  show V c (Pipeline.arrRef spec0 0) (((cfg0.win 0).blk t).view.emb (ix2 p k)) = V c (Pipeline.arrRef spec0 0) (ix2 r k)
  refine congrArg (V c (Pipeline.arrRef spec0 0)) (funext fun a => Fin.ext ?_)
  match a with
  | ⟨0, _⟩ => show win0_0.index t (0 : Fin 2) * 10368 + 1 * p.val = r.val; omega
  | ⟨1, _⟩ => show win0_0.index t (1 : Fin 2) * 10 + 1 * k.val = k.val; omega

/-- The first row's block is the whole row. -/
theorem read1 (c : Dev nD) (t : Fin cfg0.N) (k : Fin 10) :
    iblk0 V c 1 t (ix2 (0 : Fin 1) k) = V c (Pipeline.arrRef spec0 1) (ix2 (0 : Fin 1) k) := by
  obtain ⟨-, -, e10, e11, -⟩ := idx_facts t
  show V c (Pipeline.arrRef spec0 1) (((cfg0.win 1).blk t).view.emb (ix2 (0 : Fin 1) k)) = V c (Pipeline.arrRef spec0 1) (ix2 (0 : Fin 1) k)
  refine congrArg (V c (Pipeline.arrRef spec0 1)) (funext fun a => Fin.ext ?_)
  match a with
  | ⟨0, _⟩ => show win0_1.index t (0 : Fin 2) * 1 + 1 * 0 = 0; omega
  | ⟨1, _⟩ => show win0_1.index t (1 : Fin 2) * 10 + 1 * k.val = k.val; omega

/-- The weight matrix's block is the whole matrix. -/
theorem read2 (c : Dev nD) (t : Fin cfg0.N) (k : Fin 10) (q : Fin 16) :
    iblk0 V c 2 t (ix2 k q) = V c (Pipeline.arrRef spec0 2) (ix2 k q) := by
  obtain ⟨-, -, -, -, e20, e21, -⟩ := idx_facts t
  show V c (Pipeline.arrRef spec0 2) (((cfg0.win 2).blk t).view.emb (ix2 k q)) = V c (Pipeline.arrRef spec0 2) (ix2 k q)
  refine congrArg (V c (Pipeline.arrRef spec0 2)) (funext fun a => Fin.ext ?_)
  match a with
  | ⟨0, _⟩ => show win0_2.index t (0 : Fin 2) * 10 + 1 * k.val = k.val; omega
  | ⟨1, _⟩ => show win0_2.index t (1 : Fin 2) * 16 + 1 * q.val = q.val; omega

/-- The second row's block is the whole row. -/
theorem read3 (c : Dev nD) (t : Fin cfg0.N) (q : Fin 16) :
    iblk0 V c 3 t (ix2 (0 : Fin 1) q) = V c (Pipeline.arrRef spec0 3) (ix2 (0 : Fin 1) q) := by
  obtain ⟨-, -, -, -, -, -, e30, e31, -⟩ := idx_facts t
  show V c (Pipeline.arrRef spec0 3) (((cfg0.win 3).blk t).view.emb (ix2 (0 : Fin 1) q)) = V c (Pipeline.arrRef spec0 3) (ix2 (0 : Fin 1) q)
  refine congrArg (V c (Pipeline.arrRef spec0 3)) (funext fun a => Fin.ext ?_)
  match a with
  | ⟨0, _⟩ => show win0_3.index t (0 : Fin 2) * 1 + 1 * 0 = 0; omega
  | ⟨1, _⟩ => show win0_3.index t (1 : Fin 2) * 16 + 1 * q.val = q.val; omega

/-- What point t writes back is block t of the stage function of the arrays as the region finds them. -/
theorem flushed_eq (c : Dev nD) (t : Fin cfg0.N) :
    (dat0 (F := Ideal) V c).flushed 4 t = ((cfg0.win 4).blk t).view.read (Elt Ideal)
      (stage id id (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S10368x10) hz, View.ld_unit_zero (S := S1x10) hz, View.ld_unit_zero (S := S10x16) hz, View.ld_unit_zero (S := S1x16) hz]
  obtain ⟨-, -, -, -, -, -, -, -, e40, e41⟩ := idx_facts t
  have ht : t.val < 16 := t.isLt
  funext j
  have hj0 : (j 0).val < 10368 := (j 0).isLt
  have hj1 : (j 1).val < 16 := (j 1).isLt
  show k0_pay1 (iblk0 V c 0 t) (iblk0 V c 1 t) (iblk0 V c 2 t) (iblk0 V c 3 t) j
    = stage id id (V c (Pipeline.arrRef spec0 0)) (V c (Pipeline.arrRef spec0 1)) (V c (Pipeline.arrRef spec0 2)) (V c (Pipeline.arrRef spec0 3))
        (((cfg0.win 4).blk t).view.emb j)
  have hj : j = ix2 (j 0) (j 1) := eq_ix2 j
  have hemb : ((cfg0.win 4).blk t).view.emb j = ix2 (⟨t.val * 10368 + (j 0).val, by omega⟩ : Fin 165888) (j 1) := funext fun a => Fin.ext (by
    match a with
    | ⟨0, _⟩ => show win0_4.index t (0 : Fin 2) * 10368 + 1 * (j 0).val = t.val * 10368 + (j 0).val; omega
    | ⟨1, _⟩ => show win0_4.index t (1 : Fin 2) * 16 + 1 * (j 1).val = (j 1).val; omega)
  rw [hemb]
  refine (congrArg (k0_pay1 (iblk0 V c 0 t) (iblk0 V c 1 t) (iblk0 V c 2 t) (iblk0 V c 3 t)) hj).trans ?_
  exact block_eq _ _ _ _ (iblk0 V c 0 t) (iblk0 V c 1 t) (iblk0 V c 2 t) (iblk0 V c 3 t) ⟨t.val * 10368 + (j 0).val, by omega⟩ (j 0) (j 1)
    (fun k => read0 V c t (j 0) k _ rfl) (fun k => read1 V c t k) (fun k => read2 V c t k (j 1)) (read3 V c t (j 1))

/-- An index of the output array is in point t's block iff each coordinate is in the block's range on its axis. -/
theorem mem_blk (t : Fin cfg0.N) (i : S165888x16.Idx) :
    i ∈ ((cfg0.win 4).blk t).view.set ↔ ∀ a : Fin 2, win0_4.index t a * S10368x16.size a ≤ (i a).val ∧ (i a).val < win0_4.index t a * S10368x16.size a + S10368x16.size a := by
  show i ∈ ((View.whole main_v40).slice (win0_4.rect t)).set ↔ _
  rw [View.set_slice_whole, Rect.mem_set_unit]
  exact Iff.rfl

/-- Every index of the output array is in the block of the point its row falls under. -/
theorem cover (i : S165888x16.Idx) : ∃ t : Fin cfg0.N, (cfg0.win 4).flush t = true ∧ i ∈ ((cfg0.win 4).blk t).view.set := by
  have hi0 : (i 0).val < 165888 := (i 0).isLt
  have hi1 : (i 1).val < 16 := (i 1).isLt
  have hN : cfg0.N = 16 := rfl
  have htlt : (i 0).val / 10368 < cfg0.N := by rw [hN]; omega
  obtain ⟨-, -, -, -, -, -, -, -, e40, e41⟩ := idx_facts ⟨(i 0).val / 10368, htlt⟩
  refine ⟨⟨(i 0).val / 10368, htlt⟩, flush0_4 _, ?_⟩
  rw [mem_blk]
  intro a
  match a with
  | ⟨0, _⟩ =>
    show win0_4.index ⟨(i 0).val / 10368, htlt⟩ (0 : Fin 2) * 10368 ≤ (i 0).val ∧ (i 0).val < win0_4.index ⟨(i 0).val / 10368, htlt⟩ (0 : Fin 2) * 10368 + 10368
    rw [e40]; show (i 0).val / 10368 * 10368 ≤ (i 0).val ∧ (i 0).val < (i 0).val / 10368 * 10368 + 10368; omega
  | ⟨1, _⟩ =>
    show win0_4.index ⟨(i 0).val / 10368, htlt⟩ (1 : Fin 2) * 16 ≤ (i 1).val ∧ (i 1).val < win0_4.index ⟨(i 0).val / 10368, htlt⟩ (1 : Fin 2) * 16 + 16
    rw [e41]; omega

/-- When the region ends, its output array is the stage function of its four input arrays as it found them. -/
theorem final (c : Dev nD) :
    (dat0 (F := Ideal) V c).arrAt 4 cfg0.N
      = stage id id (V c (Pipeline.arrRef spec0 0)) (V c (Pipeline.arrRef spec0 1)) (V c (Pipeline.arrRef spec0 2)) (V c (Pipeline.arrRef spec0 3)) :=
  (dat0 (F := Ideal) V c).arrAt_eq_of_cover 4 _ (fun t _ => flushed_eq V c t) cover

end Cert.KernelIdeal.Stage0

end
-- ==== Proof.Stage1Pay.lean ====
/-
  The body of the second dense stage, read at one entry of its output block.

  The body adds the first row to the loaded block of node features, rectifies, multiplies by the weight matrix and adds a second row. At the exact instance the two
  changes of float format are the identity and the product into a zero accumulator is the plain sum over the contracted
  index, so entry (p, q) of the stored block is
      id ((Σ k, relu (x0 (p, k) + x1 (0, k)) · x2 (k, q)) + x3 (0, q)).
-/
import proofs.«105346_j23545010717334_1_alg».proof.Proof.Gen.KernelIdeal.Skeleton
import proofs.«105346_j23545010717334_1_alg».proof.Proof.StageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage1

open Cert.KernelIdeal Cert.KernelIdeal.Gen Cert.StageSpec Idealize.ShloMosaic Idealize.ShloMosaic.ValueIdx

/-- The contraction of the block product has one axis, of extent 16. -/
abbrev contr := ValueIdx.contrEquiv1 dot_S10368x16_S16x32_S10368x32_1_0_0_1_n_n 16 rfl rfl

theorem lhs0 (i : S10368x32.Idx) (q : dot_S10368x16_S16x32_S10368x32_1_0_0_1_n_n.contr.Idx) :
    (dot_S10368x16_S16x32_S10368x32_1_0_0_1_n_n.lhsIdx i q 0).val = (i 0).val := by
  unfold DotDims.lhsIdx
  rw [dif_neg (show ¬(0 : Fin S10368x16.rank) ∈ dot_S10368x16_S16x32_S10368x32_1_0_0_1_n_n.lhsBatch by decide), dif_pos (show (0 : Fin S10368x16.rank) ∈ dot_S10368x16_S16x32_S10368x32_1_0_0_1_n_n.lhsNonContracting by decide)]
  rfl
theorem lhs1 (i : S10368x32.Idx) (q : dot_S10368x16_S16x32_S10368x32_1_0_0_1_n_n.contr.Idx) :
    (dot_S10368x16_S16x32_S10368x32_1_0_0_1_n_n.lhsIdx i q 1).val = (q ⟨0, by decide⟩).val :=
  dot_S10368x16_S16x32_S10368x32_1_0_0_1_n_n.lhsIdx_val_of_single rfl i q
theorem rhs0 (i : S10368x32.Idx) (q : dot_S10368x16_S16x32_S10368x32_1_0_0_1_n_n.contr.Idx) :
    (dot_S10368x16_S16x32_S10368x32_1_0_0_1_n_n.rhsIdx i q 0).val = (q ⟨0, by decide⟩).val :=
  dot_S10368x16_S16x32_S10368x32_1_0_0_1_n_n.rhsIdx_val_of_single rfl i q
theorem rhs1 (i : S10368x32.Idx) (q : dot_S10368x16_S16x32_S10368x32_1_0_0_1_n_n.contr.Idx) :
    (dot_S10368x16_S16x32_S10368x32_1_0_0_1_n_n.rhsIdx i q 1).val = (i 1).val := by
  unfold DotDims.rhsIdx
  rw [dif_neg (show ¬(1 : Fin S16x32.rank) ∈ dot_S10368x16_S16x32_S10368x32_1_0_0_1_n_n.rhsBatch by decide), dif_pos (show (1 : Fin S16x32.rank) ∈ dot_S10368x16_S16x32_S10368x32_1_0_0_1_n_n.rhsNonContracting by decide)]
  rfl

/-- The block product at entry (p, q): the sum over the contracted index of left (p, k) times right (k, q). -/
theorem matmul_entry (l : FVec Ideal S10368x16 .bf16) (r : FVec Ideal S16x32 .bf16) (p : Fin 10368) (q : Fin 32) :
    FloatOps.matmul dot_S10368x16_S16x32_S10368x32_1_0_0_1_n_n none l r (constant S10368x32 .f32 0x00000000#32) (ix2 p q)
      = ∑ k : Fin 16, l (ix2 p k) * r (ix2 k q) := by
  refine (Ideal.matmul_constant_zero_apply dot_S10368x16_S16x32_S10368x32_1_0_0_1_n_n none l r (ix2 p q)).trans ?_
  refine (Equiv.sum_comp contr.symm _).symm.trans ?_
  refine Finset.sum_congr rfl fun k _ => ?_
  have hk := ValueIdx.contrEquiv1_symm_val dot_S10368x16_S16x32_S10368x32_1_0_0_1_n_n 16 rfl rfl k
  have el : dot_S10368x16_S16x32_S10368x32_1_0_0_1_n_n.lhsIdx (ix2 p q) (contr.symm k) = ix2 p k := funext fun a => Fin.ext (by
    match a with
    | ⟨0, _⟩ => exact lhs0 _ _
    | ⟨1, _⟩ => exact (lhs1 _ _).trans hk)
  have er : dot_S10368x16_S16x32_S10368x32_1_0_0_1_n_n.rhsIdx (ix2 p q) (contr.symm k) = ix2 k q := funext fun a => Fin.ext (by
    match a with
    | ⟨0, _⟩ => exact (rhs0 _ _).trans hk
    | ⟨1, _⟩ => exact rhs1 _ _)
  rw [el, er]

/-- Entry (p, q) of the block the body stores. -/
theorem pay_apply (x0 : Vec Ideal S10368x16 .f32) (x1 : Vec Ideal S1x16 .f32) (x2 : Vec Ideal S16x32 .f32) (x3 : Vec Ideal S1x32 .f32)
    (p : Fin 10368) (q : Fin 32) :
    k1_pay1 x0 x1 x2 x3 (ix2 p q)
      = id ((∑ k : Fin 16, relu (x0 (ix2 p k) + x1 (ix2 (0 : Fin 1) k)) * x2 (ix2 k q)) + x3 (ix2 (0 : Fin 1) q)) := by
  unfold k1_pay1
  rw [shapeCast_self x0, shapeCast_self x1, shapeCast_self x3]
  refine congrArg₂ (· + ·) ?_ ?_
  · refine (matmul_entry _ _ p q).trans ?_
    refine Finset.sum_congr rfl fun k _ => ?_
    refine congrArg₂ (· * ·) ?_ rfl
    show max (x0 (ix2 p k) + broadcastTo S10368x16 x1 broadcasts_S1x16_S10368x16 (ix2 p k)) _ = _
    rw [broadcastTo_1b_ab_apply]
    rfl
  · exact broadcastTo_1b_ab_apply x3 broadcasts_S1x32_S10368x32 p q

end Cert.KernelIdeal.Stage1

end
-- ==== Proof.Stage1.lean ====
/-
  The second dense stage as a whole-array function.

  The region runs the body at 16 grid points. Point t reads rows 10368·t … 10368·t + 10367 of the node-feature matrix
  (all 16 columns), the whole first row, the whole weight matrix and the whole second row, and writes rows
  10368·t … 10368·t + 10367 of the output (all 32 columns). The 16 output blocks tile the 165888 rows, so when the region
  ends the output array is the stage function of the four input arrays as the region found them, at every index.
-/
import proofs.«105346_j23545010717334_1_alg».proof.Proof.Gen.KernelIdeal.Frame
import proofs.«105346_j23545010717334_1_alg».proof.Proof.Stage1Pay

set_option maxRecDepth 16384

noncomputable section

namespace Cert.KernelIdeal.Stage1

open Cert.KernelIdeal Cert.KernelIdeal.Gen Cert.StageSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the node features and the output move with the point along the rows;
    the two rows and the weight matrix stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's block at a point whose inputs are the blocks of four arrays is the block of the stage function: entry
    (p, q) of the stored block is the stage at row r, column q, when the loaded rows are row r of the features. -/
theorem block_eq (A0 : S165888x16.Idx → EReal) (A1 : S1x16.Idx → EReal) (A2 : S16x32.Idx → EReal) (A3 : S1x32.Idx → EReal)
    (x0 : Vec Ideal S10368x16 .f32) (x1 : Vec Ideal S1x16 .f32) (x2 : Vec Ideal S16x32 .f32) (x3 : Vec Ideal S1x32 .f32)
    (r : Fin 165888) (p : Fin 10368) (q : Fin 32)
    (h0 : ∀ k : Fin 16, x0 (ix2 p k) = A0 (ix2 r k))
    (h1 : ∀ k : Fin 16, x1 (ix2 (0 : Fin 1) k) = A1 (ix2 (0 : Fin 1) k))
    (h2 : ∀ (k : Fin 16), x2 (ix2 k q) = A2 (ix2 k q))
    (h3 : x3 (ix2 (0 : Fin 1) q) = A3 (ix2 (0 : Fin 1) q)) :
    k1_pay1 x0 x1 x2 x3 (ix2 p q) = stage relu id A0 A1 A2 A3 (ix2 r q) := by
  rw [pay_apply, stage_ix2, h3]
  refine congrArg id (congrArg₂ (· + ·) (Finset.sum_congr rfl fun k _ => ?_) rfl)
  rw [h0 k, h1 k, h2 k]

/-- The features' block at point t, entry (p, k), is the array at row 10368·t + p, column k. -/
theorem read0 (c : Dev nD) (t : Fin cfg1.N) (p : Fin 10368) (k : Fin 16) (r : Fin 165888) (hr : r.val = t.val * 10368 + p.val) :
    iblk1 V c 0 t (ix2 p k) = V c (Pipeline.arrRef spec1 0) (ix2 r k) := by
  obtain ⟨e00, e01, -⟩ := idx_facts t
  show V c (Pipeline.arrRef spec1 0) (((cfg1.win 0).blk t).view.emb (ix2 p k)) = V c (Pipeline.arrRef spec1 0) (ix2 r k)
  refine congrArg (V c (Pipeline.arrRef spec1 0)) (funext fun a => Fin.ext ?_)
  match a with
  | ⟨0, _⟩ => show win1_0.index t (0 : Fin 2) * 10368 + 1 * p.val = r.val; omega
  | ⟨1, _⟩ => show win1_0.index t (1 : Fin 2) * 16 + 1 * k.val = k.val; omega

/-- The first row's block is the whole row. -/
theorem read1 (c : Dev nD) (t : Fin cfg1.N) (k : Fin 16) :
    iblk1 V c 1 t (ix2 (0 : Fin 1) k) = V c (Pipeline.arrRef spec1 1) (ix2 (0 : Fin 1) k) := by
  obtain ⟨-, -, e10, e11, -⟩ := idx_facts t
  show V c (Pipeline.arrRef spec1 1) (((cfg1.win 1).blk t).view.emb (ix2 (0 : Fin 1) k)) = V c (Pipeline.arrRef spec1 1) (ix2 (0 : Fin 1) k)
  refine congrArg (V c (Pipeline.arrRef spec1 1)) (funext fun a => Fin.ext ?_)
  match a with
  | ⟨0, _⟩ => show win1_1.index t (0 : Fin 2) * 1 + 1 * 0 = 0; omega
  | ⟨1, _⟩ => show win1_1.index t (1 : Fin 2) * 16 + 1 * k.val = k.val; omega

/-- The weight matrix's block is the whole matrix. -/
theorem read2 (c : Dev nD) (t : Fin cfg1.N) (k : Fin 16) (q : Fin 32) :
    iblk1 V c 2 t (ix2 k q) = V c (Pipeline.arrRef spec1 2) (ix2 k q) := by
  obtain ⟨-, -, -, -, e20, e21, -⟩ := idx_facts t
  show V c (Pipeline.arrRef spec1 2) (((cfg1.win 2).blk t).view.emb (ix2 k q)) = V c (Pipeline.arrRef spec1 2) (ix2 k q)
  refine congrArg (V c (Pipeline.arrRef spec1 2)) (funext fun a => Fin.ext ?_)
  match a with
  | ⟨0, _⟩ => show win1_2.index t (0 : Fin 2) * 16 + 1 * k.val = k.val; omega
  | ⟨1, _⟩ => show win1_2.index t (1 : Fin 2) * 32 + 1 * q.val = q.val; omega

/-- The second row's block is the whole row. -/
theorem read3 (c : Dev nD) (t : Fin cfg1.N) (q : Fin 32) :
    iblk1 V c 3 t (ix2 (0 : Fin 1) q) = V c (Pipeline.arrRef spec1 3) (ix2 (0 : Fin 1) q) := by
  obtain ⟨-, -, -, -, -, -, e30, e31, -⟩ := idx_facts t
  show V c (Pipeline.arrRef spec1 3) (((cfg1.win 3).blk t).view.emb (ix2 (0 : Fin 1) q)) = V c (Pipeline.arrRef spec1 3) (ix2 (0 : Fin 1) q)
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 32 + 1 * q.val = q.val; omega

/-- What point t writes back is block t of the stage function of the arrays as the region finds them. -/
theorem flushed_eq (c : Dev nD) (t : Fin cfg1.N) :
    (dat1 (F := Ideal) V c).flushed 4 t = ((cfg1.win 4).blk t).view.read (Elt Ideal)
      (stage relu id (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S10368x16) hz, View.ld_unit_zero (S := S1x16) hz, View.ld_unit_zero (S := S16x32) hz, View.ld_unit_zero (S := S1x32) hz]
  obtain ⟨-, -, -, -, -, -, -, -, e40, e41⟩ := idx_facts t
  have ht : t.val < 16 := t.isLt
  funext j
  have hj0 : (j 0).val < 10368 := (j 0).isLt
  have hj1 : (j 1).val < 32 := (j 1).isLt
  show k1_pay1 (iblk1 V c 0 t) (iblk1 V c 1 t) (iblk1 V c 2 t) (iblk1 V c 3 t) j
    = stage relu id (V c (Pipeline.arrRef spec1 0)) (V c (Pipeline.arrRef spec1 1)) (V c (Pipeline.arrRef spec1 2)) (V c (Pipeline.arrRef spec1 3))
        (((cfg1.win 4).blk t).view.emb j)
  have hj : j = ix2 (j 0) (j 1) := eq_ix2 j
  have hemb : ((cfg1.win 4).blk t).view.emb j = ix2 (⟨t.val * 10368 + (j 0).val, by omega⟩ : Fin 165888) (j 1) := funext fun a => Fin.ext (by
    match a with
    | ⟨0, _⟩ => show win1_4.index t (0 : Fin 2) * 10368 + 1 * (j 0).val = t.val * 10368 + (j 0).val; omega
    | ⟨1, _⟩ => show win1_4.index t (1 : Fin 2) * 32 + 1 * (j 1).val = (j 1).val; omega)
  rw [hemb]
  refine (congrArg (k1_pay1 (iblk1 V c 0 t) (iblk1 V c 1 t) (iblk1 V c 2 t) (iblk1 V c 3 t)) hj).trans ?_
  exact block_eq _ _ _ _ (iblk1 V c 0 t) (iblk1 V c 1 t) (iblk1 V c 2 t) (iblk1 V c 3 t) ⟨t.val * 10368 + (j 0).val, by omega⟩ (j 0) (j 1)
    (fun k => read0 V c t (j 0) k _ rfl) (fun k => read1 V c t k) (fun k => read2 V c t k (j 1)) (read3 V c t (j 1))

/-- An index of the output array is in point t's block iff each coordinate is in the block's range on its axis. -/
theorem mem_blk (t : Fin cfg1.N) (i : S165888x32.Idx) :
    i ∈ ((cfg1.win 4).blk t).view.set ↔ ∀ a : Fin 2, win1_4.index t a * S10368x32.size a ≤ (i a).val ∧ (i a).val < win1_4.index t a * S10368x32.size a + S10368x32.size a := by
  show i ∈ ((View.whole main_v56).slice (win1_4.rect t)).set ↔ _
  rw [View.set_slice_whole, Rect.mem_set_unit]
  exact Iff.rfl

/-- Every index of the output array is in the block of the point its row falls under. -/
theorem cover (i : S165888x32.Idx) : ∃ t : Fin cfg1.N, (cfg1.win 4).flush t = true ∧ i ∈ ((cfg1.win 4).blk t).view.set := by
  have hi0 : (i 0).val < 165888 := (i 0).isLt
  have hi1 : (i 1).val < 32 := (i 1).isLt
  have hN : cfg1.N = 16 := rfl
  have htlt : (i 0).val / 10368 < cfg1.N := by rw [hN]; omega
  obtain ⟨-, -, -, -, -, -, -, -, e40, e41⟩ := idx_facts ⟨(i 0).val / 10368, htlt⟩
  refine ⟨⟨(i 0).val / 10368, htlt⟩, flush1_4 _, ?_⟩
  rw [mem_blk]
  intro a
  match a with
  | ⟨0, _⟩ =>
    show win1_4.index ⟨(i 0).val / 10368, htlt⟩ (0 : Fin 2) * 10368 ≤ (i 0).val ∧ (i 0).val < win1_4.index ⟨(i 0).val / 10368, htlt⟩ (0 : Fin 2) * 10368 + 10368
    rw [e40]; show (i 0).val / 10368 * 10368 ≤ (i 0).val ∧ (i 0).val < (i 0).val / 10368 * 10368 + 10368; omega
  | ⟨1, _⟩ =>
    show win1_4.index ⟨(i 0).val / 10368, htlt⟩ (1 : Fin 2) * 32 ≤ (i 1).val ∧ (i 1).val < win1_4.index ⟨(i 0).val / 10368, htlt⟩ (1 : Fin 2) * 32 + 32
    rw [e41]; omega

/-- When the region ends, its output array is the stage function of its four input arrays as it found them. -/
theorem final (c : Dev nD) :
    (dat1 (F := Ideal) V c).arrAt 4 cfg1.N
      = stage relu id (V c (Pipeline.arrRef spec1 0)) (V c (Pipeline.arrRef spec1 1)) (V c (Pipeline.arrRef spec1 2)) (V c (Pipeline.arrRef spec1 3)) :=
  (dat1 (F := Ideal) V c).arrAt_eq_of_cover 4 _ (fun t _ => flushed_eq V c t) cover

end Cert.KernelIdeal.Stage1

end
-- ==== Proof.Stage2Pay.lean ====
/-
  The body of the third dense stage, read at one entry of its output block.

  The body adds the first row to the loaded block of node features, rectifies, multiplies by the weight matrix and adds a second row. At the exact instance the two
  changes of float format are the identity and the product into a zero accumulator is the plain sum over the contracted
  index, so entry (p, q) of the stored block is
      id ((Σ k, relu (x0 (p, k) + x1 (0, k)) · x2 (k, q)) + x3 (0, q)).
-/
import proofs.«105346_j23545010717334_1_alg».proof.Proof.Gen.KernelIdeal.Skeleton
import proofs.«105346_j23545010717334_1_alg».proof.Proof.StageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage2

open Cert.KernelIdeal Cert.KernelIdeal.Gen Cert.StageSpec Idealize.ShloMosaic Idealize.ShloMosaic.ValueIdx

/-- The contraction of the block product has one axis, of extent 32. -/
abbrev contr := ValueIdx.contrEquiv1 dot_S10368x32_S32x64_S10368x64_1_0_0_1_n_n 32 rfl rfl

theorem lhs0 (i : S10368x64.Idx) (q : dot_S10368x32_S32x64_S10368x64_1_0_0_1_n_n.contr.Idx) :
    (dot_S10368x32_S32x64_S10368x64_1_0_0_1_n_n.lhsIdx i q 0).val = (i 0).val := by
  unfold DotDims.lhsIdx
  rw [dif_neg (show ¬(0 : Fin S10368x32.rank) ∈ dot_S10368x32_S32x64_S10368x64_1_0_0_1_n_n.lhsBatch by decide), dif_pos (show (0 : Fin S10368x32.rank) ∈ dot_S10368x32_S32x64_S10368x64_1_0_0_1_n_n.lhsNonContracting by decide)]
  rfl
theorem lhs1 (i : S10368x64.Idx) (q : dot_S10368x32_S32x64_S10368x64_1_0_0_1_n_n.contr.Idx) :
    (dot_S10368x32_S32x64_S10368x64_1_0_0_1_n_n.lhsIdx i q 1).val = (q ⟨0, by decide⟩).val :=
  dot_S10368x32_S32x64_S10368x64_1_0_0_1_n_n.lhsIdx_val_of_single rfl i q
theorem rhs0 (i : S10368x64.Idx) (q : dot_S10368x32_S32x64_S10368x64_1_0_0_1_n_n.contr.Idx) :
    (dot_S10368x32_S32x64_S10368x64_1_0_0_1_n_n.rhsIdx i q 0).val = (q ⟨0, by decide⟩).val :=
  dot_S10368x32_S32x64_S10368x64_1_0_0_1_n_n.rhsIdx_val_of_single rfl i q
theorem rhs1 (i : S10368x64.Idx) (q : dot_S10368x32_S32x64_S10368x64_1_0_0_1_n_n.contr.Idx) :
    (dot_S10368x32_S32x64_S10368x64_1_0_0_1_n_n.rhsIdx i q 1).val = (i 1).val := by
  unfold DotDims.rhsIdx
  rw [dif_neg (show ¬(1 : Fin S32x64.rank) ∈ dot_S10368x32_S32x64_S10368x64_1_0_0_1_n_n.rhsBatch by decide), dif_pos (show (1 : Fin S32x64.rank) ∈ dot_S10368x32_S32x64_S10368x64_1_0_0_1_n_n.rhsNonContracting by decide)]
  rfl

/-- The block product at entry (p, q): the sum over the contracted index of left (p, k) times right (k, q). -/
theorem matmul_entry (l : FVec Ideal S10368x32 .bf16) (r : FVec Ideal S32x64 .bf16) (p : Fin 10368) (q : Fin 64) :
    FloatOps.matmul dot_S10368x32_S32x64_S10368x64_1_0_0_1_n_n none l r (constant S10368x64 .f32 0x00000000#32) (ix2 p q)
      = ∑ k : Fin 32, l (ix2 p k) * r (ix2 k q) := by
  refine (Ideal.matmul_constant_zero_apply dot_S10368x32_S32x64_S10368x64_1_0_0_1_n_n none l r (ix2 p q)).trans ?_
  refine (Equiv.sum_comp contr.symm _).symm.trans ?_
  refine Finset.sum_congr rfl fun k _ => ?_
  have hk := ValueIdx.contrEquiv1_symm_val dot_S10368x32_S32x64_S10368x64_1_0_0_1_n_n 32 rfl rfl k
  have el : dot_S10368x32_S32x64_S10368x64_1_0_0_1_n_n.lhsIdx (ix2 p q) (contr.symm k) = ix2 p k := funext fun a => Fin.ext (by
    match a with
    | ⟨0, _⟩ => exact lhs0 _ _
    | ⟨1, _⟩ => exact (lhs1 _ _).trans hk)
  have er : dot_S10368x32_S32x64_S10368x64_1_0_0_1_n_n.rhsIdx (ix2 p q) (contr.symm k) = ix2 k q := funext fun a => Fin.ext (by
    match a with
    | ⟨0, _⟩ => exact (rhs0 _ _).trans hk
    | ⟨1, _⟩ => exact rhs1 _ _)
  rw [el, er]

/-- Entry (p, q) of the block the body stores. -/
theorem pay_apply (x0 : Vec Ideal S10368x32 .f32) (x1 : Vec Ideal S1x32 .f32) (x2 : Vec Ideal S32x64 .f32) (x3 : Vec Ideal S1x64 .f32)
    (p : Fin 10368) (q : Fin 64) :
    k2_pay1 x0 x1 x2 x3 (ix2 p q)
      = id ((∑ k : Fin 32, relu (x0 (ix2 p k) + x1 (ix2 (0 : Fin 1) k)) * x2 (ix2 k q)) + x3 (ix2 (0 : Fin 1) q)) := by
  unfold k2_pay1
  rw [shapeCast_self x0, shapeCast_self x1, shapeCast_self x3]
  refine congrArg₂ (· + ·) ?_ ?_
  · refine (matmul_entry _ _ p q).trans ?_
    refine Finset.sum_congr rfl fun k _ => ?_
    refine congrArg₂ (· * ·) ?_ rfl
    show max (x0 (ix2 p k) + broadcastTo S10368x32 x1 broadcasts_S1x32_S10368x32 (ix2 p k)) _ = _
    rw [broadcastTo_1b_ab_apply]
    rfl
  · exact broadcastTo_1b_ab_apply x3 broadcasts_S1x64_S10368x64 p q

end Cert.KernelIdeal.Stage2

end
-- ==== Proof.Stage2.lean ====
/-
  The third dense stage as a whole-array function.

  The region runs the body at 16 grid points. Point t reads rows 10368·t … 10368·t + 10367 of the node-feature matrix
  (all 32 columns), the whole first row, the whole weight matrix and the whole second row, and writes rows
  10368·t … 10368·t + 10367 of the output (all 64 columns). The 16 output blocks tile the 165888 rows, so when the region
  ends the output array is the stage function of the four input arrays as the region found them, at every index.
-/
import proofs.«105346_j23545010717334_1_alg».proof.Proof.Gen.KernelIdeal.Frame
import proofs.«105346_j23545010717334_1_alg».proof.Proof.Stage2Pay

set_option maxRecDepth 16384

noncomputable section

namespace Cert.KernelIdeal.Stage2

open Cert.KernelIdeal Cert.KernelIdeal.Gen Cert.StageSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the node features and the output move with the point along the rows;
    the two rows and the weight matrix stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The body's block at a point whose inputs are the blocks of four arrays is the block of the stage function: entry
    (p, q) of the stored block is the stage at row r, column q, when the loaded rows are row r of the features. -/
theorem block_eq (A0 : S165888x32.Idx → EReal) (A1 : S1x32.Idx → EReal) (A2 : S32x64.Idx → EReal) (A3 : S1x64.Idx → EReal)
    (x0 : Vec Ideal S10368x32 .f32) (x1 : Vec Ideal S1x32 .f32) (x2 : Vec Ideal S32x64 .f32) (x3 : Vec Ideal S1x64 .f32)
    (r : Fin 165888) (p : Fin 10368) (q : Fin 64)
    (h0 : ∀ k : Fin 32, x0 (ix2 p k) = A0 (ix2 r k))
    (h1 : ∀ k : Fin 32, x1 (ix2 (0 : Fin 1) k) = A1 (ix2 (0 : Fin 1) k))
    (h2 : ∀ (k : Fin 32), x2 (ix2 k q) = A2 (ix2 k q))
    (h3 : x3 (ix2 (0 : Fin 1) q) = A3 (ix2 (0 : Fin 1) q)) :
    k2_pay1 x0 x1 x2 x3 (ix2 p q) = stage relu id A0 A1 A2 A3 (ix2 r q) := by
  rw [pay_apply, stage_ix2, h3]
  refine congrArg id (congrArg₂ (· + ·) (Finset.sum_congr rfl fun k _ => ?_) rfl)
  rw [h0 k, h1 k, h2 k]

/-- The features' block at point t, entry (p, k), is the array at row 10368·t + p, column k. -/
theorem read0 (c : Dev nD) (t : Fin cfg2.N) (p : Fin 10368) (k : Fin 32) (r : Fin 165888) (hr : r.val = t.val * 10368 + p.val) :
    iblk2 V c 0 t (ix2 p k) = V c (Pipeline.arrRef spec2 0) (ix2 r k) := by
  obtain ⟨e00, e01, -⟩ := idx_facts t
  show V c (Pipeline.arrRef spec2 0) (((cfg2.win 0).blk t).view.emb (ix2 p k)) = V c (Pipeline.arrRef spec2 0) (ix2 r k)
  refine congrArg (V c (Pipeline.arrRef spec2 0)) (funext fun a => Fin.ext ?_)
  match a with
  | ⟨0, _⟩ => show win2_0.index t (0 : Fin 2) * 10368 + 1 * p.val = r.val; omega
  | ⟨1, _⟩ => show win2_0.index t (1 : Fin 2) * 32 + 1 * k.val = k.val; omega

/-- The first row's block is the whole row. -/
theorem read1 (c : Dev nD) (t : Fin cfg2.N) (k : Fin 32) :
    iblk2 V c 1 t (ix2 (0 : Fin 1) k) = V c (Pipeline.arrRef spec2 1) (ix2 (0 : Fin 1) k) := by
  obtain ⟨-, -, e10, e11, -⟩ := idx_facts t
  show V c (Pipeline.arrRef spec2 1) (((cfg2.win 1).blk t).view.emb (ix2 (0 : Fin 1) k)) = V c (Pipeline.arrRef spec2 1) (ix2 (0 : Fin 1) k)
  refine congrArg (V c (Pipeline.arrRef spec2 1)) (funext fun a => Fin.ext ?_)
  match a with
  | ⟨0, _⟩ => show win2_1.index t (0 : Fin 2) * 1 + 1 * 0 = 0; omega
  | ⟨1, _⟩ => show win2_1.index t (1 : Fin 2) * 32 + 1 * k.val = k.val; omega

/-- The weight matrix's block is the whole matrix. -/
theorem read2 (c : Dev nD) (t : Fin cfg2.N) (k : Fin 32) (q : Fin 64) :
    iblk2 V c 2 t (ix2 k q) = V c (Pipeline.arrRef spec2 2) (ix2 k q) := by
  obtain ⟨-, -, -, -, e20, e21, -⟩ := idx_facts t
  show V c (Pipeline.arrRef spec2 2) (((cfg2.win 2).blk t).view.emb (ix2 k q)) = V c (Pipeline.arrRef spec2 2) (ix2 k q)
  refine congrArg (V c (Pipeline.arrRef spec2 2)) (funext fun a => Fin.ext ?_)
  match a with
  | ⟨0, _⟩ => show win2_2.index t (0 : Fin 2) * 32 + 1 * k.val = k.val; omega
  | ⟨1, _⟩ => show win2_2.index t (1 : Fin 2) * 64 + 1 * q.val = q.val; omega

/-- The second row's block is the whole row. -/
theorem read3 (c : Dev nD) (t : Fin cfg2.N) (q : Fin 64) :
    iblk2 V c 3 t (ix2 (0 : Fin 1) q) = V c (Pipeline.arrRef spec2 3) (ix2 (0 : Fin 1) q) := by
  obtain ⟨-, -, -, -, -, -, e30, e31, -⟩ := idx_facts t
  show V c (Pipeline.arrRef spec2 3) (((cfg2.win 3).blk t).view.emb (ix2 (0 : Fin 1) q)) = V c (Pipeline.arrRef spec2 3) (ix2 (0 : Fin 1) q)
  refine congrArg (V c (Pipeline.arrRef spec2 3)) (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- What point t writes back is block t of the stage function of the arrays as the region finds them. -/
theorem flushed_eq (c : Dev nD) (t : Fin cfg2.N) :
    (dat2 (F := Ideal) V c).flushed 4 t = ((cfg2.win 4).blk t).view.read (Elt Ideal)
      (stage relu id (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S10368x32) hz, View.ld_unit_zero (S := S1x32) hz, View.ld_unit_zero (S := S32x64) hz, View.ld_unit_zero (S := S1x64) hz]
  obtain ⟨-, -, -, -, -, -, -, -, e40, e41⟩ := idx_facts t
  have ht : t.val < 16 := t.isLt
  funext j
  have hj0 : (j 0).val < 10368 := (j 0).isLt
  have hj1 : (j 1).val < 64 := (j 1).isLt
  show k2_pay1 (iblk2 V c 0 t) (iblk2 V c 1 t) (iblk2 V c 2 t) (iblk2 V c 3 t) j
    = stage relu id (V c (Pipeline.arrRef spec2 0)) (V c (Pipeline.arrRef spec2 1)) (V c (Pipeline.arrRef spec2 2)) (V c (Pipeline.arrRef spec2 3))
        (((cfg2.win 4).blk t).view.emb j)
  have hj : j = ix2 (j 0) (j 1) := eq_ix2 j
  have hemb : ((cfg2.win 4).blk t).view.emb j = ix2 (⟨t.val * 10368 + (j 0).val, by omega⟩ : Fin 165888) (j 1) := funext fun a => Fin.ext (by
    match a with
    | ⟨0, _⟩ => show win2_4.index t (0 : Fin 2) * 10368 + 1 * (j 0).val = t.val * 10368 + (j 0).val; omega
    | ⟨1, _⟩ => show win2_4.index t (1 : Fin 2) * 64 + 1 * (j 1).val = (j 1).val; omega)
  rw [hemb]
  refine (congrArg (k2_pay1 (iblk2 V c 0 t) (iblk2 V c 1 t) (iblk2 V c 2 t) (iblk2 V c 3 t)) hj).trans ?_
  exact block_eq _ _ _ _ (iblk2 V c 0 t) (iblk2 V c 1 t) (iblk2 V c 2 t) (iblk2 V c 3 t) ⟨t.val * 10368 + (j 0).val, by omega⟩ (j 0) (j 1)
    (fun k => read0 V c t (j 0) k _ rfl) (fun k => read1 V c t k) (fun k => read2 V c t k (j 1)) (read3 V c t (j 1))

/-- An index of the output array is in point t's block iff each coordinate is in the block's range on its axis. -/
theorem mem_blk (t : Fin cfg2.N) (i : S165888x64.Idx) :
    i ∈ ((cfg2.win 4).blk t).view.set ↔ ∀ a : Fin 2, win2_4.index t a * S10368x64.size a ≤ (i a).val ∧ (i a).val < win2_4.index t a * S10368x64.size a + S10368x64.size a := by
  show i ∈ ((View.whole main_v72).slice (win2_4.rect t)).set ↔ _
  rw [View.set_slice_whole, Rect.mem_set_unit]
  exact Iff.rfl

/-- Every index of the output array is in the block of the point its row falls under. -/
theorem cover (i : S165888x64.Idx) : ∃ t : Fin cfg2.N, (cfg2.win 4).flush t = true ∧ i ∈ ((cfg2.win 4).blk t).view.set := by
  have hi0 : (i 0).val < 165888 := (i 0).isLt
  have hi1 : (i 1).val < 64 := (i 1).isLt
  have hN : cfg2.N = 16 := rfl
  have htlt : (i 0).val / 10368 < cfg2.N := by rw [hN]; omega
  obtain ⟨-, -, -, -, -, -, -, -, e40, e41⟩ := idx_facts ⟨(i 0).val / 10368, htlt⟩
  refine ⟨⟨(i 0).val / 10368, htlt⟩, flush2_4 _, ?_⟩
  rw [mem_blk]
  intro a
  match a with
  | ⟨0, _⟩ =>
    show win2_4.index ⟨(i 0).val / 10368, htlt⟩ (0 : Fin 2) * 10368 ≤ (i 0).val ∧ (i 0).val < win2_4.index ⟨(i 0).val / 10368, htlt⟩ (0 : Fin 2) * 10368 + 10368
    rw [e40]; show (i 0).val / 10368 * 10368 ≤ (i 0).val ∧ (i 0).val < (i 0).val / 10368 * 10368 + 10368; omega
  | ⟨1, _⟩ =>
    show win2_4.index ⟨(i 0).val / 10368, htlt⟩ (1 : Fin 2) * 64 ≤ (i 1).val ∧ (i 1).val < win2_4.index ⟨(i 0).val / 10368, htlt⟩ (1 : Fin 2) * 64 + 64
    rw [e41]; omega

/-- When the region ends, its output array is the stage function of its four input arrays as it found them. -/
theorem final (c : Dev nD) :
    (dat2 (F := Ideal) V c).arrAt 4 cfg2.N
      = stage relu id (V c (Pipeline.arrRef spec2 0)) (V c (Pipeline.arrRef spec2 1)) (V c (Pipeline.arrRef spec2 2)) (V c (Pipeline.arrRef spec2 3)) :=
  (dat2 (F := Ideal) V c).arrAt_eq_of_cover 4 _ (fun t _ => flushed_eq V c t) cover

end Cert.KernelIdeal.Stage2

end
-- ==== Proof.Stage3Pay.lean ====
/-
  The body of the fourth dense stage, read at one entry of its output block.

  The body adds the first row to the loaded block of node features, rectifies, multiplies by the weight matrix and adds a second row. At the exact instance the two
  changes of float format are the identity and the product into a zero accumulator is the plain sum over the contracted
  index, so entry (p, q) of the stored block is
      id ((Σ k, relu (x0 (p, k) + x1 (0, k)) · x2 (k, q)) + x3 (0, q)).
-/
import proofs.«105346_j23545010717334_1_alg».proof.Proof.Gen.KernelIdeal.Skeleton
import proofs.«105346_j23545010717334_1_alg».proof.Proof.StageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage3

open Cert.KernelIdeal Cert.KernelIdeal.Gen Cert.StageSpec Idealize.ShloMosaic Idealize.ShloMosaic.ValueIdx

/-- The contraction of the block product has one axis, of extent 64. -/
abbrev contr := ValueIdx.contrEquiv1 dot_S10368x64_S64x32_S10368x32_1_0_0_1_n_n 64 rfl rfl

theorem lhs0 (i : S10368x32.Idx) (q : dot_S10368x64_S64x32_S10368x32_1_0_0_1_n_n.contr.Idx) :
    (dot_S10368x64_S64x32_S10368x32_1_0_0_1_n_n.lhsIdx i q 0).val = (i 0).val := by
  unfold DotDims.lhsIdx
  rw [dif_neg (show ¬(0 : Fin S10368x64.rank) ∈ dot_S10368x64_S64x32_S10368x32_1_0_0_1_n_n.lhsBatch by decide), dif_pos (show (0 : Fin S10368x64.rank) ∈ dot_S10368x64_S64x32_S10368x32_1_0_0_1_n_n.lhsNonContracting by decide)]
  rfl
theorem lhs1 (i : S10368x32.Idx) (q : dot_S10368x64_S64x32_S10368x32_1_0_0_1_n_n.contr.Idx) :
    (dot_S10368x64_S64x32_S10368x32_1_0_0_1_n_n.lhsIdx i q 1).val = (q ⟨0, by decide⟩).val :=
  dot_S10368x64_S64x32_S10368x32_1_0_0_1_n_n.lhsIdx_val_of_single rfl i q
theorem rhs0 (i : S10368x32.Idx) (q : dot_S10368x64_S64x32_S10368x32_1_0_0_1_n_n.contr.Idx) :
    (dot_S10368x64_S64x32_S10368x32_1_0_0_1_n_n.rhsIdx i q 0).val = (q ⟨0, by decide⟩).val :=
  dot_S10368x64_S64x32_S10368x32_1_0_0_1_n_n.rhsIdx_val_of_single rfl i q
theorem rhs1 (i : S10368x32.Idx) (q : dot_S10368x64_S64x32_S10368x32_1_0_0_1_n_n.contr.Idx) :
    (dot_S10368x64_S64x32_S10368x32_1_0_0_1_n_n.rhsIdx i q 1).val = (i 1).val := by
  unfold DotDims.rhsIdx
  rw [dif_neg (show ¬(1 : Fin S64x32.rank) ∈ dot_S10368x64_S64x32_S10368x32_1_0_0_1_n_n.rhsBatch by decide), dif_pos (show (1 : Fin S64x32.rank) ∈ dot_S10368x64_S64x32_S10368x32_1_0_0_1_n_n.rhsNonContracting by decide)]
  rfl

/-- The block product at entry (p, q): the sum over the contracted index of left (p, k) times right (k, q). -/
theorem matmul_entry (l : FVec Ideal S10368x64 .bf16) (r : FVec Ideal S64x32 .bf16) (p : Fin 10368) (q : Fin 32) :
    FloatOps.matmul dot_S10368x64_S64x32_S10368x32_1_0_0_1_n_n none l r (constant S10368x32 .f32 0x00000000#32) (ix2 p q)
      = ∑ k : Fin 64, l (ix2 p k) * r (ix2 k q) := by
  refine (Ideal.matmul_constant_zero_apply dot_S10368x64_S64x32_S10368x32_1_0_0_1_n_n none l r (ix2 p q)).trans ?_
  refine (Equiv.sum_comp contr.symm _).symm.trans ?_
  refine Finset.sum_congr rfl fun k _ => ?_
  have hk := ValueIdx.contrEquiv1_symm_val dot_S10368x64_S64x32_S10368x32_1_0_0_1_n_n 64 rfl rfl k
  have el : dot_S10368x64_S64x32_S10368x32_1_0_0_1_n_n.lhsIdx (ix2 p q) (contr.symm k) = ix2 p k := funext fun a => Fin.ext (by
    match a with
    | ⟨0, _⟩ => exact lhs0 _ _
    | ⟨1, _⟩ => exact (lhs1 _ _).trans hk)
  have er : dot_S10368x64_S64x32_S10368x32_1_0_0_1_n_n.rhsIdx (ix2 p q) (contr.symm k) = ix2 k q := funext fun a => Fin.ext (by
    match a with
    | ⟨0, _⟩ => exact (rhs0 _ _).trans hk
    | ⟨1, _⟩ => exact rhs1 _ _)
  rw [el, er]

/-- Entry (p, q) of the block the body stores. -/
theorem pay_apply (x0 : Vec Ideal S10368x64 .f32) (x1 : Vec Ideal S1x64 .f32) (x2 : Vec Ideal S64x32 .f32) (x3 : Vec Ideal S1x32 .f32)
    (p : Fin 10368) (q : Fin 32) :
    k3_pay1 x0 x1 x2 x3 (ix2 p q)
      = id ((∑ k : Fin 64, relu (x0 (ix2 p k) + x1 (ix2 (0 : Fin 1) k)) * x2 (ix2 k q)) + x3 (ix2 (0 : Fin 1) q)) := by
  unfold k3_pay1
  rw [shapeCast_self x0, shapeCast_self x1, shapeCast_self x3]
  refine congrArg₂ (· + ·) ?_ ?_
  · refine (matmul_entry _ _ p q).trans ?_
    refine Finset.sum_congr rfl fun k _ => ?_
    refine congrArg₂ (· * ·) ?_ rfl
    show max (x0 (ix2 p k) + broadcastTo S10368x64 x1 broadcasts_S1x64_S10368x64 (ix2 p k)) _ = _
    rw [broadcastTo_1b_ab_apply]
    rfl
  · exact broadcastTo_1b_ab_apply x3 broadcasts_S1x32_S10368x32 p q

end Cert.KernelIdeal.Stage3

end
-- ==== Proof.Stage3.lean ====
/-
  The fourth dense stage as a whole-array function.

  The region runs the body at 16 grid points. Point t reads rows 10368·t … 10368·t + 10367 of the node-feature matrix
  (all 64 columns), the whole first row, the whole weight matrix and the whole second row, and writes rows
  10368·t … 10368·t + 10367 of the output (all 32 columns). The 16 output blocks tile the 165888 rows, so when the region
  ends the output array is the stage function of the four input arrays as the region found them, at every index.
-/
import proofs.«105346_j23545010717334_1_alg».proof.Proof.Gen.KernelIdeal.Frame
import proofs.«105346_j23545010717334_1_alg».proof.Proof.Stage3Pay

set_option maxRecDepth 16384

noncomputable section

namespace Cert.KernelIdeal.Stage3

open Cert.KernelIdeal Cert.KernelIdeal.Gen Cert.StageSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the node features and the output move with the point along the rows;
    the two rows and the weight matrix stay at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's block at a point whose inputs are the blocks of four arrays is the block of the stage function: entry
    (p, q) of the stored block is the stage at row r, column q, when the loaded rows are row r of the features. -/
theorem block_eq (A0 : S165888x64.Idx → EReal) (A1 : S1x64.Idx → EReal) (A2 : S64x32.Idx → EReal) (A3 : S1x32.Idx → EReal)
    (x0 : Vec Ideal S10368x64 .f32) (x1 : Vec Ideal S1x64 .f32) (x2 : Vec Ideal S64x32 .f32) (x3 : Vec Ideal S1x32 .f32)
    (r : Fin 165888) (p : Fin 10368) (q : Fin 32)
    (h0 : ∀ k : Fin 64, x0 (ix2 p k) = A0 (ix2 r k))
    (h1 : ∀ k : Fin 64, x1 (ix2 (0 : Fin 1) k) = A1 (ix2 (0 : Fin 1) k))
    (h2 : ∀ (k : Fin 64), x2 (ix2 k q) = A2 (ix2 k q))
    (h3 : x3 (ix2 (0 : Fin 1) q) = A3 (ix2 (0 : Fin 1) q)) :
    k3_pay1 x0 x1 x2 x3 (ix2 p q) = stage relu id A0 A1 A2 A3 (ix2 r q) := by
  rw [pay_apply, stage_ix2, h3]
  refine congrArg id (congrArg₂ (· + ·) (Finset.sum_congr rfl fun k _ => ?_) rfl)
  rw [h0 k, h1 k, h2 k]

/-- The features' block at point t, entry (p, k), is the array at row 10368·t + p, column k. -/
theorem read0 (c : Dev nD) (t : Fin cfg3.N) (p : Fin 10368) (k : Fin 64) (r : Fin 165888) (hr : r.val = t.val * 10368 + p.val) :
    iblk3 V c 0 t (ix2 p k) = V c (Pipeline.arrRef spec3 0) (ix2 r k) := by
  obtain ⟨e00, e01, -⟩ := idx_facts t
  show V c (Pipeline.arrRef spec3 0) (((cfg3.win 0).blk t).view.emb (ix2 p k)) = V c (Pipeline.arrRef spec3 0) (ix2 r k)
  refine congrArg (V c (Pipeline.arrRef spec3 0)) (funext fun a => Fin.ext ?_)
  match a with
  | ⟨0, _⟩ => show win3_0.index t (0 : Fin 2) * 10368 + 1 * p.val = r.val; omega
  | ⟨1, _⟩ => show win3_0.index t (1 : Fin 2) * 64 + 1 * k.val = k.val; omega

/-- The first row's block is the whole row. -/
theorem read1 (c : Dev nD) (t : Fin cfg3.N) (k : Fin 64) :
    iblk3 V c 1 t (ix2 (0 : Fin 1) k) = V c (Pipeline.arrRef spec3 1) (ix2 (0 : Fin 1) k) := by
  obtain ⟨-, -, e10, e11, -⟩ := idx_facts t
  show V c (Pipeline.arrRef spec3 1) (((cfg3.win 1).blk t).view.emb (ix2 (0 : Fin 1) k)) = V c (Pipeline.arrRef spec3 1) (ix2 (0 : Fin 1) k)
  refine congrArg (V c (Pipeline.arrRef spec3 1)) (funext fun a => Fin.ext ?_)
  match a with
  | ⟨0, _⟩ => show win3_1.index t (0 : Fin 2) * 1 + 1 * 0 = 0; omega
  | ⟨1, _⟩ => show win3_1.index t (1 : Fin 2) * 64 + 1 * k.val = k.val; omega

/-- The weight matrix's block is the whole matrix. -/
theorem read2 (c : Dev nD) (t : Fin cfg3.N) (k : Fin 64) (q : Fin 32) :
    iblk3 V c 2 t (ix2 k q) = V c (Pipeline.arrRef spec3 2) (ix2 k q) := by
  obtain ⟨-, -, -, -, e20, e21, -⟩ := idx_facts t
  show V c (Pipeline.arrRef spec3 2) (((cfg3.win 2).blk t).view.emb (ix2 k q)) = V c (Pipeline.arrRef spec3 2) (ix2 k q)
  refine congrArg (V c (Pipeline.arrRef spec3 2)) (funext fun a => Fin.ext ?_)
  match a with
  | ⟨0, _⟩ => show win3_2.index t (0 : Fin 2) * 64 + 1 * k.val = k.val; omega
  | ⟨1, _⟩ => show win3_2.index t (1 : Fin 2) * 32 + 1 * q.val = q.val; omega

/-- The second row's block is the whole row. -/
theorem read3 (c : Dev nD) (t : Fin cfg3.N) (q : Fin 32) :
    iblk3 V c 3 t (ix2 (0 : Fin 1) q) = V c (Pipeline.arrRef spec3 3) (ix2 (0 : Fin 1) q) := by
  obtain ⟨-, -, -, -, -, -, e30, e31, -⟩ := idx_facts t
  show V c (Pipeline.arrRef spec3 3) (((cfg3.win 3).blk t).view.emb (ix2 (0 : Fin 1) q)) = V c (Pipeline.arrRef spec3 3) (ix2 (0 : Fin 1) q)
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 32 + 1 * q.val = q.val; omega

/-- What point t writes back is block t of the stage function of the arrays as the region finds them. -/
theorem flushed_eq (c : Dev nD) (t : Fin cfg3.N) :
    (dat3 (F := Ideal) V c).flushed 4 t = ((cfg3.win 4).blk t).view.read (Elt Ideal)
      (stage relu id (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S10368x64) hz, View.ld_unit_zero (S := S1x64) hz, View.ld_unit_zero (S := S64x32) hz, View.ld_unit_zero (S := S1x32) hz]
  obtain ⟨-, -, -, -, -, -, -, -, e40, e41⟩ := idx_facts t
  have ht : t.val < 16 := t.isLt
  funext j
  have hj0 : (j 0).val < 10368 := (j 0).isLt
  have hj1 : (j 1).val < 32 := (j 1).isLt
  show k3_pay1 (iblk3 V c 0 t) (iblk3 V c 1 t) (iblk3 V c 2 t) (iblk3 V c 3 t) j
    = stage relu id (V c (Pipeline.arrRef spec3 0)) (V c (Pipeline.arrRef spec3 1)) (V c (Pipeline.arrRef spec3 2)) (V c (Pipeline.arrRef spec3 3))
        (((cfg3.win 4).blk t).view.emb j)
  have hj : j = ix2 (j 0) (j 1) := eq_ix2 j
  have hemb : ((cfg3.win 4).blk t).view.emb j = ix2 (⟨t.val * 10368 + (j 0).val, by omega⟩ : Fin 165888) (j 1) := funext fun a => Fin.ext (by
    match a with
    | ⟨0, _⟩ => show win3_4.index t (0 : Fin 2) * 10368 + 1 * (j 0).val = t.val * 10368 + (j 0).val; omega
    | ⟨1, _⟩ => show win3_4.index t (1 : Fin 2) * 32 + 1 * (j 1).val = (j 1).val; omega)
  rw [hemb]
  refine (congrArg (k3_pay1 (iblk3 V c 0 t) (iblk3 V c 1 t) (iblk3 V c 2 t) (iblk3 V c 3 t)) hj).trans ?_
  exact block_eq _ _ _ _ (iblk3 V c 0 t) (iblk3 V c 1 t) (iblk3 V c 2 t) (iblk3 V c 3 t) ⟨t.val * 10368 + (j 0).val, by omega⟩ (j 0) (j 1)
    (fun k => read0 V c t (j 0) k _ rfl) (fun k => read1 V c t k) (fun k => read2 V c t k (j 1)) (read3 V c t (j 1))

/-- An index of the output array is in point t's block iff each coordinate is in the block's range on its axis. -/
theorem mem_blk (t : Fin cfg3.N) (i : S165888x32.Idx) :
    i ∈ ((cfg3.win 4).blk t).view.set ↔ ∀ a : Fin 2, win3_4.index t a * S10368x32.size a ≤ (i a).val ∧ (i a).val < win3_4.index t a * S10368x32.size a + S10368x32.size a := by
  show i ∈ ((View.whole main_v88).slice (win3_4.rect t)).set ↔ _
  rw [View.set_slice_whole, Rect.mem_set_unit]
  exact Iff.rfl

/-- Every index of the output array is in the block of the point its row falls under. -/
theorem cover (i : S165888x32.Idx) : ∃ t : Fin cfg3.N, (cfg3.win 4).flush t = true ∧ i ∈ ((cfg3.win 4).blk t).view.set := by
  have hi0 : (i 0).val < 165888 := (i 0).isLt
  have hi1 : (i 1).val < 32 := (i 1).isLt
  have hN : cfg3.N = 16 := rfl
  have htlt : (i 0).val / 10368 < cfg3.N := by rw [hN]; omega
  obtain ⟨-, -, -, -, -, -, -, -, e40, e41⟩ := idx_facts ⟨(i 0).val / 10368, htlt⟩
  refine ⟨⟨(i 0).val / 10368, htlt⟩, flush3_4 _, ?_⟩
  rw [mem_blk]
  intro a
  match a with
  | ⟨0, _⟩ =>
    show win3_4.index ⟨(i 0).val / 10368, htlt⟩ (0 : Fin 2) * 10368 ≤ (i 0).val ∧ (i 0).val < win3_4.index ⟨(i 0).val / 10368, htlt⟩ (0 : Fin 2) * 10368 + 10368
    rw [e40]; show (i 0).val / 10368 * 10368 ≤ (i 0).val ∧ (i 0).val < (i 0).val / 10368 * 10368 + 10368; omega
  | ⟨1, _⟩ =>
    show win3_4.index ⟨(i 0).val / 10368, htlt⟩ (1 : Fin 2) * 32 ≤ (i 1).val ∧ (i 1).val < win3_4.index ⟨(i 0).val / 10368, htlt⟩ (1 : Fin 2) * 32 + 32
    rw [e41]; omega

/-- When the region ends, its output array is the stage function of its four input arrays as it found them. -/
theorem final (c : Dev nD) :
    (dat3 (F := Ideal) V c).arrAt 4 cfg3.N
      = stage relu id (V c (Pipeline.arrRef spec3 0)) (V c (Pipeline.arrRef spec3 1)) (V c (Pipeline.arrRef spec3 2)) (V c (Pipeline.arrRef spec3 3)) :=
  (dat3 (F := Ideal) V c).arrAt_eq_of_cover 4 _ (fun t _ => flushed_eq V c t) cover

end Cert.KernelIdeal.Stage3

end
-- ==== Proof.Stage4Pay.lean ====
/-
  The body of the fifth dense stage, read at one entry of its output block.

  The body adds the first row to the loaded block of node features, rectifies, multiplies by the weight matrix and adds a second row. At the exact instance the two
  changes of float format are the identity and the product into a zero accumulator is the plain sum over the contracted
  index, so entry (p, q) of the stored block is
      id ((Σ k, relu (x0 (p, k) + x1 (0, k)) · x2 (k, q)) + x3 (0, q)).
-/
import proofs.«105346_j23545010717334_1_alg».proof.Proof.Gen.KernelIdeal.Skeleton
import proofs.«105346_j23545010717334_1_alg».proof.Proof.StageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage4

open Cert.KernelIdeal Cert.KernelIdeal.Gen Cert.StageSpec Idealize.ShloMosaic Idealize.ShloMosaic.ValueIdx

/-- The contraction of the block product has one axis, of extent 32. -/
abbrev contr := ValueIdx.contrEquiv1 dot_S10368x32_S32x16_S10368x16_1_0_0_1_n_n 32 rfl rfl

theorem lhs0 (i : S10368x16.Idx) (q : dot_S10368x32_S32x16_S10368x16_1_0_0_1_n_n.contr.Idx) :
    (dot_S10368x32_S32x16_S10368x16_1_0_0_1_n_n.lhsIdx i q 0).val = (i 0).val := by
  unfold DotDims.lhsIdx
  rw [dif_neg (show ¬(0 : Fin S10368x32.rank) ∈ dot_S10368x32_S32x16_S10368x16_1_0_0_1_n_n.lhsBatch by decide), dif_pos (show (0 : Fin S10368x32.rank) ∈ dot_S10368x32_S32x16_S10368x16_1_0_0_1_n_n.lhsNonContracting by decide)]
  rfl
theorem lhs1 (i : S10368x16.Idx) (q : dot_S10368x32_S32x16_S10368x16_1_0_0_1_n_n.contr.Idx) :
    (dot_S10368x32_S32x16_S10368x16_1_0_0_1_n_n.lhsIdx i q 1).val = (q ⟨0, by decide⟩).val :=
  dot_S10368x32_S32x16_S10368x16_1_0_0_1_n_n.lhsIdx_val_of_single rfl i q
theorem rhs0 (i : S10368x16.Idx) (q : dot_S10368x32_S32x16_S10368x16_1_0_0_1_n_n.contr.Idx) :
    (dot_S10368x32_S32x16_S10368x16_1_0_0_1_n_n.rhsIdx i q 0).val = (q ⟨0, by decide⟩).val :=
  dot_S10368x32_S32x16_S10368x16_1_0_0_1_n_n.rhsIdx_val_of_single rfl i q
theorem rhs1 (i : S10368x16.Idx) (q : dot_S10368x32_S32x16_S10368x16_1_0_0_1_n_n.contr.Idx) :
    (dot_S10368x32_S32x16_S10368x16_1_0_0_1_n_n.rhsIdx i q 1).val = (i 1).val := by
  unfold DotDims.rhsIdx
  rw [dif_neg (show ¬(1 : Fin S32x16.rank) ∈ dot_S10368x32_S32x16_S10368x16_1_0_0_1_n_n.rhsBatch by decide), dif_pos (show (1 : Fin S32x16.rank) ∈ dot_S10368x32_S32x16_S10368x16_1_0_0_1_n_n.rhsNonContracting by decide)]
  rfl

/-- The block product at entry (p, q): the sum over the contracted index of left (p, k) times right (k, q). -/
theorem matmul_entry (l : FVec Ideal S10368x32 .bf16) (r : FVec Ideal S32x16 .bf16) (p : Fin 10368) (q : Fin 16) :
    FloatOps.matmul dot_S10368x32_S32x16_S10368x16_1_0_0_1_n_n none l r (constant S10368x16 .f32 0x00000000#32) (ix2 p q)
      = ∑ k : Fin 32, l (ix2 p k) * r (ix2 k q) := by
  refine (Ideal.matmul_constant_zero_apply dot_S10368x32_S32x16_S10368x16_1_0_0_1_n_n none l r (ix2 p q)).trans ?_
  refine (Equiv.sum_comp contr.symm _).symm.trans ?_
  refine Finset.sum_congr rfl fun k _ => ?_
  have hk := ValueIdx.contrEquiv1_symm_val dot_S10368x32_S32x16_S10368x16_1_0_0_1_n_n 32 rfl rfl k
  have el : dot_S10368x32_S32x16_S10368x16_1_0_0_1_n_n.lhsIdx (ix2 p q) (contr.symm k) = ix2 p k := funext fun a => Fin.ext (by
    match a with
    | ⟨0, _⟩ => exact lhs0 _ _
    | ⟨1, _⟩ => exact (lhs1 _ _).trans hk)
  have er : dot_S10368x32_S32x16_S10368x16_1_0_0_1_n_n.rhsIdx (ix2 p q) (contr.symm k) = ix2 k q := funext fun a => Fin.ext (by
    match a with
    | ⟨0, _⟩ => exact (rhs0 _ _).trans hk
    | ⟨1, _⟩ => exact rhs1 _ _)
  rw [el, er]

/-- Entry (p, q) of the block the body stores. -/
theorem pay_apply (x0 : Vec Ideal S10368x32 .f32) (x1 : Vec Ideal S1x32 .f32) (x2 : Vec Ideal S32x16 .f32) (x3 : Vec Ideal S1x16 .f32)
    (p : Fin 10368) (q : Fin 16) :
    k4_pay1 x0 x1 x2 x3 (ix2 p q)
      = id ((∑ k : Fin 32, relu (x0 (ix2 p k) + x1 (ix2 (0 : Fin 1) k)) * x2 (ix2 k q)) + x3 (ix2 (0 : Fin 1) q)) := by
  unfold k4_pay1
  rw [shapeCast_self x0, shapeCast_self x1, shapeCast_self x3]
  refine congrArg₂ (· + ·) ?_ ?_
  · refine (matmul_entry _ _ p q).trans ?_
    refine Finset.sum_congr rfl fun k _ => ?_
    refine congrArg₂ (· * ·) ?_ rfl
    show max (x0 (ix2 p k) + broadcastTo S10368x32 x1 broadcasts_S1x32_S10368x32 (ix2 p k)) _ = _
    rw [broadcastTo_1b_ab_apply]
    rfl
  · exact broadcastTo_1b_ab_apply x3 broadcasts_S1x16_S10368x16 p q

end Cert.KernelIdeal.Stage4

end
-- ==== Proof.Stage4.lean ====
/-
  The fifth dense stage as a whole-array function.

  The region runs the body at 16 grid points. Point t reads rows 10368·t … 10368·t + 10367 of the node-feature matrix
  (all 32 columns), the whole first row, the whole weight matrix and the whole second row, and writes rows
  10368·t … 10368·t + 10367 of the output (all 16 columns). The 16 output blocks tile the 165888 rows, so when the region
  ends the output array is the stage function of the four input arrays as the region found them, at every index.
-/
import proofs.«105346_j23545010717334_1_alg».proof.Proof.Gen.KernelIdeal.Frame
import proofs.«105346_j23545010717334_1_alg».proof.Proof.Stage4Pay

set_option maxRecDepth 16384

noncomputable section

namespace Cert.KernelIdeal.Stage4

open Cert.KernelIdeal Cert.KernelIdeal.Gen Cert.StageSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the node features and the output move with the point along the rows;
    the two rows and the weight matrix stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The body's block at a point whose inputs are the blocks of four arrays is the block of the stage function: entry
    (p, q) of the stored block is the stage at row r, column q, when the loaded rows are row r of the features. -/
theorem block_eq (A0 : S165888x32.Idx → EReal) (A1 : S1x32.Idx → EReal) (A2 : S32x16.Idx → EReal) (A3 : S1x16.Idx → EReal)
    (x0 : Vec Ideal S10368x32 .f32) (x1 : Vec Ideal S1x32 .f32) (x2 : Vec Ideal S32x16 .f32) (x3 : Vec Ideal S1x16 .f32)
    (r : Fin 165888) (p : Fin 10368) (q : Fin 16)
    (h0 : ∀ k : Fin 32, x0 (ix2 p k) = A0 (ix2 r k))
    (h1 : ∀ k : Fin 32, x1 (ix2 (0 : Fin 1) k) = A1 (ix2 (0 : Fin 1) k))
    (h2 : ∀ (k : Fin 32), x2 (ix2 k q) = A2 (ix2 k q))
    (h3 : x3 (ix2 (0 : Fin 1) q) = A3 (ix2 (0 : Fin 1) q)) :
    k4_pay1 x0 x1 x2 x3 (ix2 p q) = stage relu id A0 A1 A2 A3 (ix2 r q) := by
  rw [pay_apply, stage_ix2, h3]
  refine congrArg id (congrArg₂ (· + ·) (Finset.sum_congr rfl fun k _ => ?_) rfl)
  rw [h0 k, h1 k, h2 k]

/-- The features' block at point t, entry (p, k), is the array at row 10368·t + p, column k. -/
theorem read0 (c : Dev nD) (t : Fin cfg4.N) (p : Fin 10368) (k : Fin 32) (r : Fin 165888) (hr : r.val = t.val * 10368 + p.val) :
    iblk4 V c 0 t (ix2 p k) = V c (Pipeline.arrRef spec4 0) (ix2 r k) := by
  obtain ⟨e00, e01, -⟩ := idx_facts t
  show V c (Pipeline.arrRef spec4 0) (((cfg4.win 0).blk t).view.emb (ix2 p k)) = V c (Pipeline.arrRef spec4 0) (ix2 r k)
  refine congrArg (V c (Pipeline.arrRef spec4 0)) (funext fun a => Fin.ext ?_)
  match a with
  | ⟨0, _⟩ => show win4_0.index t (0 : Fin 2) * 10368 + 1 * p.val = r.val; omega
  | ⟨1, _⟩ => show win4_0.index t (1 : Fin 2) * 32 + 1 * k.val = k.val; omega

/-- The first row's block is the whole row. -/
theorem read1 (c : Dev nD) (t : Fin cfg4.N) (k : Fin 32) :
    iblk4 V c 1 t (ix2 (0 : Fin 1) k) = V c (Pipeline.arrRef spec4 1) (ix2 (0 : Fin 1) k) := by
  obtain ⟨-, -, e10, e11, -⟩ := idx_facts t
  show V c (Pipeline.arrRef spec4 1) (((cfg4.win 1).blk t).view.emb (ix2 (0 : Fin 1) k)) = V c (Pipeline.arrRef spec4 1) (ix2 (0 : Fin 1) k)
  refine congrArg (V c (Pipeline.arrRef spec4 1)) (funext fun a => Fin.ext ?_)
  match a with
  | ⟨0, _⟩ => show win4_1.index t (0 : Fin 2) * 1 + 1 * 0 = 0; omega
  | ⟨1, _⟩ => show win4_1.index t (1 : Fin 2) * 32 + 1 * k.val = k.val; omega

/-- The weight matrix's block is the whole matrix. -/
theorem read2 (c : Dev nD) (t : Fin cfg4.N) (k : Fin 32) (q : Fin 16) :
    iblk4 V c 2 t (ix2 k q) = V c (Pipeline.arrRef spec4 2) (ix2 k q) := by
  obtain ⟨-, -, -, -, e20, e21, -⟩ := idx_facts t
  show V c (Pipeline.arrRef spec4 2) (((cfg4.win 2).blk t).view.emb (ix2 k q)) = V c (Pipeline.arrRef spec4 2) (ix2 k q)
  refine congrArg (V c (Pipeline.arrRef spec4 2)) (funext fun a => Fin.ext ?_)
  match a with
  | ⟨0, _⟩ => show win4_2.index t (0 : Fin 2) * 32 + 1 * k.val = k.val; omega
  | ⟨1, _⟩ => show win4_2.index t (1 : Fin 2) * 16 + 1 * q.val = q.val; omega

/-- The second row's block is the whole row. -/
theorem read3 (c : Dev nD) (t : Fin cfg4.N) (q : Fin 16) :
    iblk4 V c 3 t (ix2 (0 : Fin 1) q) = V c (Pipeline.arrRef spec4 3) (ix2 (0 : Fin 1) q) := by
  obtain ⟨-, -, -, -, -, -, e30, e31, -⟩ := idx_facts t
  show V c (Pipeline.arrRef spec4 3) (((cfg4.win 3).blk t).view.emb (ix2 (0 : Fin 1) q)) = V c (Pipeline.arrRef spec4 3) (ix2 (0 : Fin 1) q)
  refine congrArg (V c (Pipeline.arrRef spec4 3)) (funext fun a => Fin.ext ?_)
  match a with
  | ⟨0, _⟩ => show win4_3.index t (0 : Fin 2) * 1 + 1 * 0 = 0; omega
  | ⟨1, _⟩ => show win4_3.index t (1 : Fin 2) * 16 + 1 * q.val = q.val; omega

/-- What point t writes back is block t of the stage function of the arrays as the region finds them. -/
theorem flushed_eq (c : Dev nD) (t : Fin cfg4.N) :
    (dat4 (F := Ideal) V c).flushed 4 t = ((cfg4.win 4).blk t).view.read (Elt Ideal)
      (stage relu id (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  unfold out4_4
  rw [View.canon_unit_zero hz]
  simp only [View.ld_unit_zero (S := S10368x32) hz, View.ld_unit_zero (S := S1x32) hz, View.ld_unit_zero (S := S32x16) hz, View.ld_unit_zero (S := S1x16) hz]
  obtain ⟨-, -, -, -, -, -, -, -, e40, e41⟩ := idx_facts t
  have ht : t.val < 16 := t.isLt
  funext j
  have hj0 : (j 0).val < 10368 := (j 0).isLt
  have hj1 : (j 1).val < 16 := (j 1).isLt
  show k4_pay1 (iblk4 V c 0 t) (iblk4 V c 1 t) (iblk4 V c 2 t) (iblk4 V c 3 t) j
    = stage relu id (V c (Pipeline.arrRef spec4 0)) (V c (Pipeline.arrRef spec4 1)) (V c (Pipeline.arrRef spec4 2)) (V c (Pipeline.arrRef spec4 3))
        (((cfg4.win 4).blk t).view.emb j)
  have hj : j = ix2 (j 0) (j 1) := eq_ix2 j
  have hemb : ((cfg4.win 4).blk t).view.emb j = ix2 (⟨t.val * 10368 + (j 0).val, by omega⟩ : Fin 165888) (j 1) := funext fun a => Fin.ext (by
    match a with
    | ⟨0, _⟩ => show win4_4.index t (0 : Fin 2) * 10368 + 1 * (j 0).val = t.val * 10368 + (j 0).val; omega
    | ⟨1, _⟩ => show win4_4.index t (1 : Fin 2) * 16 + 1 * (j 1).val = (j 1).val; omega)
  rw [hemb]
  refine (congrArg (k4_pay1 (iblk4 V c 0 t) (iblk4 V c 1 t) (iblk4 V c 2 t) (iblk4 V c 3 t)) hj).trans ?_
  exact block_eq _ _ _ _ (iblk4 V c 0 t) (iblk4 V c 1 t) (iblk4 V c 2 t) (iblk4 V c 3 t) ⟨t.val * 10368 + (j 0).val, by omega⟩ (j 0) (j 1)
    (fun k => read0 V c t (j 0) k _ rfl) (fun k => read1 V c t k) (fun k => read2 V c t k (j 1)) (read3 V c t (j 1))

/-- An index of the output array is in point t's block iff each coordinate is in the block's range on its axis. -/
theorem mem_blk (t : Fin cfg4.N) (i : S165888x16.Idx) :
    i ∈ ((cfg4.win 4).blk t).view.set ↔ ∀ a : Fin 2, win4_4.index t a * S10368x16.size a ≤ (i a).val ∧ (i a).val < win4_4.index t a * S10368x16.size a + S10368x16.size a := by
  show i ∈ ((View.whole main_v104).slice (win4_4.rect t)).set ↔ _
  rw [View.set_slice_whole, Rect.mem_set_unit]
  exact Iff.rfl

/-- Every index of the output array is in the block of the point its row falls under. -/
theorem cover (i : S165888x16.Idx) : ∃ t : Fin cfg4.N, (cfg4.win 4).flush t = true ∧ i ∈ ((cfg4.win 4).blk t).view.set := by
  have hi0 : (i 0).val < 165888 := (i 0).isLt
  have hi1 : (i 1).val < 16 := (i 1).isLt
  have hN : cfg4.N = 16 := rfl
  have htlt : (i 0).val / 10368 < cfg4.N := by rw [hN]; omega
  obtain ⟨-, -, -, -, -, -, -, -, e40, e41⟩ := idx_facts ⟨(i 0).val / 10368, htlt⟩
  refine ⟨⟨(i 0).val / 10368, htlt⟩, flush4_4 _, ?_⟩
  rw [mem_blk]
  intro a
  match a with
  | ⟨0, _⟩ =>
    show win4_4.index ⟨(i 0).val / 10368, htlt⟩ (0 : Fin 2) * 10368 ≤ (i 0).val ∧ (i 0).val < win4_4.index ⟨(i 0).val / 10368, htlt⟩ (0 : Fin 2) * 10368 + 10368
    rw [e40]; show (i 0).val / 10368 * 10368 ≤ (i 0).val ∧ (i 0).val < (i 0).val / 10368 * 10368 + 10368; omega
  | ⟨1, _⟩ =>
    show win4_4.index ⟨(i 0).val / 10368, htlt⟩ (1 : Fin 2) * 16 ≤ (i 1).val ∧ (i 1).val < win4_4.index ⟨(i 0).val / 10368, htlt⟩ (1 : Fin 2) * 16 + 16
    rw [e41]; omega

/-- When the region ends, its output array is the stage function of its four input arrays as it found them. -/
theorem final (c : Dev nD) :
    (dat4 (F := Ideal) V c).arrAt 4 cfg4.N
      = stage relu id (V c (Pipeline.arrRef spec4 0)) (V c (Pipeline.arrRef spec4 1)) (V c (Pipeline.arrRef spec4 2)) (V c (Pipeline.arrRef spec4 3)) :=
  (dat4 (F := Ideal) V c).arrAt_eq_of_cover 4 _ (fun t _ => flushed_eq V c t) cover

end Cert.KernelIdeal.Stage4

end
-- ==== Proof.Stage5Pay.lean ====
/-
  The body of the sixth dense stage, read at one entry of its output block.

  The body adds the first row to the loaded block of node features, rectifies, multiplies by the weight matrix and adds a second row and rectifies again. At the exact instance the two
  changes of float format are the identity and the product into a zero accumulator is the plain sum over the contracted
  index, so entry (p, q) of the stored block is
      relu ((Σ k, relu (x0 (p, k) + x1 (0, k)) · x2 (k, q)) + x3 (0, q)).
-/
import proofs.«105346_j23545010717334_1_alg».proof.Proof.Gen.KernelIdeal.Skeleton
import proofs.«105346_j23545010717334_1_alg».proof.Proof.StageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage5

open Cert.KernelIdeal Cert.KernelIdeal.Gen Cert.StageSpec Idealize.ShloMosaic Idealize.ShloMosaic.ValueIdx

/-- The contraction of the block product has one axis, of extent 16. -/
abbrev contr := ValueIdx.contrEquiv1 dot_S10368x16_S16x16_S10368x16_1_0_0_1_n_n 16 rfl rfl

theorem lhs0 (i : S10368x16.Idx) (q : dot_S10368x16_S16x16_S10368x16_1_0_0_1_n_n.contr.Idx) :
    (dot_S10368x16_S16x16_S10368x16_1_0_0_1_n_n.lhsIdx i q 0).val = (i 0).val := by
  unfold DotDims.lhsIdx
  rw [dif_neg (show ¬(0 : Fin S10368x16.rank) ∈ dot_S10368x16_S16x16_S10368x16_1_0_0_1_n_n.lhsBatch by decide), dif_pos (show (0 : Fin S10368x16.rank) ∈ dot_S10368x16_S16x16_S10368x16_1_0_0_1_n_n.lhsNonContracting by decide)]
  rfl
theorem lhs1 (i : S10368x16.Idx) (q : dot_S10368x16_S16x16_S10368x16_1_0_0_1_n_n.contr.Idx) :
    (dot_S10368x16_S16x16_S10368x16_1_0_0_1_n_n.lhsIdx i q 1).val = (q ⟨0, by decide⟩).val :=
  dot_S10368x16_S16x16_S10368x16_1_0_0_1_n_n.lhsIdx_val_of_single rfl i q
theorem rhs0 (i : S10368x16.Idx) (q : dot_S10368x16_S16x16_S10368x16_1_0_0_1_n_n.contr.Idx) :
    (dot_S10368x16_S16x16_S10368x16_1_0_0_1_n_n.rhsIdx i q 0).val = (q ⟨0, by decide⟩).val :=
  dot_S10368x16_S16x16_S10368x16_1_0_0_1_n_n.rhsIdx_val_of_single rfl i q
theorem rhs1 (i : S10368x16.Idx) (q : dot_S10368x16_S16x16_S10368x16_1_0_0_1_n_n.contr.Idx) :
    (dot_S10368x16_S16x16_S10368x16_1_0_0_1_n_n.rhsIdx i q 1).val = (i 1).val := by
  unfold DotDims.rhsIdx
  rw [dif_neg (show ¬(1 : Fin S16x16.rank) ∈ dot_S10368x16_S16x16_S10368x16_1_0_0_1_n_n.rhsBatch by decide), dif_pos (show (1 : Fin S16x16.rank) ∈ dot_S10368x16_S16x16_S10368x16_1_0_0_1_n_n.rhsNonContracting by decide)]
  rfl

/-- The block product at entry (p, q): the sum over the contracted index of left (p, k) times right (k, q). -/
theorem matmul_entry (l : FVec Ideal S10368x16 .bf16) (r : FVec Ideal S16x16 .bf16) (p : Fin 10368) (q : Fin 16) :
    FloatOps.matmul dot_S10368x16_S16x16_S10368x16_1_0_0_1_n_n none l r (constant S10368x16 .f32 0x00000000#32) (ix2 p q)
      = ∑ k : Fin 16, l (ix2 p k) * r (ix2 k q) := by
  refine (Ideal.matmul_constant_zero_apply dot_S10368x16_S16x16_S10368x16_1_0_0_1_n_n none l r (ix2 p q)).trans ?_
  refine (Equiv.sum_comp contr.symm _).symm.trans ?_
  refine Finset.sum_congr rfl fun k _ => ?_
  have hk := ValueIdx.contrEquiv1_symm_val dot_S10368x16_S16x16_S10368x16_1_0_0_1_n_n 16 rfl rfl k
  have el : dot_S10368x16_S16x16_S10368x16_1_0_0_1_n_n.lhsIdx (ix2 p q) (contr.symm k) = ix2 p k := funext fun a => Fin.ext (by
    match a with
    | ⟨0, _⟩ => exact lhs0 _ _
    | ⟨1, _⟩ => exact (lhs1 _ _).trans hk)
  have er : dot_S10368x16_S16x16_S10368x16_1_0_0_1_n_n.rhsIdx (ix2 p q) (contr.symm k) = ix2 k q := funext fun a => Fin.ext (by
    match a with
    | ⟨0, _⟩ => exact (rhs0 _ _).trans hk
    | ⟨1, _⟩ => exact rhs1 _ _)
  rw [el, er]

/-- Entry (p, q) of the block the body stores. -/
theorem pay_apply (x0 : Vec Ideal S10368x16 .f32) (x1 : Vec Ideal S1x16 .f32) (x2 : Vec Ideal S16x16 .f32) (x3 : Vec Ideal S1x16 .f32)
    (p : Fin 10368) (q : Fin 16) :
    k5_pay1 x0 x1 x2 x3 (ix2 p q)
      = relu ((∑ k : Fin 16, relu (x0 (ix2 p k) + x1 (ix2 (0 : Fin 1) k)) * x2 (ix2 k q)) + x3 (ix2 (0 : Fin 1) q)) := by
  unfold k5_pay1
  rw [shapeCast_self x0, shapeCast_self x1, shapeCast_self x3]
  show relu (_ + _) = relu (_ + _)
  refine congrArg relu (congrArg₂ (· + ·) ?_ ?_)
  · refine (matmul_entry _ _ p q).trans ?_
    refine Finset.sum_congr rfl fun k _ => ?_
    refine congrArg₂ (· * ·) ?_ rfl
    show max (x0 (ix2 p k) + broadcastTo S10368x16 x1 broadcasts_S1x16_S10368x16 (ix2 p k)) _ = _
    rw [broadcastTo_1b_ab_apply]
    rfl
  · exact broadcastTo_1b_ab_apply x3 broadcasts_S1x16_S10368x16 p q

end Cert.KernelIdeal.Stage5

end
-- ==== Proof.Stage5.lean ====
/-
  The sixth dense stage as a whole-array function.

  The region runs the body at 16 grid points. Point t reads rows 10368·t … 10368·t + 10367 of the node-feature matrix
  (all 16 columns), the whole first row, the whole weight matrix and the whole second row, and writes rows
  10368·t … 10368·t + 10367 of the output (all 16 columns). The 16 output blocks tile the 165888 rows, so when the region
  ends the output array is the stage function of the four input arrays as the region found them, at every index.
-/
import proofs.«105346_j23545010717334_1_alg».proof.Proof.Gen.KernelIdeal.Frame
import proofs.«105346_j23545010717334_1_alg».proof.Proof.Stage5Pay

set_option maxRecDepth 16384

noncomputable section

namespace Cert.KernelIdeal.Stage5

open Cert.KernelIdeal Cert.KernelIdeal.Gen Cert.StageSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the node features and the output move with the point along the rows;
    the two rows and the weight matrix stay at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's block at a point whose inputs are the blocks of four arrays is the block of the stage function: entry
    (p, q) of the stored block is the stage at row r, column q, when the loaded rows are row r of the features. -/
theorem block_eq (A0 : S165888x16.Idx → EReal) (A1 : S1x16.Idx → EReal) (A2 : S16x16.Idx → EReal) (A3 : S1x16.Idx → EReal)
    (x0 : Vec Ideal S10368x16 .f32) (x1 : Vec Ideal S1x16 .f32) (x2 : Vec Ideal S16x16 .f32) (x3 : Vec Ideal S1x16 .f32)
    (r : Fin 165888) (p : Fin 10368) (q : Fin 16)
    (h0 : ∀ k : Fin 16, x0 (ix2 p k) = A0 (ix2 r k))
    (h1 : ∀ k : Fin 16, x1 (ix2 (0 : Fin 1) k) = A1 (ix2 (0 : Fin 1) k))
    (h2 : ∀ (k : Fin 16), x2 (ix2 k q) = A2 (ix2 k q))
    (h3 : x3 (ix2 (0 : Fin 1) q) = A3 (ix2 (0 : Fin 1) q)) :
    k5_pay1 x0 x1 x2 x3 (ix2 p q) = stage relu relu A0 A1 A2 A3 (ix2 r q) := by
  rw [pay_apply, stage_ix2, h3]
  refine congrArg relu (congrArg₂ (· + ·) (Finset.sum_congr rfl fun k _ => ?_) rfl)
  rw [h0 k, h1 k, h2 k]

/-- The features' block at point t, entry (p, k), is the array at row 10368·t + p, column k. -/
theorem read0 (c : Dev nD) (t : Fin cfg5.N) (p : Fin 10368) (k : Fin 16) (r : Fin 165888) (hr : r.val = t.val * 10368 + p.val) :
    iblk5 V c 0 t (ix2 p k) = V c (Pipeline.arrRef spec5 0) (ix2 r k) := by
  obtain ⟨e00, e01, -⟩ := idx_facts t
  show V c (Pipeline.arrRef spec5 0) (((cfg5.win 0).blk t).view.emb (ix2 p k)) = V c (Pipeline.arrRef spec5 0) (ix2 r k)
  refine congrArg (V c (Pipeline.arrRef spec5 0)) (funext fun a => Fin.ext ?_)
  match a with
  | ⟨0, _⟩ => show win5_0.index t (0 : Fin 2) * 10368 + 1 * p.val = r.val; omega
  | ⟨1, _⟩ => show win5_0.index t (1 : Fin 2) * 16 + 1 * k.val = k.val; omega

/-- The first row's block is the whole row. -/
theorem read1 (c : Dev nD) (t : Fin cfg5.N) (k : Fin 16) :
    iblk5 V c 1 t (ix2 (0 : Fin 1) k) = V c (Pipeline.arrRef spec5 1) (ix2 (0 : Fin 1) k) := by
  obtain ⟨-, -, e10, e11, -⟩ := idx_facts t
  show V c (Pipeline.arrRef spec5 1) (((cfg5.win 1).blk t).view.emb (ix2 (0 : Fin 1) k)) = V c (Pipeline.arrRef spec5 1) (ix2 (0 : Fin 1) k)
  refine congrArg (V c (Pipeline.arrRef spec5 1)) (funext fun a => Fin.ext ?_)
  match a with
  | ⟨0, _⟩ => show win5_1.index t (0 : Fin 2) * 1 + 1 * 0 = 0; omega
  | ⟨1, _⟩ => show win5_1.index t (1 : Fin 2) * 16 + 1 * k.val = k.val; omega

/-- The weight matrix's block is the whole matrix. -/
theorem read2 (c : Dev nD) (t : Fin cfg5.N) (k : Fin 16) (q : Fin 16) :
    iblk5 V c 2 t (ix2 k q) = V c (Pipeline.arrRef spec5 2) (ix2 k q) := by
  obtain ⟨-, -, -, -, e20, e21, -⟩ := idx_facts t
  show V c (Pipeline.arrRef spec5 2) (((cfg5.win 2).blk t).view.emb (ix2 k q)) = V c (Pipeline.arrRef spec5 2) (ix2 k q)
  refine congrArg (V c (Pipeline.arrRef spec5 2)) (funext fun a => Fin.ext ?_)
  match a with
  | ⟨0, _⟩ => show win5_2.index t (0 : Fin 2) * 16 + 1 * k.val = k.val; omega
  | ⟨1, _⟩ => show win5_2.index t (1 : Fin 2) * 16 + 1 * q.val = q.val; omega

/-- The second row's block is the whole row. -/
theorem read3 (c : Dev nD) (t : Fin cfg5.N) (q : Fin 16) :
    iblk5 V c 3 t (ix2 (0 : Fin 1) q) = V c (Pipeline.arrRef spec5 3) (ix2 (0 : Fin 1) q) := by
  obtain ⟨-, -, -, -, -, -, e30, e31, -⟩ := idx_facts t
  show V c (Pipeline.arrRef spec5 3) (((cfg5.win 3).blk t).view.emb (ix2 (0 : Fin 1) q)) = V c (Pipeline.arrRef spec5 3) (ix2 (0 : Fin 1) q)
  refine congrArg (V c (Pipeline.arrRef spec5 3)) (funext fun a => Fin.ext ?_)
  match a with
  | ⟨0, _⟩ => show win5_3.index t (0 : Fin 2) * 1 + 1 * 0 = 0; omega
  | ⟨1, _⟩ => show win5_3.index t (1 : Fin 2) * 16 + 1 * q.val = q.val; omega

/-- What point t writes back is block t of the stage function of the arrays as the region finds them. -/
theorem flushed_eq (c : Dev nD) (t : Fin cfg5.N) :
    (dat5 (F := Ideal) V c).flushed 4 t = ((cfg5.win 4).blk t).view.read (Elt Ideal)
      (stage relu relu (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S10368x16) hz, View.ld_unit_zero (S := S1x16) hz, View.ld_unit_zero (S := S16x16) hz, View.ld_unit_zero (S := S1x16) hz]
  obtain ⟨-, -, -, -, -, -, -, -, e40, e41⟩ := idx_facts t
  have ht : t.val < 16 := t.isLt
  funext j
  have hj0 : (j 0).val < 10368 := (j 0).isLt
  have hj1 : (j 1).val < 16 := (j 1).isLt
  show k5_pay1 (iblk5 V c 0 t) (iblk5 V c 1 t) (iblk5 V c 2 t) (iblk5 V c 3 t) j
    = stage relu relu (V c (Pipeline.arrRef spec5 0)) (V c (Pipeline.arrRef spec5 1)) (V c (Pipeline.arrRef spec5 2)) (V c (Pipeline.arrRef spec5 3))
        (((cfg5.win 4).blk t).view.emb j)
  have hj : j = ix2 (j 0) (j 1) := eq_ix2 j
  have hemb : ((cfg5.win 4).blk t).view.emb j = ix2 (⟨t.val * 10368 + (j 0).val, by omega⟩ : Fin 165888) (j 1) := funext fun a => Fin.ext (by
    match a with
    | ⟨0, _⟩ => show win5_4.index t (0 : Fin 2) * 10368 + 1 * (j 0).val = t.val * 10368 + (j 0).val; omega
    | ⟨1, _⟩ => show win5_4.index t (1 : Fin 2) * 16 + 1 * (j 1).val = (j 1).val; omega)
  rw [hemb]
  refine (congrArg (k5_pay1 (iblk5 V c 0 t) (iblk5 V c 1 t) (iblk5 V c 2 t) (iblk5 V c 3 t)) hj).trans ?_
  exact block_eq _ _ _ _ (iblk5 V c 0 t) (iblk5 V c 1 t) (iblk5 V c 2 t) (iblk5 V c 3 t) ⟨t.val * 10368 + (j 0).val, by omega⟩ (j 0) (j 1)
    (fun k => read0 V c t (j 0) k _ rfl) (fun k => read1 V c t k) (fun k => read2 V c t k (j 1)) (read3 V c t (j 1))

/-- An index of the output array is in point t's block iff each coordinate is in the block's range on its axis. -/
theorem mem_blk (t : Fin cfg5.N) (i : S165888x16.Idx) :
    i ∈ ((cfg5.win 4).blk t).view.set ↔ ∀ a : Fin 2, win5_4.index t a * S10368x16.size a ≤ (i a).val ∧ (i a).val < win5_4.index t a * S10368x16.size a + S10368x16.size a := by
  show i ∈ ((View.whole main_v120).slice (win5_4.rect t)).set ↔ _
  rw [View.set_slice_whole, Rect.mem_set_unit]
  exact Iff.rfl

/-- Every index of the output array is in the block of the point its row falls under. -/
theorem cover (i : S165888x16.Idx) : ∃ t : Fin cfg5.N, (cfg5.win 4).flush t = true ∧ i ∈ ((cfg5.win 4).blk t).view.set := by
  have hi0 : (i 0).val < 165888 := (i 0).isLt
  have hi1 : (i 1).val < 16 := (i 1).isLt
  have hN : cfg5.N = 16 := rfl
  have htlt : (i 0).val / 10368 < cfg5.N := by rw [hN]; omega
  obtain ⟨-, -, -, -, -, -, -, -, e40, e41⟩ := idx_facts ⟨(i 0).val / 10368, htlt⟩
  refine ⟨⟨(i 0).val / 10368, htlt⟩, flush5_4 _, ?_⟩
  rw [mem_blk]
  intro a
  match a with
  | ⟨0, _⟩ =>
    show win5_4.index ⟨(i 0).val / 10368, htlt⟩ (0 : Fin 2) * 10368 ≤ (i 0).val ∧ (i 0).val < win5_4.index ⟨(i 0).val / 10368, htlt⟩ (0 : Fin 2) * 10368 + 10368
    rw [e40]; show (i 0).val / 10368 * 10368 ≤ (i 0).val ∧ (i 0).val < (i 0).val / 10368 * 10368 + 10368; omega
  | ⟨1, _⟩ =>
    show win5_4.index ⟨(i 0).val / 10368, htlt⟩ (1 : Fin 2) * 16 ≤ (i 1).val ∧ (i 1).val < win5_4.index ⟨(i 0).val / 10368, htlt⟩ (1 : Fin 2) * 16 + 16
    rw [e41]; omega

/-- When the region ends, its output array is the stage function of its four input arrays as it found them. -/
theorem final (c : Dev nD) :
    (dat5 (F := Ideal) V c).arrAt 4 cfg5.N
      = stage relu relu (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => flushed_eq V c t) cover

end Cert.KernelIdeal.Stage5

end
-- ==== Proof.Stage6Pay.lean ====
/-
  The body of the seventh dense stage, read at one entry of its output block.

  The body adds the first row to the loaded block of node features, multiplies by the weight matrix and adds a second row. At the exact instance the two
  changes of float format are the identity and the product into a zero accumulator is the plain sum over the contracted
  index, so entry (p, q) of the stored block is
      id ((Σ k, id (x0 (p, k) + x1 (0, k)) · x2 (k, q)) + x3 (0, q)).
-/
import proofs.«105346_j23545010717334_1_alg».proof.Proof.Gen.KernelIdeal.Skeleton
import proofs.«105346_j23545010717334_1_alg».proof.Proof.StageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage6

open Cert.KernelIdeal Cert.KernelIdeal.Gen Cert.StageSpec Idealize.ShloMosaic Idealize.ShloMosaic.ValueIdx

/-- The contraction of the block product has one axis, of extent 16. -/
abbrev contr := ValueIdx.contrEquiv1 dot_S10368x16_S16x9_S10368x9_1_0_0_1_n_n 16 rfl rfl

theorem lhs0 (i : S10368x9.Idx) (q : dot_S10368x16_S16x9_S10368x9_1_0_0_1_n_n.contr.Idx) :
    (dot_S10368x16_S16x9_S10368x9_1_0_0_1_n_n.lhsIdx i q 0).val = (i 0).val := by
  unfold DotDims.lhsIdx
  rw [dif_neg (show ¬(0 : Fin S10368x16.rank) ∈ dot_S10368x16_S16x9_S10368x9_1_0_0_1_n_n.lhsBatch by decide), dif_pos (show (0 : Fin S10368x16.rank) ∈ dot_S10368x16_S16x9_S10368x9_1_0_0_1_n_n.lhsNonContracting by decide)]
  rfl
theorem lhs1 (i : S10368x9.Idx) (q : dot_S10368x16_S16x9_S10368x9_1_0_0_1_n_n.contr.Idx) :
    (dot_S10368x16_S16x9_S10368x9_1_0_0_1_n_n.lhsIdx i q 1).val = (q ⟨0, by decide⟩).val :=
  dot_S10368x16_S16x9_S10368x9_1_0_0_1_n_n.lhsIdx_val_of_single rfl i q
theorem rhs0 (i : S10368x9.Idx) (q : dot_S10368x16_S16x9_S10368x9_1_0_0_1_n_n.contr.Idx) :
    (dot_S10368x16_S16x9_S10368x9_1_0_0_1_n_n.rhsIdx i q 0).val = (q ⟨0, by decide⟩).val :=
  dot_S10368x16_S16x9_S10368x9_1_0_0_1_n_n.rhsIdx_val_of_single rfl i q
theorem rhs1 (i : S10368x9.Idx) (q : dot_S10368x16_S16x9_S10368x9_1_0_0_1_n_n.contr.Idx) :
    (dot_S10368x16_S16x9_S10368x9_1_0_0_1_n_n.rhsIdx i q 1).val = (i 1).val := by
  unfold DotDims.rhsIdx
  rw [dif_neg (show ¬(1 : Fin S16x9.rank) ∈ dot_S10368x16_S16x9_S10368x9_1_0_0_1_n_n.rhsBatch by decide), dif_pos (show (1 : Fin S16x9.rank) ∈ dot_S10368x16_S16x9_S10368x9_1_0_0_1_n_n.rhsNonContracting by decide)]
  rfl

/-- The block product at entry (p, q): the sum over the contracted index of left (p, k) times right (k, q). -/
theorem matmul_entry (l : FVec Ideal S10368x16 .bf16) (r : FVec Ideal S16x9 .bf16) (p : Fin 10368) (q : Fin 9) :
    FloatOps.matmul dot_S10368x16_S16x9_S10368x9_1_0_0_1_n_n none l r (constant S10368x9 .f32 0x00000000#32) (ix2 p q)
      = ∑ k : Fin 16, l (ix2 p k) * r (ix2 k q) := by
  refine (Ideal.matmul_constant_zero_apply dot_S10368x16_S16x9_S10368x9_1_0_0_1_n_n none l r (ix2 p q)).trans ?_
  refine (Equiv.sum_comp contr.symm _).symm.trans ?_
  refine Finset.sum_congr rfl fun k _ => ?_
  have hk := ValueIdx.contrEquiv1_symm_val dot_S10368x16_S16x9_S10368x9_1_0_0_1_n_n 16 rfl rfl k
  have el : dot_S10368x16_S16x9_S10368x9_1_0_0_1_n_n.lhsIdx (ix2 p q) (contr.symm k) = ix2 p k := funext fun a => Fin.ext (by
    match a with
    | ⟨0, _⟩ => exact lhs0 _ _
    | ⟨1, _⟩ => exact (lhs1 _ _).trans hk)
  have er : dot_S10368x16_S16x9_S10368x9_1_0_0_1_n_n.rhsIdx (ix2 p q) (contr.symm k) = ix2 k q := funext fun a => Fin.ext (by
    match a with
    | ⟨0, _⟩ => exact (rhs0 _ _).trans hk
    | ⟨1, _⟩ => exact rhs1 _ _)
  rw [el, er]

/-- Entry (p, q) of the block the body stores. -/
theorem pay_apply (x0 : Vec Ideal S10368x16 .f32) (x1 : Vec Ideal S1x16 .f32) (x2 : Vec Ideal S16x9 .f32) (x3 : Vec Ideal S1x9 .f32)
    (p : Fin 10368) (q : Fin 9) :
    k6_pay1 x0 x1 x2 x3 (ix2 p q)
      = id ((∑ k : Fin 16, id (x0 (ix2 p k) + x1 (ix2 (0 : Fin 1) k)) * x2 (ix2 k q)) + x3 (ix2 (0 : Fin 1) q)) := by
  unfold k6_pay1
  rw [shapeCast_self x0, shapeCast_self x1, shapeCast_self x3]
  refine congrArg₂ (· + ·) ?_ ?_
  · refine (matmul_entry _ _ p q).trans ?_
    refine Finset.sum_congr rfl fun k _ => ?_
    refine congrArg₂ (· * ·) ?_ rfl
    show x0 (ix2 p k) + broadcastTo S10368x16 x1 broadcasts_S1x16_S10368x16 (ix2 p k) = _
    rw [broadcastTo_1b_ab_apply]
    rfl
  · exact broadcastTo_1b_ab_apply x3 broadcasts_S1x9_S10368x9 p q

end Cert.KernelIdeal.Stage6

end
-- ==== Proof.Stage6.lean ====
/-
  The seventh dense stage as a whole-array function.

  The region runs the body at 16 grid points. Point t reads rows 10368·t … 10368·t + 10367 of the node-feature matrix
  (all 16 columns), the whole first row, the whole weight matrix and the whole second row, and writes rows
  10368·t … 10368·t + 10367 of the output (all 9 columns). The 16 output blocks tile the 165888 rows, so when the region
  ends the output array is the stage function of the four input arrays as the region found them, at every index.
-/
import proofs.«105346_j23545010717334_1_alg».proof.Proof.Gen.KernelIdeal.Frame
import proofs.«105346_j23545010717334_1_alg».proof.Proof.Stage6Pay

set_option maxRecDepth 16384

noncomputable section

namespace Cert.KernelIdeal.Stage6

open Cert.KernelIdeal Cert.KernelIdeal.Gen Cert.StageSpec Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the grid: the node features and the output move with the point along the rows;
    the two rows and the weight matrix stay at block (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The body's block at a point whose inputs are the blocks of four arrays is the block of the stage function: entry
    (p, q) of the stored block is the stage at row r, column q, when the loaded rows are row r of the features. -/
theorem block_eq (A0 : S165888x16.Idx → EReal) (A1 : S1x16.Idx → EReal) (A2 : S16x9.Idx → EReal) (A3 : S1x9.Idx → EReal)
    (x0 : Vec Ideal S10368x16 .f32) (x1 : Vec Ideal S1x16 .f32) (x2 : Vec Ideal S16x9 .f32) (x3 : Vec Ideal S1x9 .f32)
    (r : Fin 165888) (p : Fin 10368) (q : Fin 9)
    (h0 : ∀ k : Fin 16, x0 (ix2 p k) = A0 (ix2 r k))
    (h1 : ∀ k : Fin 16, x1 (ix2 (0 : Fin 1) k) = A1 (ix2 (0 : Fin 1) k))
    (h2 : ∀ (k : Fin 16), x2 (ix2 k q) = A2 (ix2 k q))
    (h3 : x3 (ix2 (0 : Fin 1) q) = A3 (ix2 (0 : Fin 1) q)) :
    k6_pay1 x0 x1 x2 x3 (ix2 p q) = stage id id A0 A1 A2 A3 (ix2 r q) := by
  rw [pay_apply, stage_ix2, h3]
  refine congrArg id (congrArg₂ (· + ·) (Finset.sum_congr rfl fun k _ => ?_) rfl)
  rw [h0 k, h1 k, h2 k]

/-- The features' block at point t, entry (p, k), is the array at row 10368·t + p, column k. -/
theorem read0 (c : Dev nD) (t : Fin cfg6.N) (p : Fin 10368) (k : Fin 16) (r : Fin 165888) (hr : r.val = t.val * 10368 + p.val) :
    iblk6 V c 0 t (ix2 p k) = V c (Pipeline.arrRef spec6 0) (ix2 r k) := by
  obtain ⟨e00, e01, -⟩ := idx_facts t
  show V c (Pipeline.arrRef spec6 0) (((cfg6.win 0).blk t).view.emb (ix2 p k)) = V c (Pipeline.arrRef spec6 0) (ix2 r k)
  refine congrArg (V c (Pipeline.arrRef spec6 0)) (funext fun a => Fin.ext ?_)
  match a with
  | ⟨0, _⟩ => show win6_0.index t (0 : Fin 2) * 10368 + 1 * p.val = r.val; omega
  | ⟨1, _⟩ => show win6_0.index t (1 : Fin 2) * 16 + 1 * k.val = k.val; omega

/-- The first row's block is the whole row. -/
theorem read1 (c : Dev nD) (t : Fin cfg6.N) (k : Fin 16) :
    iblk6 V c 1 t (ix2 (0 : Fin 1) k) = V c (Pipeline.arrRef spec6 1) (ix2 (0 : Fin 1) k) := by
  obtain ⟨-, -, e10, e11, -⟩ := idx_facts t
  show V c (Pipeline.arrRef spec6 1) (((cfg6.win 1).blk t).view.emb (ix2 (0 : Fin 1) k)) = V c (Pipeline.arrRef spec6 1) (ix2 (0 : Fin 1) k)
  refine congrArg (V c (Pipeline.arrRef spec6 1)) (funext fun a => Fin.ext ?_)
  match a with
  | ⟨0, _⟩ => show win6_1.index t (0 : Fin 2) * 1 + 1 * 0 = 0; omega
  | ⟨1, _⟩ => show win6_1.index t (1 : Fin 2) * 16 + 1 * k.val = k.val; omega

/-- The weight matrix's block is the whole matrix. -/
theorem read2 (c : Dev nD) (t : Fin cfg6.N) (k : Fin 16) (q : Fin 9) :
    iblk6 V c 2 t (ix2 k q) = V c (Pipeline.arrRef spec6 2) (ix2 k q) := by
  obtain ⟨-, -, -, -, e20, e21, -⟩ := idx_facts t
  show V c (Pipeline.arrRef spec6 2) (((cfg6.win 2).blk t).view.emb (ix2 k q)) = V c (Pipeline.arrRef spec6 2) (ix2 k q)
  refine congrArg (V c (Pipeline.arrRef spec6 2)) (funext fun a => Fin.ext ?_)
  match a with
  | ⟨0, _⟩ => show win6_2.index t (0 : Fin 2) * 16 + 1 * k.val = k.val; omega
  | ⟨1, _⟩ => show win6_2.index t (1 : Fin 2) * 9 + 1 * q.val = q.val; omega

/-- The second row's block is the whole row. -/
theorem read3 (c : Dev nD) (t : Fin cfg6.N) (q : Fin 9) :
    iblk6 V c 3 t (ix2 (0 : Fin 1) q) = V c (Pipeline.arrRef spec6 3) (ix2 (0 : Fin 1) q) := by
  obtain ⟨-, -, -, -, -, -, e30, e31, -⟩ := idx_facts t
  show V c (Pipeline.arrRef spec6 3) (((cfg6.win 3).blk t).view.emb (ix2 (0 : Fin 1) q)) = V c (Pipeline.arrRef spec6 3) (ix2 (0 : Fin 1) q)
  refine congrArg (V c (Pipeline.arrRef spec6 3)) (funext fun a => Fin.ext ?_)
  match a with
  | ⟨0, _⟩ => show win6_3.index t (0 : Fin 2) * 1 + 1 * 0 = 0; omega
  | ⟨1, _⟩ => show win6_3.index t (1 : Fin 2) * 9 + 1 * q.val = q.val; omega

/-- What point t writes back is block t of the stage function of the arrays as the region finds them. -/
theorem flushed_eq (c : Dev nD) (t : Fin cfg6.N) :
    (dat6 (F := Ideal) V c).flushed 4 t = ((cfg6.win 4).blk t).view.read (Elt Ideal)
      (stage id id (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  unfold out6_4
  rw [View.canon_unit_zero hz]
  simp only [View.ld_unit_zero (S := S10368x16) hz, View.ld_unit_zero (S := S1x16) hz, View.ld_unit_zero (S := S16x9) hz, View.ld_unit_zero (S := S1x9) hz]
  obtain ⟨-, -, -, -, -, -, -, -, e40, e41⟩ := idx_facts t
  have ht : t.val < 16 := t.isLt
  funext j
  have hj0 : (j 0).val < 10368 := (j 0).isLt
  have hj1 : (j 1).val < 9 := (j 1).isLt
  show k6_pay1 (iblk6 V c 0 t) (iblk6 V c 1 t) (iblk6 V c 2 t) (iblk6 V c 3 t) j
    = stage id id (V c (Pipeline.arrRef spec6 0)) (V c (Pipeline.arrRef spec6 1)) (V c (Pipeline.arrRef spec6 2)) (V c (Pipeline.arrRef spec6 3))
        (((cfg6.win 4).blk t).view.emb j)
  have hj : j = ix2 (j 0) (j 1) := eq_ix2 j
  have hemb : ((cfg6.win 4).blk t).view.emb j = ix2 (⟨t.val * 10368 + (j 0).val, by omega⟩ : Fin 165888) (j 1) := funext fun a => Fin.ext (by
    match a with
    | ⟨0, _⟩ => show win6_4.index t (0 : Fin 2) * 10368 + 1 * (j 0).val = t.val * 10368 + (j 0).val; omega
    | ⟨1, _⟩ => show win6_4.index t (1 : Fin 2) * 9 + 1 * (j 1).val = (j 1).val; omega)
  rw [hemb]
  refine (congrArg (k6_pay1 (iblk6 V c 0 t) (iblk6 V c 1 t) (iblk6 V c 2 t) (iblk6 V c 3 t)) hj).trans ?_
  exact block_eq _ _ _ _ (iblk6 V c 0 t) (iblk6 V c 1 t) (iblk6 V c 2 t) (iblk6 V c 3 t) ⟨t.val * 10368 + (j 0).val, by omega⟩ (j 0) (j 1)
    (fun k => read0 V c t (j 0) k _ rfl) (fun k => read1 V c t k) (fun k => read2 V c t k (j 1)) (read3 V c t (j 1))

/-- An index of the output array is in point t's block iff each coordinate is in the block's range on its axis. -/
theorem mem_blk (t : Fin cfg6.N) (i : S165888x9.Idx) :
    i ∈ ((cfg6.win 4).blk t).view.set ↔ ∀ a : Fin 2, win6_4.index t a * S10368x9.size a ≤ (i a).val ∧ (i a).val < win6_4.index t a * S10368x9.size a + S10368x9.size a := by
  show i ∈ ((View.whole main_v123).slice (win6_4.rect t)).set ↔ _
  rw [View.set_slice_whole, Rect.mem_set_unit]
  exact Iff.rfl

/-- Every index of the output array is in the block of the point its row falls under. -/
theorem cover (i : S165888x9.Idx) : ∃ t : Fin cfg6.N, (cfg6.win 4).flush t = true ∧ i ∈ ((cfg6.win 4).blk t).view.set := by
  have hi0 : (i 0).val < 165888 := (i 0).isLt
  have hi1 : (i 1).val < 9 := (i 1).isLt
  have hN : cfg6.N = 16 := rfl
  have htlt : (i 0).val / 10368 < cfg6.N := by rw [hN]; omega
  obtain ⟨-, -, -, -, -, -, -, -, e40, e41⟩ := idx_facts ⟨(i 0).val / 10368, htlt⟩
  refine ⟨⟨(i 0).val / 10368, htlt⟩, flush6_4 _, ?_⟩
  rw [mem_blk]
  intro a
  match a with
  | ⟨0, _⟩ =>
    show win6_4.index ⟨(i 0).val / 10368, htlt⟩ (0 : Fin 2) * 10368 ≤ (i 0).val ∧ (i 0).val < win6_4.index ⟨(i 0).val / 10368, htlt⟩ (0 : Fin 2) * 10368 + 10368
    rw [e40]; show (i 0).val / 10368 * 10368 ≤ (i 0).val ∧ (i 0).val < (i 0).val / 10368 * 10368 + 10368; omega
  | ⟨1, _⟩ =>
    show win6_4.index ⟨(i 0).val / 10368, htlt⟩ (1 : Fin 2) * 9 ≤ (i 1).val ∧ (i 1).val < win6_4.index ⟨(i 0).val / 10368, htlt⟩ (1 : Fin 2) * 9 + 9
    rw [e41]; omega

/-- When the region ends, its output array is the stage function of its four input arrays as it found them. -/
theorem final (c : Dev nD) :
    (dat6 (F := Ideal) V c).arrAt 4 cfg6.N
      = stage id id (V c (Pipeline.arrRef spec6 0)) (V c (Pipeline.arrRef spec6 1)) (V c (Pipeline.arrRef spec6 2)) (V c (Pipeline.arrRef spec6 3)) :=
  (dat6 (F := Ideal) V c).arrAt_eq_of_cover 4 _ (fun t _ => flushed_eq V c t) cover

end Cert.KernelIdeal.Stage6

end
-- ==== Proof.RefStage.lean ====
/-
  The reference side of every dense stage of the network.

  Between two aggregations the reference adds a bias row to every row of the aggregate, applies the rectifier and
  multiplies by a weight matrix; its final perceptron does the same twice more, with the bias added after the product.
  Each of these groups of operations is one `Cert.StageSpec.stage` of the arrays it starts from: the theorems below say
  so index by index on the extended reals, where a `dot_general` is the sum over the contracted axis, `add` is `+` and
  `maximum` is `max`. Nothing about finiteness is needed: the only arithmetic used is `x + 0 = x` for a row of zeros.

  In every theorem `A1` is the row added before the product and `A3` the row added after it, given by their values
  (a bias vector, or zero); the feature matrix and the weight matrix are the reference's own arrays.
-/
import proofs.«105346_j23545010717334_1_alg».proof.Proof.RefRead
import proofs.«105346_j23545010717334_1_alg».proof.Proof.StageSpec
import Idealize.ShloMosaic.Lib.ValueIdx
import Idealize.ShloMosaic.PureOps.Ideal.Laws

noncomputable section

namespace Cert.ReferenceIdeal.RefStage

open Cert.ReferenceIdeal Cert.ReferenceIdeal.Read Cert.StageSpec Idealize.ShloMosaic Idealize.ShloMosaic.ValueIdx

/-- With equal sums under them, the specification's rectified biased value `max (s + b) 0` is the reference's
    `maximum (add t b) 0`: on the extended reals `add` is `+`, `maximum` is `max` and the zero constant is the value
    of the all-zero word. -/
theorem relu_add_of_eq {s t b : EReal} (h : s = t) :
    relu (s + b) = FloatOps.maximumf (F := Ideal) (φ := .f32) (FloatOps.addf (F := Ideal) (φ := .f32) t b)
      (FloatOps.ofBits (F := Ideal) .f32 0x00000000#32) := by
  subst h; rfl

/-- With equal sums under them, `s + b` is the reference's `add t b`. -/
theorem add_of_eq {s t b : EReal} (h : s = t) : s + b = FloatOps.addf (F := Ideal) (φ := .f32) t b := by
  subst h; rfl

/-- The first product of the reference (operation 34) multiplies the node features by the weight matrix `x2` with no
    bias and no rectifier: the stage with both rows zero, `Σ k, (x0 (r, k) + 0) · x2 (k, j) + 0`. -/
theorem ref0
    (x0 : (⟨S165888x10, .f32⟩ : BufTy).Contents (Elt Ideal))
    (x2 : (⟨S10x16, .f32⟩ : BufTy).Contents (Elt Ideal))
    (A1 : (⟨2, ![1, 10]⟩ : Shape).Idx → EReal) (hA1 : ∀ k : Fin 10, A1 (ix2 (0 : Fin 1) k) = 0)
    (A3 : (⟨2, ![1, 16]⟩ : Shape).Idx → EReal) (hA3 : ∀ q : Fin 16, A3 (ix2 (0 : Fin 1) q) = 0) :
    stage id id x0 A1 x2 A3 = val_main_v34 (F := Ideal) x0 x2 := by
  funext i
  obtain ⟨r, j, rfl⟩ : ∃ (r : Fin 165888) (j : Fin 16), i = ix2 r j := ⟨i 0, i 1, eq_ix2 i⟩
  rw [stage_ix2, val_main_v34_apply, hA3 j, add_zero, id_eq]
  refine Finset.sum_congr rfl fun k _ => ?_
  have el : lidx_main_v34 (ix2 r j) k = ix2 r k :=
    funext fun a => Fin.ext (by match a with | ⟨0, _⟩ => rfl | ⟨1, _⟩ => rfl)
  have er : ridx_main_v34 (ix2 r j) k = ix2 k j :=
    funext fun a => Fin.ext (by match a with | ⟨0, _⟩ => rfl | ⟨1, _⟩ => rfl)
  rw [el, er, hA1 k, id_eq, add_zero]

/-- Layer 1 of the reference: to the aggregate (operation 47) the bias row `x3` is added on every row, the
    rectifier is applied, and the result is multiplied by the weight matrix `x4` (operation 52). Index by index this is
    the stage with the rectifier before the product, the bias as the inner row and a zero outer row:
    `Σ k, max (a (r, k) + x3 k) 0 · x4 (k, j) + 0`. -/
theorem ref1
    (x0 : (⟨S165888x10, .f32⟩ : BufTy).Contents (Elt Ideal))
    (x1 : (⟨S2048x2x1620, .i32⟩ : BufTy).Contents (Elt Ideal))
    (x2 : (⟨S10x16, .f32⟩ : BufTy).Contents (Elt Ideal))
    (x3 : (⟨S16, .f32⟩ : BufTy).Contents (Elt Ideal))
    (x4 : (⟨S16x32, .f32⟩ : BufTy).Contents (Elt Ideal))
    (A1 : (⟨2, ![1, 16]⟩ : Shape).Idx → EReal) (hA1 : ∀ k : Fin 16, A1 (ix2 (0 : Fin 1) k) = x3 (ix1 k))
    (A3 : (⟨2, ![1, 32]⟩ : Shape).Idx → EReal) (hA3 : ∀ q : Fin 32, A3 (ix2 (0 : Fin 1) q) = 0) :
    stage relu id (val_main_v47 (F := Ideal) x0 x1 x2) A1 x4 A3 = val_main_v52 (F := Ideal) x0 x1 x2 x3 x4 := by
  funext i
  obtain ⟨r, j, rfl⟩ : ∃ (r : Fin 165888) (j : Fin 32), i = ix2 r j := ⟨i 0, i 1, eq_ix2 i⟩
  rw [stage_ix2, val_main_v52_apply, hA3 j, add_zero, id_eq]
  refine Finset.sum_congr rfl fun k _ => ?_
  -- the product reads its left operand at (r, k) and its right operand at (k, j); the bias row is read at k
  have el : lidx_main_v52 (ix2 r j) k = ix2 r k :=
    funext fun a => Fin.ext (by match a with | ⟨0, _⟩ => rfl | ⟨1, _⟩ => rfl)
  have er : ridx_main_v52 (ix2 r j) k = ix2 k j :=
    funext fun a => Fin.ext (by match a with | ⟨0, _⟩ => rfl | ⟨1, _⟩ => rfl)
  have eb : idx_main_v48 (idx_main_v49 (ix2 r k)) = ix1 k :=
    funext fun a => Fin.ext (by match a with | ⟨0, _⟩ => rfl)
  rw [el, er, val_main_v51_apply, val_main_v50_apply, val_main_v49_apply, val_main_v48_apply,
    val_main_call1_v0_apply, val_main_call1_cst_apply, eb, hA1 k]
  generalize val_main_v47 (F := Ideal) x0 x1 x2 (ix2 r k) = y
  rfl

/-- Layer 2 of the reference: to the aggregate (operation 65) the bias row `x5` is added on every row, the
    rectifier is applied, and the result is multiplied by the weight matrix `x6` (operation 70). Index by index this is
    the stage with the rectifier before the product, the bias as the inner row and a zero outer row:
    `Σ k, max (a (r, k) + x5 k) 0 · x6 (k, j) + 0`. -/
theorem ref2
    (x0 : (⟨S165888x10, .f32⟩ : BufTy).Contents (Elt Ideal))
    (x1 : (⟨S2048x2x1620, .i32⟩ : BufTy).Contents (Elt Ideal))
    (x2 : (⟨S10x16, .f32⟩ : BufTy).Contents (Elt Ideal))
    (x3 : (⟨S16, .f32⟩ : BufTy).Contents (Elt Ideal))
    (x4 : (⟨S16x32, .f32⟩ : BufTy).Contents (Elt Ideal))
    (x5 : (⟨S32, .f32⟩ : BufTy).Contents (Elt Ideal))
    (x6 : (⟨S32x64, .f32⟩ : BufTy).Contents (Elt Ideal))
    (A1 : (⟨2, ![1, 32]⟩ : Shape).Idx → EReal) (hA1 : ∀ k : Fin 32, A1 (ix2 (0 : Fin 1) k) = x5 (ix1 k))
    (A3 : (⟨2, ![1, 64]⟩ : Shape).Idx → EReal) (hA3 : ∀ q : Fin 64, A3 (ix2 (0 : Fin 1) q) = 0) :
    stage relu id (val_main_v65 (F := Ideal) x0 x1 x2 x3 x4) A1 x6 A3 = val_main_v70 (F := Ideal) x0 x1 x2 x3 x4 x5 x6 := by
  funext i
  obtain ⟨r, j, rfl⟩ : ∃ (r : Fin 165888) (j : Fin 64), i = ix2 r j := ⟨i 0, i 1, eq_ix2 i⟩
  rw [stage_ix2, val_main_v70_apply, hA3 j, add_zero, id_eq]
  refine Finset.sum_congr rfl fun k _ => ?_
  -- the product reads its left operand at (r, k) and its right operand at (k, j); the bias row is read at k
  have el : lidx_main_v70 (ix2 r j) k = ix2 r k :=
    funext fun a => Fin.ext (by match a with | ⟨0, _⟩ => rfl | ⟨1, _⟩ => rfl)
  have er : ridx_main_v70 (ix2 r j) k = ix2 k j :=
    funext fun a => Fin.ext (by match a with | ⟨0, _⟩ => rfl | ⟨1, _⟩ => rfl)
  have eb : idx_main_v66 (idx_main_v67 (ix2 r k)) = ix1 k :=
    funext fun a => Fin.ext (by match a with | ⟨0, _⟩ => rfl)
  rw [el, er, val_main_v69_apply, val_main_v68_apply, val_main_v67_apply, val_main_v66_apply,
    val_main_call2_v0_apply, val_main_call2_cst_apply, eb, hA1 k]
  generalize val_main_v65 (F := Ideal) x0 x1 x2 x3 x4 (ix2 r k) = y
  rfl

/-- Layer 3 of the reference: to the aggregate (operation 83) the bias row `x7` is added on every row, the
    rectifier is applied, and the result is multiplied by the weight matrix `x8` (operation 88). Index by index this is
    the stage with the rectifier before the product, the bias as the inner row and a zero outer row:
    `Σ k, max (a (r, k) + x7 k) 0 · x8 (k, j) + 0`. -/
theorem ref3
    (x0 : (⟨S165888x10, .f32⟩ : BufTy).Contents (Elt Ideal))
    (x1 : (⟨S2048x2x1620, .i32⟩ : BufTy).Contents (Elt Ideal))
    (x2 : (⟨S10x16, .f32⟩ : BufTy).Contents (Elt Ideal))
    (x3 : (⟨S16, .f32⟩ : BufTy).Contents (Elt Ideal))
    (x4 : (⟨S16x32, .f32⟩ : BufTy).Contents (Elt Ideal))
    (x5 : (⟨S32, .f32⟩ : BufTy).Contents (Elt Ideal))
    (x6 : (⟨S32x64, .f32⟩ : BufTy).Contents (Elt Ideal))
    (x7 : (⟨S64, .f32⟩ : BufTy).Contents (Elt Ideal))
    (x8 : (⟨S64x32, .f32⟩ : BufTy).Contents (Elt Ideal))
    (A1 : (⟨2, ![1, 64]⟩ : Shape).Idx → EReal) (hA1 : ∀ k : Fin 64, A1 (ix2 (0 : Fin 1) k) = x7 (ix1 k))
    (A3 : (⟨2, ![1, 32]⟩ : Shape).Idx → EReal) (hA3 : ∀ q : Fin 32, A3 (ix2 (0 : Fin 1) q) = 0) :
    stage relu id (val_main_v83 (F := Ideal) x0 x1 x2 x3 x4 x5 x6) A1 x8 A3 = val_main_v88 (F := Ideal) x0 x1 x2 x3 x4 x5 x6 x7 x8 := by
  funext i
  obtain ⟨r, j, rfl⟩ : ∃ (r : Fin 165888) (j : Fin 32), i = ix2 r j := ⟨i 0, i 1, eq_ix2 i⟩
  rw [stage_ix2, val_main_v88_apply, hA3 j, add_zero, id_eq]
  refine Finset.sum_congr rfl fun k _ => ?_
  -- the product reads its left operand at (r, k) and its right operand at (k, j); the bias row is read at k
  have el : lidx_main_v88 (ix2 r j) k = ix2 r k :=
    funext fun a => Fin.ext (by match a with | ⟨0, _⟩ => rfl | ⟨1, _⟩ => rfl)
  have er : ridx_main_v88 (ix2 r j) k = ix2 k j :=
    funext fun a => Fin.ext (by match a with | ⟨0, _⟩ => rfl | ⟨1, _⟩ => rfl)
  have eb : idx_main_v84 (idx_main_v85 (ix2 r k)) = ix1 k :=
    funext fun a => Fin.ext (by match a with | ⟨0, _⟩ => rfl)
  rw [el, er, val_main_v87_apply, val_main_v86_apply, val_main_v85_apply, val_main_v84_apply,
    val_main_call3_v0_apply, val_main_call3_cst_apply, eb, hA1 k]
  generalize val_main_v83 (F := Ideal) x0 x1 x2 x3 x4 x5 x6 (ix2 r k) = y
  rfl

/-- Layer 4 of the reference: to the aggregate (operation 101) the bias row `x9` is added on every row, the
    rectifier is applied, and the result is multiplied by the weight matrix `x10` (operation 106). Index by index this is
    the stage with the rectifier before the product, the bias as the inner row and a zero outer row:
    `Σ k, max (a (r, k) + x9 k) 0 · x10 (k, j) + 0`. -/
theorem ref4
    (x0 : (⟨S165888x10, .f32⟩ : BufTy).Contents (Elt Ideal))
    (x1 : (⟨S2048x2x1620, .i32⟩ : BufTy).Contents (Elt Ideal))
    (x2 : (⟨S10x16, .f32⟩ : BufTy).Contents (Elt Ideal))
    (x3 : (⟨S16, .f32⟩ : BufTy).Contents (Elt Ideal))
    (x4 : (⟨S16x32, .f32⟩ : BufTy).Contents (Elt Ideal))
    (x5 : (⟨S32, .f32⟩ : BufTy).Contents (Elt Ideal))
    (x6 : (⟨S32x64, .f32⟩ : BufTy).Contents (Elt Ideal))
    (x7 : (⟨S64, .f32⟩ : BufTy).Contents (Elt Ideal))
    (x8 : (⟨S64x32, .f32⟩ : BufTy).Contents (Elt Ideal))
    (x9 : (⟨S32, .f32⟩ : BufTy).Contents (Elt Ideal))
    (x10 : (⟨S32x16, .f32⟩ : BufTy).Contents (Elt Ideal))
    (A1 : (⟨2, ![1, 32]⟩ : Shape).Idx → EReal) (hA1 : ∀ k : Fin 32, A1 (ix2 (0 : Fin 1) k) = x9 (ix1 k))
    (A3 : (⟨2, ![1, 16]⟩ : Shape).Idx → EReal) (hA3 : ∀ q : Fin 16, A3 (ix2 (0 : Fin 1) q) = 0) :
    stage relu id (val_main_v101 (F := Ideal) x0 x1 x2 x3 x4 x5 x6 x7 x8) A1 x10 A3 = val_main_v106 (F := Ideal) x0 x1 x2 x3 x4 x5 x6 x7 x8 x9 x10 := by
  funext i
  obtain ⟨r, j, rfl⟩ : ∃ (r : Fin 165888) (j : Fin 16), i = ix2 r j := ⟨i 0, i 1, eq_ix2 i⟩
  rw [stage_ix2, val_main_v106_apply, hA3 j, add_zero, id_eq]
  refine Finset.sum_congr rfl fun k _ => ?_
  -- the product reads its left operand at (r, k) and its right operand at (k, j); the bias row is read at k
  have el : lidx_main_v106 (ix2 r j) k = ix2 r k :=
    funext fun a => Fin.ext (by match a with | ⟨0, _⟩ => rfl | ⟨1, _⟩ => rfl)
  have er : ridx_main_v106 (ix2 r j) k = ix2 k j :=
    funext fun a => Fin.ext (by match a with | ⟨0, _⟩ => rfl | ⟨1, _⟩ => rfl)
  have eb : idx_main_v102 (idx_main_v103 (ix2 r k)) = ix1 k :=
    funext fun a => Fin.ext (by match a with | ⟨0, _⟩ => rfl)
  rw [el, er, val_main_v105_apply, val_main_v104_apply, val_main_v103_apply, val_main_v102_apply,
    val_main_call4_v0_apply, val_main_call4_cst_apply, eb, hA1 k]
  generalize val_main_v101 (F := Ideal) x0 x1 x2 x3 x4 x5 x6 x7 x8 (ix2 r k) = y
  rfl

/-- The first layer of the final perceptron in the reference: the bias row `x11` is added to the last aggregate
    (operation 119) and the rectifier applied, the result is multiplied by `x12` (operation 124), the bias row `x13` is
    added and the rectifier applied again (operation 128). This is the stage with the rectifier on both sides:
    `max (Σ k, max (a (r, k) + x11 k) 0 · x12 (k, j) + x13 j) 0`. -/
theorem ref5
    (x0 : (⟨S165888x10, .f32⟩ : BufTy).Contents (Elt Ideal))
    (x1 : (⟨S2048x2x1620, .i32⟩ : BufTy).Contents (Elt Ideal))
    (x2 : (⟨S10x16, .f32⟩ : BufTy).Contents (Elt Ideal))
    (x3 : (⟨S16, .f32⟩ : BufTy).Contents (Elt Ideal))
    (x4 : (⟨S16x32, .f32⟩ : BufTy).Contents (Elt Ideal))
    (x5 : (⟨S32, .f32⟩ : BufTy).Contents (Elt Ideal))
    (x6 : (⟨S32x64, .f32⟩ : BufTy).Contents (Elt Ideal))
    (x7 : (⟨S64, .f32⟩ : BufTy).Contents (Elt Ideal))
    (x8 : (⟨S64x32, .f32⟩ : BufTy).Contents (Elt Ideal))
    (x9 : (⟨S32, .f32⟩ : BufTy).Contents (Elt Ideal))
    (x10 : (⟨S32x16, .f32⟩ : BufTy).Contents (Elt Ideal))
    (x11 : (⟨S16, .f32⟩ : BufTy).Contents (Elt Ideal))
    (x12 : (⟨S16x16, .f32⟩ : BufTy).Contents (Elt Ideal))
    (x13 : (⟨S16, .f32⟩ : BufTy).Contents (Elt Ideal))
    (A1 : (⟨2, ![1, 16]⟩ : Shape).Idx → EReal) (hA1 : ∀ k : Fin 16, A1 (ix2 (0 : Fin 1) k) = x11 (ix1 k))
    (A3 : (⟨2, ![1, 16]⟩ : Shape).Idx → EReal) (hA3 : ∀ q : Fin 16, A3 (ix2 (0 : Fin 1) q) = x13 (ix1 q)) :
    stage relu relu (val_main_v119 (F := Ideal) x0 x1 x2 x3 x4 x5 x6 x7 x8 x9 x10) A1 x12 A3 = val_main_v128 (F := Ideal) x0 x1 x2 x3 x4 x5 x6 x7 x8 x9 x10 x11 x12 x13 := by
  funext i
  obtain ⟨r, j, rfl⟩ : ∃ (r : Fin 165888) (j : Fin 16), i = ix2 r j := ⟨i 0, i 1, eq_ix2 i⟩
  -- the outer bias row is read at j
  have eo : idx_main_v125 (idx_main_v126 (ix2 r j)) = ix1 j :=
    funext fun a => Fin.ext (by match a with | ⟨0, _⟩ => rfl)
  rw [stage_ix2, val_main_v128_apply, val_main_v127_apply, val_main_v124_apply, val_main_v126_apply, val_main_v125_apply,
    val_main_call6_v0_apply, val_main_call6_cst_apply, eo, hA3 j]
  refine relu_add_of_eq (Finset.sum_congr rfl fun k _ => ?_)
  have el : lidx_main_v124 (ix2 r j) k = ix2 r k :=
    funext fun a => Fin.ext (by match a with | ⟨0, _⟩ => rfl | ⟨1, _⟩ => rfl)
  have er : ridx_main_v124 (ix2 r j) k = ix2 k j :=
    funext fun a => Fin.ext (by match a with | ⟨0, _⟩ => rfl | ⟨1, _⟩ => rfl)
  have eb : idx_main_v120 (idx_main_v121 (ix2 r k)) = ix1 k :=
    funext fun a => Fin.ext (by match a with | ⟨0, _⟩ => rfl)
  rw [el, er, val_main_v123_apply, val_main_v122_apply, val_main_v121_apply, val_main_v120_apply,
    val_main_call5_v0_apply, val_main_call5_cst_apply, eb, hA1 k]
  generalize val_main_v119 (F := Ideal) x0 x1 x2 x3 x4 x5 x6 x7 x8 x9 x10 (ix2 r k) = y
  rfl

/-- The last layer of the reference's perceptron: the output of the previous layer (operation 128) is multiplied by
    `x14` (operation 129) and the bias row `x15` is added (operation 132), with no rectifier: the stage with a zero
    inner row, `Σ k, (h (r, k) + 0) · x14 (k, j) + x15 j`. -/
theorem ref6
    (x0 : (⟨S165888x10, .f32⟩ : BufTy).Contents (Elt Ideal))
    (x1 : (⟨S2048x2x1620, .i32⟩ : BufTy).Contents (Elt Ideal))
    (x2 : (⟨S10x16, .f32⟩ : BufTy).Contents (Elt Ideal))
    (x3 : (⟨S16, .f32⟩ : BufTy).Contents (Elt Ideal))
    (x4 : (⟨S16x32, .f32⟩ : BufTy).Contents (Elt Ideal))
    (x5 : (⟨S32, .f32⟩ : BufTy).Contents (Elt Ideal))
    (x6 : (⟨S32x64, .f32⟩ : BufTy).Contents (Elt Ideal))
    (x7 : (⟨S64, .f32⟩ : BufTy).Contents (Elt Ideal))
    (x8 : (⟨S64x32, .f32⟩ : BufTy).Contents (Elt Ideal))
    (x9 : (⟨S32, .f32⟩ : BufTy).Contents (Elt Ideal))
    (x10 : (⟨S32x16, .f32⟩ : BufTy).Contents (Elt Ideal))
    (x11 : (⟨S16, .f32⟩ : BufTy).Contents (Elt Ideal))
    (x12 : (⟨S16x16, .f32⟩ : BufTy).Contents (Elt Ideal))
    (x13 : (⟨S16, .f32⟩ : BufTy).Contents (Elt Ideal))
    (x14 : (⟨S16x9, .f32⟩ : BufTy).Contents (Elt Ideal))
    (x15 : (⟨S9, .f32⟩ : BufTy).Contents (Elt Ideal))
    (A1 : (⟨2, ![1, 16]⟩ : Shape).Idx → EReal) (hA1 : ∀ k : Fin 16, A1 (ix2 (0 : Fin 1) k) = 0)
    (A3 : (⟨2, ![1, 9]⟩ : Shape).Idx → EReal) (hA3 : ∀ q : Fin 9, A3 (ix2 (0 : Fin 1) q) = x15 (ix1 q)) :
    stage id id (val_main_v128 (F := Ideal) x0 x1 x2 x3 x4 x5 x6 x7 x8 x9 x10 x11 x12 x13) A1 x14 A3 = val_main_v132 (F := Ideal) x0 x1 x2 x3 x4 x5 x6 x7 x8 x9 x10 x11 x12 x13 x14 x15 := by
  funext i
  obtain ⟨r, j, rfl⟩ : ∃ (r : Fin 165888) (j : Fin 9), i = ix2 r j := ⟨i 0, i 1, eq_ix2 i⟩
  have eo : idx_main_v130 (idx_main_v131 (ix2 r j)) = ix1 j :=
    funext fun a => Fin.ext (by match a with | ⟨0, _⟩ => rfl)
  rw [stage_ix2, val_main_v132_apply, val_main_v129_apply, val_main_v131_apply, val_main_v130_apply, eo, hA3 j, id_eq]
  refine add_of_eq (Finset.sum_congr rfl fun k _ => ?_)
  have el : lidx_main_v129 (ix2 r j) k = ix2 r k :=
    funext fun a => Fin.ext (by match a with | ⟨0, _⟩ => rfl | ⟨1, _⟩ => rfl)
  have er : ridx_main_v129 (ix2 r j) k = ix2 k j :=
    funext fun a => Fin.ext (by match a with | ⟨0, _⟩ => rfl | ⟨1, _⟩ => rfl)
  rw [el, er, hA1 k, id_eq, add_zero]

end Cert.ReferenceIdeal.RefStage

end
-- ==== Proof.HostKeep.lean ====
/-
  The host side of the kernel program, part 1: which buffers each stretch of host operations writes, and what the
  reshaped rows and the zero vectors hold, over ANY buffer contents `V` at the stretch's entry.

  A stretch is a straight line of array operations, each writing one buffer. A buffer none of them writes keeps its
  contents. A vector reshaped to a one-row matrix reads, at column `q` of its only row, the vector at `q`. A broadcast
  of the all-zero f32 word reads 0 at every index.
-/
import proofs.«105346_j23545010717334_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host

open Idealize.ShloMosaic Idealize.ShloMosaic.TcCoe Idealize.SL.Sem Idealize.ShloMosaic.ValueIdx
open Cert.KernelIdeal.Gen

/-! ## The buffers each stretch writes, and that it writes no other -/

/-- The buffers `hostOps0` writes, in order. -/
def wr0 : List (Ref sig .tc) := [main_v0, main_v1, main_v2, main_v3, main_v4, main_v5, main_v6, main_v7, main_v8, main_cst, main_v9, main_cst_0, main_v10, main_v11, main_v12, main_cst_1, main_v13, main_v14, main_cst_2, main_v15, main_v16, main_v17, main_cst_3]
theorem wr0_sub : (hostOps0 (F := Ideal)).Forall fun op => op.writes ⊆ ((wr0.map (Proc.devRef (τ := τ) .tc)).toFinset) := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps0` does not write keeps its contents. -/
theorem wr0_keep (V : Valuation τ sig (Elt Ideal)) (r : Ref sig .tc) (hr : r ∉ wr0) :
    StableHlo.after (hostOps0 (F := Ideal)) V (Proc.devRef .tc r) = V (Proc.devRef .tc r) :=
  StableHlo.after_of_writes_sub _ V wr0_sub hr

/-- The buffers `hostOps0_1` writes, in order. -/
def wr0_1 : List (Ref sig .tc) := [main_call0_v0, main_call0_v1, main_v18]
theorem wr0_1_sub : (hostOps0_1 (F := Ideal)).Forall fun op => op.writes ⊆ ((wr0_1.map (Proc.devRef (τ := τ) .tc)).toFinset) := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps0_1` does not write keeps its contents. -/
theorem wr0_1_keep (V : Valuation τ sig (Elt Ideal)) (r : Ref sig .tc) (hr : r ∉ wr0_1) :
    StableHlo.after (hostOps0_1 (F := Ideal)) V (Proc.devRef .tc r) = V (Proc.devRef .tc r) :=
  StableHlo.after_of_writes_sub _ V wr0_1_sub hr

/-- The buffers `hostOps0_2` writes, in order. -/
def wr0_2 : List (Ref sig .tc) := [main_c, main_v19, main_v20, main_c_4, main_v21, main_v22, main_v23, main_v24, main_v25, main_c_5, main_v26, main_v27, main_c_6, main_v28, main_v29, main_v30, main_v31, main_v32, main_v33, main_cst_7, main_v34, main_cst_8, main_v35, main_cst_9, main_v36, main_cst_10, main_v37, main_v38, main_v39]
theorem wr0_2_sub : (hostOps0_2 (F := Ideal)).Forall fun op => op.writes ⊆ ((wr0_2.map (Proc.devRef (τ := τ) .tc)).toFinset) := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps0_2` does not write keeps its contents. -/
theorem wr0_2_keep (V : Valuation τ sig (Elt Ideal)) (r : Ref sig .tc) (hr : r ∉ wr0_2) :
    StableHlo.after (hostOps0_2 (F := Ideal)) V (Proc.devRef .tc r) = V (Proc.devRef .tc r) :=
  StableHlo.after_of_writes_sub _ V wr0_2_sub hr

/-- The buffers `hostOps1` writes, in order. -/
def wr1 : List (Ref sig .tc) := [main_c_11, main_v41, main_v42, main_c_12, main_v43, main_v44, main_v45, main_v46, main_v47, main_v48, main_v49, main_v50, main_cst_13, main_v51, main_v52, main_v53, main_v54, main_v55]
theorem wr1_sub : (hostOps1 (F := Ideal)).Forall fun op => op.writes ⊆ ((wr1.map (Proc.devRef (τ := τ) .tc)).toFinset) := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps1` does not write keeps its contents. -/
theorem wr1_keep (V : Valuation τ sig (Elt Ideal)) (r : Ref sig .tc) (hr : r ∉ wr1) :
    StableHlo.after (hostOps1 (F := Ideal)) V (Proc.devRef .tc r) = V (Proc.devRef .tc r) :=
  StableHlo.after_of_writes_sub _ V wr1_sub hr

/-- The buffers `hostOps2` writes, in order. -/
def wr2 : List (Ref sig .tc) := [main_c_14, main_v57, main_v58, main_c_15, main_v59, main_v60, main_v61, main_v62, main_v63, main_v64, main_v65, main_v66, main_cst_16, main_v67, main_v68, main_v69, main_v70, main_v71]
theorem wr2_sub : (hostOps2 (F := Ideal)).Forall fun op => op.writes ⊆ ((wr2.map (Proc.devRef (τ := τ) .tc)).toFinset) := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps2` does not write keeps its contents. -/
theorem wr2_keep (V : Valuation τ sig (Elt Ideal)) (r : Ref sig .tc) (hr : r ∉ wr2) :
    StableHlo.after (hostOps2 (F := Ideal)) V (Proc.devRef .tc r) = V (Proc.devRef .tc r) :=
  StableHlo.after_of_writes_sub _ V wr2_sub hr

/-- The buffers `hostOps3` writes, in order. -/
def wr3 : List (Ref sig .tc) := [main_c_17, main_v73, main_v74, main_c_18, main_v75, main_v76, main_v77, main_v78, main_v79, main_v80, main_v81, main_v82, main_cst_19, main_v83, main_v84, main_v85, main_v86, main_v87]
theorem wr3_sub : (hostOps3 (F := Ideal)).Forall fun op => op.writes ⊆ ((wr3.map (Proc.devRef (τ := τ) .tc)).toFinset) := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps3` does not write keeps its contents. -/
theorem wr3_keep (V : Valuation τ sig (Elt Ideal)) (r : Ref sig .tc) (hr : r ∉ wr3) :
    StableHlo.after (hostOps3 (F := Ideal)) V (Proc.devRef .tc r) = V (Proc.devRef .tc r) :=
  StableHlo.after_of_writes_sub _ V wr3_sub hr

/-- The buffers `hostOps4` writes, in order. -/
def wr4 : List (Ref sig .tc) := [main_c_20, main_v89, main_v90, main_c_21, main_v91, main_v92, main_v93, main_v94, main_v95, main_v96, main_v97, main_v98, main_cst_22, main_v99, main_v100, main_v101, main_v102, main_v103]
theorem wr4_sub : (hostOps4 (F := Ideal)).Forall fun op => op.writes ⊆ ((wr4.map (Proc.devRef (τ := τ) .tc)).toFinset) := by
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps4` does not write keeps its contents. -/
theorem wr4_keep (V : Valuation τ sig (Elt Ideal)) (r : Ref sig .tc) (hr : r ∉ wr4) :
    StableHlo.after (hostOps4 (F := Ideal)) V (Proc.devRef .tc r) = V (Proc.devRef .tc r) :=
  StableHlo.after_of_writes_sub _ V wr4_sub hr

/-- The buffers `hostOps5` writes, in order. -/
def wr5 : List (Ref sig .tc) := [main_c_23, main_v105, main_v106, main_c_24, main_v107, main_v108, main_v109, main_v110, main_v111, main_v112, main_v113, main_v114, main_cst_25, main_v115, main_v116, main_v117, main_v118, main_v119]
theorem wr5_sub : (hostOps5 (F := Ideal)).Forall fun op => op.writes ⊆ ((wr5.map (Proc.devRef (τ := τ) .tc)).toFinset) := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps5` does not write keeps its contents. -/
theorem wr5_keep (V : Valuation τ sig (Elt Ideal)) (r : Ref sig .tc) (hr : r ∉ wr5) :
    StableHlo.after (hostOps5 (F := Ideal)) V (Proc.devRef .tc r) = V (Proc.devRef .tc r) :=
  StableHlo.after_of_writes_sub _ V wr5_sub hr

/-- The buffers `hostOps6` writes, in order. -/
def wr6 : List (Ref sig .tc) := [main_v121, main_v122]
theorem wr6_sub : (hostOps6 (F := Ideal)).Forall fun op => op.writes ⊆ ((wr6.map (Proc.devRef (τ := τ) .tc)).toFinset) := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps6` does not write keeps its contents. -/
theorem wr6_keep (V : Valuation τ sig (Elt Ideal)) (r : Ref sig .tc) (hr : r ∉ wr6) :
    StableHlo.after (hostOps6 (F := Ideal)) V (Proc.devRef .tc r) = V (Proc.devRef .tc r) :=
  StableHlo.after_of_writes_sub _ V wr6_sub hr

/-- The buffers `hostOps7` writes, in order. -/
def wr7 : List (Ref sig .tc) := [main_v124]
theorem wr7_sub : (hostOps7 (F := Ideal)).Forall fun op => op.writes ⊆ ((wr7.map (Proc.devRef (τ := τ) .tc)).toFinset) := by
  simp only [hostOps7, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
/-- A buffer `hostOps7` does not write keeps its contents. -/
theorem wr7_keep (V : Valuation τ sig (Elt Ideal)) (r : Ref sig .tc) (hr : r ∉ wr7) :
    StableHlo.after (hostOps7 (F := Ideal)) V (Proc.devRef .tc r) = V (Proc.devRef .tc r) :=
  StableHlo.after_of_writes_sub _ V wr7_sub hr

/-! ## The zero vectors and zero rows made before the first region

A broadcast of the all-zero f32 word reads, at every index, the value of that word, which is 0. -/

/-- A broadcast scalar constant read at an index is the constant's value. -/
theorem bcast_const_apply {t : Shape} (h : (⟨0, ![]⟩ : Shape).BroadcastsInDim t (![] : Fin 0 → Fin t.rank)) (bits : BitVec 32) (j : t.Idx) :
    broadcastInDim t ![] h (constant (F := Ideal) ⟨0, ![]⟩ .f32 bits) j = Ideal.ofBits .f32 bits :=
  broadcastInDim_apply _ h _ j (fun a => a.elim0) (fun a => a.elim0)

theorem p2_v35 (V : Valuation τ sig (Elt Ideal)) (q : Fin 16) :
    StableHlo.after (hostOps0_2 (F := Ideal)) V (Proc.devRef .tc main_v35) (ix1 q) = (0 : EReal) := by
  open Idealize.ShloMosaic.StableHlo in after_results
  exact (bcast_const_apply _ _ _).trans Ideal.ofBits_zero_f32

theorem p2_v36 (V : Valuation τ sig (Elt Ideal)) (q : Fin 32) :
    StableHlo.after (hostOps0_2 (F := Ideal)) V (Proc.devRef .tc main_v36) (ix1 q) = (0 : EReal) := by
  open Idealize.ShloMosaic.StableHlo in after_results
  exact (bcast_const_apply _ _ _).trans Ideal.ofBits_zero_f32

theorem p2_v37 (V : Valuation τ sig (Elt Ideal)) (q : Fin 64) :
    StableHlo.after (hostOps0_2 (F := Ideal)) V (Proc.devRef .tc main_v37) (ix1 q) = (0 : EReal) := by
  open Idealize.ShloMosaic.StableHlo in after_results
  exact (bcast_const_apply _ _ _).trans Ideal.ofBits_zero_f32

theorem p2_v38 (V : Valuation τ sig (Elt Ideal)) (q : Fin 10) :
    StableHlo.after (hostOps0_2 (F := Ideal)) V (Proc.devRef .tc main_v38) (ix2 (0 : Fin 1) q) = (0 : EReal) := by
  open Idealize.ShloMosaic.StableHlo in after_results
  exact (shapeCast_a_1a_apply _ _ 0 q).trans ((bcast_const_apply _ _ _).trans Ideal.ofBits_zero_f32)

theorem p2_v39 (V : Valuation τ sig (Elt Ideal)) (q : Fin 16) :
    StableHlo.after (hostOps0_2 (F := Ideal)) V (Proc.devRef .tc main_v39) (ix2 (0 : Fin 1) q) = (0 : EReal) := by
  open Idealize.ShloMosaic.StableHlo in after_results
  exact (shapeCast_a_1a_apply _ _ 0 q).trans ((bcast_const_apply _ _ _).trans Ideal.ofBits_zero_f32)

/-! ## The stretches between the regions

Stretch K gathers, for every edge, the row of the previous region's output at the edge's source node, scales it by the
edge's weight and adds it into the row of the edge's destination node, starting from zero rows: the neighbourhood
aggregate the next region multiplies by its weight matrix. It also reshapes the next region's two row operands. -/

theorem rv54_of (V : Valuation τ sig (Elt Ideal)) (q : Fin 16) :
    StableHlo.after (hostOps1 (F := Ideal)) V (Proc.devRef .tc main_v54) (ix2 (0 : Fin 1) q) = V (Proc.devRef .tc main_arg3) (ix1 q) := by
  open Idealize.ShloMosaic.StableHlo in after_results
  exact shapeCast_a_1a_apply _ _ 0 q

theorem rv55_of (V : Valuation τ sig (Elt Ideal)) (q : Fin 32) :
    StableHlo.after (hostOps1 (F := Ideal)) V (Proc.devRef .tc main_v55) (ix2 (0 : Fin 1) q) = V (Proc.devRef .tc main_v36) (ix1 q) := by
  open Idealize.ShloMosaic.StableHlo in after_results
  exact shapeCast_a_1a_apply _ _ 0 q

theorem rv70_of (V : Valuation τ sig (Elt Ideal)) (q : Fin 32) :
    StableHlo.after (hostOps2 (F := Ideal)) V (Proc.devRef .tc main_v70) (ix2 (0 : Fin 1) q) = V (Proc.devRef .tc main_arg5) (ix1 q) := by
  open Idealize.ShloMosaic.StableHlo in after_results
  exact shapeCast_a_1a_apply _ _ 0 q

theorem rv71_of (V : Valuation τ sig (Elt Ideal)) (q : Fin 64) :
    StableHlo.after (hostOps2 (F := Ideal)) V (Proc.devRef .tc main_v71) (ix2 (0 : Fin 1) q) = V (Proc.devRef .tc main_v37) (ix1 q) := by
  open Idealize.ShloMosaic.StableHlo in after_results
  exact shapeCast_a_1a_apply _ _ 0 q

theorem rv86_of (V : Valuation τ sig (Elt Ideal)) (q : Fin 64) :
    StableHlo.after (hostOps3 (F := Ideal)) V (Proc.devRef .tc main_v86) (ix2 (0 : Fin 1) q) = V (Proc.devRef .tc main_arg7) (ix1 q) := by
  open Idealize.ShloMosaic.StableHlo in after_results
  exact shapeCast_a_1a_apply _ _ 0 q

theorem rv87_of (V : Valuation τ sig (Elt Ideal)) (q : Fin 32) :
    StableHlo.after (hostOps3 (F := Ideal)) V (Proc.devRef .tc main_v87) (ix2 (0 : Fin 1) q) = V (Proc.devRef .tc main_v36) (ix1 q) := by
  open Idealize.ShloMosaic.StableHlo in after_results
  exact shapeCast_a_1a_apply _ _ 0 q

theorem rv102_of (V : Valuation τ sig (Elt Ideal)) (q : Fin 32) :
    StableHlo.after (hostOps4 (F := Ideal)) V (Proc.devRef .tc main_v102) (ix2 (0 : Fin 1) q) = V (Proc.devRef .tc main_arg9) (ix1 q) := by
  open Idealize.ShloMosaic.StableHlo in after_results
  exact shapeCast_a_1a_apply _ _ 0 q

theorem rv103_of (V : Valuation τ sig (Elt Ideal)) (q : Fin 16) :
    StableHlo.after (hostOps4 (F := Ideal)) V (Proc.devRef .tc main_v103) (ix2 (0 : Fin 1) q) = V (Proc.devRef .tc main_v35) (ix1 q) := by
  open Idealize.ShloMosaic.StableHlo in after_results
  exact shapeCast_a_1a_apply _ _ 0 q

theorem rv118_of (V : Valuation τ sig (Elt Ideal)) (q : Fin 16) :
    StableHlo.after (hostOps5 (F := Ideal)) V (Proc.devRef .tc main_v118) (ix2 (0 : Fin 1) q) = V (Proc.devRef .tc main_arg11) (ix1 q) := by
  open Idealize.ShloMosaic.StableHlo in after_results
  exact shapeCast_a_1a_apply _ _ 0 q

theorem rv119_of (V : Valuation τ sig (Elt Ideal)) (q : Fin 16) :
    StableHlo.after (hostOps5 (F := Ideal)) V (Proc.devRef .tc main_v119) (ix2 (0 : Fin 1) q) = V (Proc.devRef .tc main_arg13) (ix1 q) := by
  open Idealize.ShloMosaic.StableHlo in after_results
  exact shapeCast_a_1a_apply _ _ 0 q

theorem rv121_of (V : Valuation τ sig (Elt Ideal)) (q : Fin 16) :
    StableHlo.after (hostOps6 (F := Ideal)) V (Proc.devRef .tc main_v121) (ix2 (0 : Fin 1) q) = V (Proc.devRef .tc main_v35) (ix1 q) := by
  open Idealize.ShloMosaic.StableHlo in after_results
  exact shapeCast_a_1a_apply _ _ 0 q

theorem rv122_of (V : Valuation τ sig (Elt Ideal)) (q : Fin 9) :
    StableHlo.after (hostOps6 (F := Ideal)) V (Proc.devRef .tc main_v122) (ix2 (0 : Fin 1) q) = V (Proc.devRef .tc main_arg15) (ix1 q) := by
  open Idealize.ShloMosaic.StableHlo in after_results
  exact shapeCast_a_1a_apply _ _ 0 q

end Cert.KernelIdeal.Host

end
-- ==== Proof.HostPre.lean ====
/-
  The host side of the kernel program, part 2: what the stretches before the first region write, against the reference
  program's per-operation values, over ANY buffer contents `V` at the stretch's entry.

  The reference program performs, operation for operation, the same array operations as the kernel program's host
  stretches (build the source and destination index vectors and the edge weights; then, per layer, gather the rows by
  source node, scale by the edge weight, add into the rows by destination node). So once the buffers a stretch reads
  hold the reference's values, the buffer it writes holds the reference's next value: the two terms are the same tree
  of operations over the same leaves, and differ only in which program's copy of a shape or of a dimension-number
  record they name.
-/
import proofs.«105346_j23545010717334_1_alg».proof.Proof.Gen.KernelIdeal.Launch
import proofs.«105346_j23545010717334_1_alg».proof.Proof.RefRead
import Idealize.ShloMosaic.Lib.StableHlo.Run
import Idealize.ShloMosaic.Lib.Pipeline.Frame
import Idealize.ShloMosaic.Lib.Pipeline.Value
import Idealize.ShloMosaic.Lib.ValueIdx

-- one declaration at a time: each holds its own copy of a long term while it is checked
set_option Elab.async false

noncomputable section

namespace Cert.KernelIdeal.Host

open Idealize.ShloMosaic Idealize.ShloMosaic.TcCoe Idealize.SL.Sem Idealize.ShloMosaic.ValueIdx
open Cert.KernelIdeal.Gen

/-! ## The prelude: source and destination index vectors and the edge weights

The three stretches before the first region build, from the edge list, the vector of source nodes (`main_v7`), the
vector of destination nodes (`main_v8`), both with a self loop appended per node, the inverse square root of every
node's degree (`main_v17`, guarded by `main_v14` where the degree is zero) and from these the weight of every edge
(`main_v33`). The reference performs the same operations on the same edge list.

The first stretch is read in two halves: the nine operations that build the two index vectors, then the fourteen that
count the degrees from the destination vector. -/

section Halves
variable {F : FTy → Type} [FloatOps F]
/-- The first nine operations of the first stretch: the two index vectors. -/
abbrev opsA : List (HloOp τ sig (Elt F)) :=
  [ StableHlo.unary main_arg1 main_v0 ((transpose S2x1620x2048 [1, 2, 0] · transposes_S2048x2x1620_S2x1620x2048_1_2_0) : (⟨S2048x2x1620, .i32⟩ : BufTy).Contents (Elt F) → (⟨S2x1620x2048, .i32⟩ : BufTy).Contents (Elt F)),
    StableHlo.reshape main_v0 main_v1 rfl shapeCasts_S2x1620x2048_S2x3317760,
    StableHlo.unary main_v1 main_v2 ((extractStridedSlice S1x3317760 ![0, 0] · slices_S2x3317760_S1x3317760_0_0) : (⟨S2x3317760, .i32⟩ : BufTy).Contents (Elt F) → (⟨S1x3317760, .i32⟩ : BufTy).Contents (Elt F)),
    StableHlo.reshape main_v2 main_v3 rfl shapeCasts_S1x3317760_S3317760,
    StableHlo.unary main_v1 main_v4 ((extractStridedSlice S1x3317760 ![1, 0] · slices_S2x3317760_S1x3317760_1_0) : (⟨S2x3317760, .i32⟩ : BufTy).Contents (Elt F) → (⟨S1x3317760, .i32⟩ : BufTy).Contents (Elt F)),
    StableHlo.reshape main_v4 main_v5 rfl shapeCasts_S1x3317760_S3317760,
    StableHlo.nullary main_v6 (iotaInDim S165888 32 0),
    StableHlo.binary main_v3 main_v6 main_v7 ((fun a b => concatenate S3483648 0 [⟨S3317760, a⟩, ⟨S165888, b⟩] concatenates_S3317760_S165888_S3483648_d0) : (⟨S3317760, .i32⟩ : BufTy).Contents (Elt F) → (⟨S165888, .i32⟩ : BufTy).Contents (Elt F) → (⟨S3483648, .i32⟩ : BufTy).Contents (Elt F)),
    StableHlo.binary main_v5 main_v6 main_v8 ((fun a b => concatenate S3483648 0 [⟨S3317760, a⟩, ⟨S165888, b⟩] concatenates_S3317760_S165888_S3483648_d0) : (⟨S3317760, .i32⟩ : BufTy).Contents (Elt F) → (⟨S165888, .i32⟩ : BufTy).Contents (Elt F) → (⟨S3483648, .i32⟩ : BufTy).Contents (Elt F)) ]
/-- Its other fourteen operations: the degrees and their inverse square roots. -/
abbrev opsB : List (HloOp τ sig (Elt F)) :=
  [ StableHlo.nullary main_cst (constant S_ .f32 0x3F800000#32),
    StableHlo.unary main_cst main_v9 (broadcastInDim S3483648 ![] bcast_S_S3483648 : (⟨S_, .f32⟩ : BufTy).Contents (Elt F) → (⟨S3483648, .f32⟩ : BufTy).Contents (Elt F)),
    StableHlo.nullary main_cst_0 (constant S_ .f32 0x00000000#32),
    StableHlo.unary main_cst_0 main_v10 (broadcastInDim S165888 ![] bcast_S_S165888 : (⟨S_, .f32⟩ : BufTy).Contents (Elt F) → (⟨S165888, .f32⟩ : BufTy).Contents (Elt F)),
    StableHlo.unary main_v8 main_v11 (broadcastInDim S3483648x1 ![0] bcast_S3483648_S3483648x1_0 : (⟨S3483648, .i32⟩ : BufTy).Contents (Elt F) → (⟨S3483648x1, .i32⟩ : BufTy).Contents (Elt F)),
    StableHlo.ternary main_v10 main_v11 main_v9 main_v12 ((fun x i u => Host.scatterAdd scatter_S165888_S3483648x1_S3483648_n_0_0_1 x i u) : (⟨S165888, .f32⟩ : BufTy).Contents (Elt F) → (⟨S3483648x1, .i32⟩ : BufTy).Contents (Elt F) → (⟨S3483648, .f32⟩ : BufTy).Contents (Elt F) → (⟨S165888, .f32⟩ : BufTy).Contents (Elt F)),
    StableHlo.nullary main_cst_1 (constant S_ .f32 0x00000000#32),
    StableHlo.unary main_cst_1 main_v13 (broadcastInDim S165888 ![] bcast_S_S165888 : (⟨S_, .f32⟩ : BufTy).Contents (Elt F) → (⟨S165888, .f32⟩ : BufTy).Contents (Elt F)),
    StableHlo.binary main_v12 main_v13 main_v14 (cmpf .ogt : (⟨S165888, .f32⟩ : BufTy).Contents (Elt F) → (⟨S165888, .f32⟩ : BufTy).Contents (Elt F) → (⟨S165888, .i1⟩ : BufTy).Contents (Elt F)),
    StableHlo.nullary main_cst_2 (constant S_ .f32 0x2B8CBCCC#32),
    StableHlo.unary main_cst_2 main_v15 (broadcastInDim S165888 ![] bcast_S_S165888 : (⟨S_, .f32⟩ : BufTy).Contents (Elt F) → (⟨S165888, .f32⟩ : BufTy).Contents (Elt F)),
    StableHlo.binary main_v12 main_v15 main_v16 (maximumf : (⟨S165888, .f32⟩ : BufTy).Contents (Elt F) → (⟨S165888, .f32⟩ : BufTy).Contents (Elt F) → (⟨S165888, .f32⟩ : BufTy).Contents (Elt F)),
    StableHlo.unary main_v16 main_v17 (Host.rsqrt : (⟨S165888, .f32⟩ : BufTy).Contents (Elt F) → (⟨S165888, .f32⟩ : BufTy).Contents (Elt F)),
    StableHlo.nullary main_cst_3 (constant S_ .f32 0x00000000#32) ]
theorem hostOps0_split : hostOps0 (F := F) = opsA ++ opsB := rfl
end Halves

/-- The buffers the second half writes. -/
def wrB : List (Ref sig .tc) := [main_cst, main_v9, main_cst_0, main_v10, main_v11, main_v12, main_cst_1, main_v13, main_v14, main_cst_2, main_v15, main_v16, main_v17, main_cst_3]
theorem wrB_sub : (opsB (F := Ideal)).Forall fun op => op.writes ⊆ ((wrB.map (Proc.devRef (τ := τ) .tc)).toFinset) := by
  simp only [opsB, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wrB_keep (V : Valuation τ sig (Elt Ideal)) (r : Ref sig .tc) (hr : r ∉ wrB) :
    StableHlo.after (opsB (F := Ideal)) V (Proc.devRef .tc r) = V (Proc.devRef .tc r) :=
  StableHlo.after_of_writes_sub _ V wrB_sub hr

set_option maxHeartbeats 1000000 in
theorem pA_v7 (V : Valuation τ sig (Elt Ideal)) (x1 : (⟨Cert.ReferenceIdeal.S2048x2x1620, .i32⟩ : BufTy).Contents (Elt Ideal))
    (h1 : V (Proc.devRef .tc main_arg1) = x1)
    : StableHlo.after (opsA (F := Ideal)) V (Proc.devRef .tc main_v7) = Cert.ReferenceIdeal.Read.val_main_v7 (F := Ideal) x1 := by
  open Idealize.ShloMosaic.StableHlo in after_results
  rw [h1]
  unfold Cert.ReferenceIdeal.Read.val_main_v7 Cert.ReferenceIdeal.Read.val_main_v3 Cert.ReferenceIdeal.Read.val_main_v2 Cert.ReferenceIdeal.Read.val_main_v1 Cert.ReferenceIdeal.Read.val_main_v0 Cert.ReferenceIdeal.Read.val_main_v6
  rfl

set_option maxHeartbeats 1000000 in
theorem pA_v8 (V : Valuation τ sig (Elt Ideal)) (x1 : (⟨Cert.ReferenceIdeal.S2048x2x1620, .i32⟩ : BufTy).Contents (Elt Ideal))
    (h1 : V (Proc.devRef .tc main_arg1) = x1)
    : StableHlo.after (opsA (F := Ideal)) V (Proc.devRef .tc main_v8) = Cert.ReferenceIdeal.Read.val_main_v8 (F := Ideal) x1 := by
  open Idealize.ShloMosaic.StableHlo in after_results
  rw [h1]
  unfold Cert.ReferenceIdeal.Read.val_main_v8 Cert.ReferenceIdeal.Read.val_main_v5 Cert.ReferenceIdeal.Read.val_main_v4 Cert.ReferenceIdeal.Read.val_main_v1 Cert.ReferenceIdeal.Read.val_main_v0 Cert.ReferenceIdeal.Read.val_main_v6
  rfl

set_option maxHeartbeats 1000000 in
theorem pB_v14 (V : Valuation τ sig (Elt Ideal)) (x1 : (⟨Cert.ReferenceIdeal.S2048x2x1620, .i32⟩ : BufTy).Contents (Elt Ideal))
    (h8 : V (Proc.devRef .tc main_v8) = Cert.ReferenceIdeal.Read.val_main_v8 (F := Ideal) x1)
    : StableHlo.after (opsB (F := Ideal)) V (Proc.devRef .tc main_v14) = Cert.ReferenceIdeal.Read.val_main_v14 (F := Ideal) x1 := by
  open Idealize.ShloMosaic.StableHlo in after_results_simp
  rw [h8]
  unfold Cert.ReferenceIdeal.Read.val_main_v14 Cert.ReferenceIdeal.Read.val_main_v13 Cert.ReferenceIdeal.Read.val_main_cst_1 Cert.ReferenceIdeal.Read.val_main_v12 Cert.ReferenceIdeal.Read.val_main_v11 Cert.ReferenceIdeal.Read.val_main_v10 Cert.ReferenceIdeal.Read.val_main_cst_0 Cert.ReferenceIdeal.Read.val_main_v9 Cert.ReferenceIdeal.Read.val_main_cst
  generalize Cert.ReferenceIdeal.Read.val_main_v8 (F := Ideal) x1 = a0
  rfl

set_option maxHeartbeats 1000000 in
theorem pB_v17 (V : Valuation τ sig (Elt Ideal)) (x1 : (⟨Cert.ReferenceIdeal.S2048x2x1620, .i32⟩ : BufTy).Contents (Elt Ideal))
    (h8 : V (Proc.devRef .tc main_v8) = Cert.ReferenceIdeal.Read.val_main_v8 (F := Ideal) x1)
    : StableHlo.after (opsB (F := Ideal)) V (Proc.devRef .tc main_v17) = Cert.ReferenceIdeal.Read.val_main_v17 (F := Ideal) x1 := by
  open Idealize.ShloMosaic.StableHlo in after_results_simp
  rw [h8]
  unfold Cert.ReferenceIdeal.Read.val_main_v17 Cert.ReferenceIdeal.Read.val_main_v16 Cert.ReferenceIdeal.Read.val_main_v15 Cert.ReferenceIdeal.Read.val_main_cst_2 Cert.ReferenceIdeal.Read.val_main_v12 Cert.ReferenceIdeal.Read.val_main_v11 Cert.ReferenceIdeal.Read.val_main_v10 Cert.ReferenceIdeal.Read.val_main_cst_0 Cert.ReferenceIdeal.Read.val_main_v9 Cert.ReferenceIdeal.Read.val_main_cst
  generalize Cert.ReferenceIdeal.Read.val_main_v8 (F := Ideal) x1 = a0
  rfl

theorem pB_cst3 (V : Valuation τ sig (Elt Ideal)) :
    StableHlo.after (opsB (F := Ideal)) V (Proc.devRef .tc main_cst_3) = Cert.ReferenceIdeal.Read.val_main_cst_3 (F := Ideal) := by
  open Idealize.ShloMosaic.StableHlo in after_results_simp
  rfl

/-! The first stretch whole. -/

theorem p0_v7 (V : Valuation τ sig (Elt Ideal)) (x1 : (⟨Cert.ReferenceIdeal.S2048x2x1620, .i32⟩ : BufTy).Contents (Elt Ideal)) (h1 : V (Proc.devRef .tc main_arg1) = x1) :
    StableHlo.after (hostOps0 (F := Ideal)) V (Proc.devRef .tc main_v7) = Cert.ReferenceIdeal.Read.val_main_v7 (F := Ideal) x1 := by
  rw [hostOps0_split, StableHlo.after_append]
  exact (wrB_keep _ main_v7 (by decide)).trans (pA_v7 V x1 h1)
theorem p0_v8 (V : Valuation τ sig (Elt Ideal)) (x1 : (⟨Cert.ReferenceIdeal.S2048x2x1620, .i32⟩ : BufTy).Contents (Elt Ideal)) (h1 : V (Proc.devRef .tc main_arg1) = x1) :
    StableHlo.after (hostOps0 (F := Ideal)) V (Proc.devRef .tc main_v8) = Cert.ReferenceIdeal.Read.val_main_v8 (F := Ideal) x1 := by
  rw [hostOps0_split, StableHlo.after_append]
  exact (wrB_keep _ main_v8 (by decide)).trans (pA_v8 V x1 h1)
theorem p0_v14 (V : Valuation τ sig (Elt Ideal)) (x1 : (⟨Cert.ReferenceIdeal.S2048x2x1620, .i32⟩ : BufTy).Contents (Elt Ideal)) (h1 : V (Proc.devRef .tc main_arg1) = x1) :
    StableHlo.after (hostOps0 (F := Ideal)) V (Proc.devRef .tc main_v14) = Cert.ReferenceIdeal.Read.val_main_v14 (F := Ideal) x1 := by
  rw [hostOps0_split, StableHlo.after_append]
  exact pB_v14 _ x1 (pA_v8 V x1 h1)
theorem p0_v17 (V : Valuation τ sig (Elt Ideal)) (x1 : (⟨Cert.ReferenceIdeal.S2048x2x1620, .i32⟩ : BufTy).Contents (Elt Ideal)) (h1 : V (Proc.devRef .tc main_arg1) = x1) :
    StableHlo.after (hostOps0 (F := Ideal)) V (Proc.devRef .tc main_v17) = Cert.ReferenceIdeal.Read.val_main_v17 (F := Ideal) x1 := by
  rw [hostOps0_split, StableHlo.after_append]
  exact pB_v17 _ x1 (pA_v8 V x1 h1)
theorem p0_cst3 (V : Valuation τ sig (Elt Ideal)) :
    StableHlo.after (hostOps0 (F := Ideal)) V (Proc.devRef .tc main_cst_3) = Cert.ReferenceIdeal.Read.val_main_cst_3 (F := Ideal) := by
  rw [hostOps0_split, StableHlo.after_append]
  exact pB_cst3 _

/-! The second stretch is the call of the outlined `where`: the same three operations with the buffers named directly. -/

/-- The second stretch with each operation at its buffers. -/
abbrev opsW : List (HloOp τ sig (Elt Ideal)) :=
  [ StableHlo.unary main_cst_3 main_call0_v0 (id : (⟨S_, .f32⟩ : BufTy).Contents (Elt Ideal) → (⟨S_, .f32⟩ : BufTy).Contents (Elt Ideal)),
    StableHlo.unary main_call0_v0 main_call0_v1 (broadcastInDim S165888 ![] bcast_S_S165888 : (⟨S_, .f32⟩ : BufTy).Contents (Elt Ideal) → (⟨S165888, .f32⟩ : BufTy).Contents (Elt Ideal)),
    StableHlo.ternary main_v14 main_v17 main_call0_v1 main_v18 (select : (⟨S165888, .i1⟩ : BufTy).Contents (Elt Ideal) → (⟨S165888, .f32⟩ : BufTy).Contents (Elt Ideal) → (⟨S165888, .f32⟩ : BufTy).Contents (Elt Ideal) → (⟨S165888, .f32⟩ : BufTy).Contents (Elt Ideal)) ]
theorem hostOps0_1_eq : hostOps0_1 (F := Ideal) = opsW := rfl

set_option maxHeartbeats 1000000 in
theorem p1_v18 (V : Valuation τ sig (Elt Ideal)) (x1 : (⟨Cert.ReferenceIdeal.S2048x2x1620, .i32⟩ : BufTy).Contents (Elt Ideal))
    (h14 : V (Proc.devRef .tc main_v14) = Cert.ReferenceIdeal.Read.val_main_v14 (F := Ideal) x1)
    (h17 : V (Proc.devRef .tc main_v17) = Cert.ReferenceIdeal.Read.val_main_v17 (F := Ideal) x1)
    (hc3 : V (Proc.devRef .tc main_cst_3) = Cert.ReferenceIdeal.Read.val_main_cst_3 (F := Ideal))
    : StableHlo.after (hostOps0_1 (F := Ideal)) V (Proc.devRef .tc main_v18) = Cert.ReferenceIdeal.Read.val_main_v18 (F := Ideal) x1 := by
  rw [hostOps0_1_eq]
  open Idealize.ShloMosaic.StableHlo in after_results_simp
  rw [h14, h17, hc3]
  unfold Cert.ReferenceIdeal.Read.val_main_v18 Cert.ReferenceIdeal.Read.val_main_call0_v1 Cert.ReferenceIdeal.Read.val_main_call0_v0
  generalize Cert.ReferenceIdeal.Read.val_main_v14 (F := Ideal) x1 = a0
  generalize Cert.ReferenceIdeal.Read.val_main_v17 (F := Ideal) x1 = a1
  generalize Cert.ReferenceIdeal.Read.val_main_cst_3 (F := Ideal) = a2
  rfl

/-! The third stretch: the edge weights. -/

set_option maxHeartbeats 1000000 in
theorem p2_v33 (V : Valuation τ sig (Elt Ideal)) (x1 : (⟨Cert.ReferenceIdeal.S2048x2x1620, .i32⟩ : BufTy).Contents (Elt Ideal))
    (h7 : V (Proc.devRef .tc main_v7) = Cert.ReferenceIdeal.Read.val_main_v7 (F := Ideal) x1)
    (h8 : V (Proc.devRef .tc main_v8) = Cert.ReferenceIdeal.Read.val_main_v8 (F := Ideal) x1)
    (h18 : V (Proc.devRef .tc main_v18) = Cert.ReferenceIdeal.Read.val_main_v18 (F := Ideal) x1)
    : StableHlo.after (hostOps0_2 (F := Ideal)) V (Proc.devRef .tc main_v33) = Cert.ReferenceIdeal.Read.val_main_v33 (F := Ideal) x1 := by
  open Idealize.ShloMosaic.StableHlo in after_results_simp
  rw [h7, h8, h18]
  unfold Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_c_6 Cert.ReferenceIdeal.Read.val_main_v27 Cert.ReferenceIdeal.Read.val_main_v26 Cert.ReferenceIdeal.Read.val_main_c_5 Cert.ReferenceIdeal.Read.val_main_v25 Cert.ReferenceIdeal.Read.val_main_v24 Cert.ReferenceIdeal.Read.val_main_v23 Cert.ReferenceIdeal.Read.val_main_v22 Cert.ReferenceIdeal.Read.val_main_v21 Cert.ReferenceIdeal.Read.val_main_c_4 Cert.ReferenceIdeal.Read.val_main_v20 Cert.ReferenceIdeal.Read.val_main_v19 Cert.ReferenceIdeal.Read.val_main_c
  generalize Cert.ReferenceIdeal.Read.val_main_v7 (F := Ideal) x1 = a0
  generalize Cert.ReferenceIdeal.Read.val_main_v8 (F := Ideal) x1 = a1
  generalize Cert.ReferenceIdeal.Read.val_main_v18 (F := Ideal) x1 = a2
  rfl

end Cert.KernelIdeal.Host

end
-- ==== Proof.HostAgg.lean ====
/-
  The host side of the kernel program, part 3: what each stretch between the regions writes, against the reference
  program's per-operation values, over ANY buffer contents `V` at the stretch's entry.

  The reference program performs, operation for operation, the same array operations as the kernel program's host
  stretches (build the source and destination index vectors and the edge weights; then, per layer, gather the rows by
  source node, scale by the edge weight, add into the rows by destination node). So once the buffers a stretch reads
  hold the reference's values, the buffer it writes holds the reference's next value: the two terms are the same tree
  of operations over the same leaves, and differ only in which program's copy of a shape or of a dimension-number
  record they name.
-/
import proofs.«105346_j23545010717334_1_alg».proof.Proof.Gen.KernelIdeal.Launch
import proofs.«105346_j23545010717334_1_alg».proof.Proof.RefRead
import Idealize.ShloMosaic.Lib.StableHlo.Run
import Idealize.ShloMosaic.Lib.Pipeline.Value
import Idealize.ShloMosaic.Lib.ValueIdx

-- one declaration at a time: each holds its own copy of a long term while it is checked
set_option Elab.async false

noncomputable section

namespace Cert.KernelIdeal.Host

open Idealize.ShloMosaic Idealize.ShloMosaic.TcCoe Idealize.SL.Sem Idealize.ShloMosaic.ValueIdx
open Cert.KernelIdeal.Gen

/-! ## The stretches between the regions

Stretch K gathers, for every edge, the row of the previous region's output at the edge's source node, scales it by the
edge's weight and adds it into the row of the edge's destination node, starting from zero rows: the neighbourhood
aggregate the next region multiplies by its weight matrix. It also reshapes the next region's two row operands. -/

set_option maxHeartbeats 1000000 in
theorem agg1_of (V : Valuation τ sig (Elt Ideal)) (x0 : (⟨Cert.ReferenceIdeal.S165888x10, .f32⟩ : BufTy).Contents (Elt Ideal)) (x1 : (⟨Cert.ReferenceIdeal.S2048x2x1620, .i32⟩ : BufTy).Contents (Elt Ideal)) (x2 : (⟨Cert.ReferenceIdeal.S10x16, .f32⟩ : BufTy).Contents (Elt Ideal))
    (h7 : V (Proc.devRef .tc main_v7) = Cert.ReferenceIdeal.Read.val_main_v7 (F := Ideal) x1)
    (h8 : V (Proc.devRef .tc main_v8) = Cert.ReferenceIdeal.Read.val_main_v8 (F := Ideal) x1)
    (h33 : V (Proc.devRef .tc main_v33) = Cert.ReferenceIdeal.Read.val_main_v33 (F := Ideal) x1)
    (hin : V (Proc.devRef .tc main_v40) = Cert.ReferenceIdeal.Read.val_main_v34 (F := Ideal) x0 x2)
    : StableHlo.after (hostOps1 (F := Ideal)) V (Proc.devRef .tc main_v53) = Cert.ReferenceIdeal.Read.val_main_v47 (F := Ideal) x0 x1 x2 := by
  open Idealize.ShloMosaic.StableHlo in after_results_simp
  rw [h7, h8, h33, hin]
  unfold Cert.ReferenceIdeal.Read.val_main_v47 Cert.ReferenceIdeal.Read.val_main_v46 Cert.ReferenceIdeal.Read.val_main_v45 Cert.ReferenceIdeal.Read.val_main_cst_9 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_c_8 Cert.ReferenceIdeal.Read.val_main_v36 Cert.ReferenceIdeal.Read.val_main_v35 Cert.ReferenceIdeal.Read.val_main_c_7
  generalize Cert.ReferenceIdeal.Read.val_main_v7 (F := Ideal) x1 = a0
  generalize Cert.ReferenceIdeal.Read.val_main_v8 (F := Ideal) x1 = a1
  generalize Cert.ReferenceIdeal.Read.val_main_v33 (F := Ideal) x1 = a2
  generalize Cert.ReferenceIdeal.Read.val_main_v34 (F := Ideal) x0 x2 = a3
  rfl

set_option maxHeartbeats 1000000 in
theorem agg2_of (V : Valuation τ sig (Elt Ideal)) (x0 : (⟨Cert.ReferenceIdeal.S165888x10, .f32⟩ : BufTy).Contents (Elt Ideal)) (x1 : (⟨Cert.ReferenceIdeal.S2048x2x1620, .i32⟩ : BufTy).Contents (Elt Ideal)) (x2 : (⟨Cert.ReferenceIdeal.S10x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal))
    (h7 : V (Proc.devRef .tc main_v7) = Cert.ReferenceIdeal.Read.val_main_v7 (F := Ideal) x1)
    (h8 : V (Proc.devRef .tc main_v8) = Cert.ReferenceIdeal.Read.val_main_v8 (F := Ideal) x1)
    (h33 : V (Proc.devRef .tc main_v33) = Cert.ReferenceIdeal.Read.val_main_v33 (F := Ideal) x1)
    (hin : V (Proc.devRef .tc main_v56) = Cert.ReferenceIdeal.Read.val_main_v52 (F := Ideal) x0 x1 x2 x3 x4)
    : StableHlo.after (hostOps2 (F := Ideal)) V (Proc.devRef .tc main_v69) = Cert.ReferenceIdeal.Read.val_main_v65 (F := Ideal) x0 x1 x2 x3 x4 := by
  open Idealize.ShloMosaic.StableHlo in after_results_simp
  rw [h7, h8, h33, hin]
  unfold Cert.ReferenceIdeal.Read.val_main_v65 Cert.ReferenceIdeal.Read.val_main_v64 Cert.ReferenceIdeal.Read.val_main_v63 Cert.ReferenceIdeal.Read.val_main_cst_12 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_c_11 Cert.ReferenceIdeal.Read.val_main_v54 Cert.ReferenceIdeal.Read.val_main_v53 Cert.ReferenceIdeal.Read.val_main_c_10
  generalize Cert.ReferenceIdeal.Read.val_main_v7 (F := Ideal) x1 = a0
  generalize Cert.ReferenceIdeal.Read.val_main_v8 (F := Ideal) x1 = a1
  generalize Cert.ReferenceIdeal.Read.val_main_v33 (F := Ideal) x1 = a2
  generalize Cert.ReferenceIdeal.Read.val_main_v52 (F := Ideal) x0 x1 x2 x3 x4 = a3
  rfl

set_option maxHeartbeats 1000000 in
theorem agg3_of (V : Valuation τ sig (Elt Ideal)) (x0 : (⟨Cert.ReferenceIdeal.S165888x10, .f32⟩ : BufTy).Contents (Elt Ideal)) (x1 : (⟨Cert.ReferenceIdeal.S2048x2x1620, .i32⟩ : BufTy).Contents (Elt Ideal)) (x2 : (⟨Cert.ReferenceIdeal.S10x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal))
    (h7 : V (Proc.devRef .tc main_v7) = Cert.ReferenceIdeal.Read.val_main_v7 (F := Ideal) x1)
    (h8 : V (Proc.devRef .tc main_v8) = Cert.ReferenceIdeal.Read.val_main_v8 (F := Ideal) x1)
    (h33 : V (Proc.devRef .tc main_v33) = Cert.ReferenceIdeal.Read.val_main_v33 (F := Ideal) x1)
    (hin : V (Proc.devRef .tc main_v72) = Cert.ReferenceIdeal.Read.val_main_v70 (F := Ideal) x0 x1 x2 x3 x4 x5 x6)
    : StableHlo.after (hostOps3 (F := Ideal)) V (Proc.devRef .tc main_v85) = Cert.ReferenceIdeal.Read.val_main_v83 (F := Ideal) x0 x1 x2 x3 x4 x5 x6 := by
  open Idealize.ShloMosaic.StableHlo in after_results_simp
  rw [h7, h8, h33, hin]
  unfold Cert.ReferenceIdeal.Read.val_main_v83 Cert.ReferenceIdeal.Read.val_main_v82 Cert.ReferenceIdeal.Read.val_main_v81 Cert.ReferenceIdeal.Read.val_main_cst_15 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_c_14 Cert.ReferenceIdeal.Read.val_main_v72 Cert.ReferenceIdeal.Read.val_main_v71 Cert.ReferenceIdeal.Read.val_main_c_13
  generalize Cert.ReferenceIdeal.Read.val_main_v7 (F := Ideal) x1 = a0
  generalize Cert.ReferenceIdeal.Read.val_main_v8 (F := Ideal) x1 = a1
  generalize Cert.ReferenceIdeal.Read.val_main_v33 (F := Ideal) x1 = a2
  generalize Cert.ReferenceIdeal.Read.val_main_v70 (F := Ideal) x0 x1 x2 x3 x4 x5 x6 = a3
  rfl

set_option maxHeartbeats 1000000 in
theorem agg4_of (V : Valuation τ sig (Elt Ideal)) (x0 : (⟨Cert.ReferenceIdeal.S165888x10, .f32⟩ : BufTy).Contents (Elt Ideal)) (x1 : (⟨Cert.ReferenceIdeal.S2048x2x1620, .i32⟩ : BufTy).Contents (Elt Ideal)) (x2 : (⟨Cert.ReferenceIdeal.S10x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal))
    (h7 : V (Proc.devRef .tc main_v7) = Cert.ReferenceIdeal.Read.val_main_v7 (F := Ideal) x1)
    (h8 : V (Proc.devRef .tc main_v8) = Cert.ReferenceIdeal.Read.val_main_v8 (F := Ideal) x1)
    (h33 : V (Proc.devRef .tc main_v33) = Cert.ReferenceIdeal.Read.val_main_v33 (F := Ideal) x1)
    (hin : V (Proc.devRef .tc main_v88) = Cert.ReferenceIdeal.Read.val_main_v88 (F := Ideal) x0 x1 x2 x3 x4 x5 x6 x7 x8)
    : StableHlo.after (hostOps4 (F := Ideal)) V (Proc.devRef .tc main_v101) = Cert.ReferenceIdeal.Read.val_main_v101 (F := Ideal) x0 x1 x2 x3 x4 x5 x6 x7 x8 := by
  open Idealize.ShloMosaic.StableHlo in after_results_simp
  rw [h7, h8, h33, hin]
  unfold Cert.ReferenceIdeal.Read.val_main_v101 Cert.ReferenceIdeal.Read.val_main_v100 Cert.ReferenceIdeal.Read.val_main_v99 Cert.ReferenceIdeal.Read.val_main_cst_18 Cert.ReferenceIdeal.Read.val_main_v98 Cert.ReferenceIdeal.Read.val_main_v97 Cert.ReferenceIdeal.Read.val_main_v96 Cert.ReferenceIdeal.Read.val_main_v95 Cert.ReferenceIdeal.Read.val_main_v94 Cert.ReferenceIdeal.Read.val_main_v93 Cert.ReferenceIdeal.Read.val_main_v92 Cert.ReferenceIdeal.Read.val_main_v91 Cert.ReferenceIdeal.Read.val_main_c_17 Cert.ReferenceIdeal.Read.val_main_v90 Cert.ReferenceIdeal.Read.val_main_v89 Cert.ReferenceIdeal.Read.val_main_c_16
  generalize Cert.ReferenceIdeal.Read.val_main_v7 (F := Ideal) x1 = a0
  generalize Cert.ReferenceIdeal.Read.val_main_v8 (F := Ideal) x1 = a1
  generalize Cert.ReferenceIdeal.Read.val_main_v33 (F := Ideal) x1 = a2
  generalize Cert.ReferenceIdeal.Read.val_main_v88 (F := Ideal) x0 x1 x2 x3 x4 x5 x6 x7 x8 = a3
  rfl

set_option maxHeartbeats 1000000 in
theorem agg5_of (V : Valuation τ sig (Elt Ideal)) (x0 : (⟨Cert.ReferenceIdeal.S165888x10, .f32⟩ : BufTy).Contents (Elt Ideal)) (x1 : (⟨Cert.ReferenceIdeal.S2048x2x1620, .i32⟩ : BufTy).Contents (Elt Ideal)) (x2 : (⟨Cert.ReferenceIdeal.S10x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal)) (x9 : (⟨Cert.ReferenceIdeal.S32, .f32⟩ : BufTy).Contents (Elt Ideal)) (x10 : (⟨Cert.ReferenceIdeal.S32x16, .f32⟩ : BufTy).Contents (Elt Ideal))
    (h7 : V (Proc.devRef .tc main_v7) = Cert.ReferenceIdeal.Read.val_main_v7 (F := Ideal) x1)
    (h8 : V (Proc.devRef .tc main_v8) = Cert.ReferenceIdeal.Read.val_main_v8 (F := Ideal) x1)
    (h33 : V (Proc.devRef .tc main_v33) = Cert.ReferenceIdeal.Read.val_main_v33 (F := Ideal) x1)
    (hin : V (Proc.devRef .tc main_v104) = Cert.ReferenceIdeal.Read.val_main_v106 (F := Ideal) x0 x1 x2 x3 x4 x5 x6 x7 x8 x9 x10)
    : StableHlo.after (hostOps5 (F := Ideal)) V (Proc.devRef .tc main_v117) = Cert.ReferenceIdeal.Read.val_main_v119 (F := Ideal) x0 x1 x2 x3 x4 x5 x6 x7 x8 x9 x10 := by
  open Idealize.ShloMosaic.StableHlo in after_results_simp
  rw [h7, h8, h33, hin]
  unfold Cert.ReferenceIdeal.Read.val_main_v119 Cert.ReferenceIdeal.Read.val_main_v118 Cert.ReferenceIdeal.Read.val_main_v117 Cert.ReferenceIdeal.Read.val_main_cst_21 Cert.ReferenceIdeal.Read.val_main_v116 Cert.ReferenceIdeal.Read.val_main_v115 Cert.ReferenceIdeal.Read.val_main_v114 Cert.ReferenceIdeal.Read.val_main_v113 Cert.ReferenceIdeal.Read.val_main_v112 Cert.ReferenceIdeal.Read.val_main_v111 Cert.ReferenceIdeal.Read.val_main_v110 Cert.ReferenceIdeal.Read.val_main_v109 Cert.ReferenceIdeal.Read.val_main_c_20 Cert.ReferenceIdeal.Read.val_main_v108 Cert.ReferenceIdeal.Read.val_main_v107 Cert.ReferenceIdeal.Read.val_main_c_19
  generalize Cert.ReferenceIdeal.Read.val_main_v7 (F := Ideal) x1 = a0
  generalize Cert.ReferenceIdeal.Read.val_main_v8 (F := Ideal) x1 = a1
  generalize Cert.ReferenceIdeal.Read.val_main_v33 (F := Ideal) x1 = a2
  generalize Cert.ReferenceIdeal.Read.val_main_v106 (F := Ideal) x0 x1 x2 x3 x4 x5 x6 x7 x8 x9 x10 = a3
  rfl

/-! ## The tail: the last region's output reshaped to the result -/

set_option maxHeartbeats 1000000 in
theorem tail_of (V : Valuation τ sig (Elt Ideal)) (x0 : (⟨Cert.ReferenceIdeal.S165888x10, .f32⟩ : BufTy).Contents (Elt Ideal)) (x1 : (⟨Cert.ReferenceIdeal.S2048x2x1620, .i32⟩ : BufTy).Contents (Elt Ideal)) (x2 : (⟨Cert.ReferenceIdeal.S10x16, .f32⟩ : BufTy).Contents (Elt Ideal)) (x3 : (⟨Cert.ReferenceIdeal.S16, .f32⟩ : BufTy).Contents (Elt Ideal)) (x4 : (⟨Cert.ReferenceIdeal.S16x32, .f32⟩ : BufTy).Contents (Elt Ideal)) (x5 : (⟨Cert.ReferenceIdeal.S32, .f32⟩ : BufTy).Contents (Elt Ideal)) (x6 : (⟨Cert.ReferenceIdeal.S32x64, .f32⟩ : BufTy).Contents (Elt Ideal)) (x7 : (⟨Cert.ReferenceIdeal.S64, .f32⟩ : BufTy).Contents (Elt Ideal)) (x8 : (⟨Cert.ReferenceIdeal.S64x32, .f32⟩ : BufTy).Contents (Elt Ideal)) (x9 : (⟨Cert.ReferenceIdeal.S32, .f32⟩ : BufTy).Contents (Elt Ideal)) (x10 : (⟨Cert.ReferenceIdeal.S32x16, .f32⟩ : BufTy).Contents (Elt Ideal)) (x11 : (⟨Cert.ReferenceIdeal.S16, .f32⟩ : BufTy).Contents (Elt Ideal)) (x12 : (⟨Cert.ReferenceIdeal.S16x16, .f32⟩ : BufTy).Contents (Elt Ideal)) (x13 : (⟨Cert.ReferenceIdeal.S16, .f32⟩ : BufTy).Contents (Elt Ideal)) (x14 : (⟨Cert.ReferenceIdeal.S16x9, .f32⟩ : BufTy).Contents (Elt Ideal)) (x15 : (⟨Cert.ReferenceIdeal.S9, .f32⟩ : BufTy).Contents (Elt Ideal))
    (h : V (Proc.devRef .tc main_v123) = Cert.ReferenceIdeal.Read.val_main_v132 (F := Ideal) x0 x1 x2 x3 x4 x5 x6 x7 x8 x9 x10 x11 x12 x13 x14 x15) :
    StableHlo.after (hostOps7 (F := Ideal)) V (Proc.devRef .tc main_v124) = Cert.ReferenceIdeal.Read.val_main_v133 (F := Ideal) x0 x1 x2 x3 x4 x5 x6 x7 x8 x9 x10 x11 x12 x13 x14 x15 := by
  open Idealize.ShloMosaic.StableHlo in after_results_simp
  rw [h]
  unfold Cert.ReferenceIdeal.Read.val_main_v133
  generalize Cert.ReferenceIdeal.Read.val_main_v132 (F := Ideal) x0 x1 x2 x3 x4 x5 x6 x7 x8 x9 x10 x11 x12 x13 x14 x15 = a0
  rfl

end Cert.KernelIdeal.Host

end
-- ==== Proof.Host.lean ====
/-
  The host side of the kernel program: what each stretch of host operations leaves in the buffers the regions and the
  later stretches read, against the reference program's per-operation values.

  `Gen.Wk m ρ c` is what core `c`'s buffers hold at the k-th segment boundary of the run from the launch memory `m`
  (odd k from 3: a region's entry; even k from 4: a region's exit). A buffer keeps its contents through a stretch that
  does not write it and through a region none of whose windows is on it; so the index vectors and edge weights built
  before the first region, the zero vectors, and the arguments are found unchanged wherever they are read later.
-/
import proofs.«105346_j23545010717334_1_alg».proof.Proof.Gen.KernelIdeal.Frame
import proofs.«105346_j23545010717334_1_alg».proof.Proof.HostKeep
import proofs.«105346_j23545010717334_1_alg».proof.Proof.HostPre
import proofs.«105346_j23545010717334_1_alg».proof.Proof.HostAgg

noncomputable section

namespace Cert.KernelIdeal.Host

open Idealize.ShloMosaic Idealize.ShloMosaic.TcCoe Idealize.SL.Sem Idealize.ShloMosaic.ValueIdx
open Cert.KernelIdeal.Gen

variable (m : (ℓ : Loc nD τ sig) → Buf (Elt Ideal) ℓ) (ρ : Dev nD → PrngReg) (c : Dev nD)

/-! ## One step back through the run -/

theorem s1 (b : Ref sig .tc) (hb : b ∉ wr0) : Gen.W1 (F := Ideal) m ρ c (Proc.devRef .tc b) = Gen.W0 (F := Ideal) m ρ c (Proc.devRef .tc b) :=
  wr0_keep _ b hb
theorem s2 (b : Ref sig .tc) (hb : b ∉ wr0_1) : Gen.W2 (F := Ideal) m ρ c (Proc.devRef .tc b) = Gen.W1 (F := Ideal) m ρ c (Proc.devRef .tc b) :=
  wr0_1_keep _ b hb
theorem s3 (b : Ref sig .tc) (hb : b ∉ wr0_2) : Gen.W3 (F := Ideal) m ρ c (Proc.devRef .tc b) = Gen.W2 (F := Ideal) m ρ c (Proc.devRef .tc b) :=
  wr0_2_keep _ b hb
theorem s4 (b : Ref sig .tc) (hb : ∀ w, Pipeline.arrRef spec0 w ≠ b) : Gen.W4 (F := Ideal) m ρ c (Proc.devRef .tc b) = Gen.W3 (F := Ideal) m ρ c (Proc.devRef .tc b) :=
  Gen.W4_of_ne m ρ c b hb
theorem s5 (b : Ref sig .tc) (hb : b ∉ wr1) : Gen.W5 (F := Ideal) m ρ c (Proc.devRef .tc b) = Gen.W4 (F := Ideal) m ρ c (Proc.devRef .tc b) :=
  wr1_keep _ b hb
theorem s6 (b : Ref sig .tc) (hb : ∀ w, Pipeline.arrRef spec1 w ≠ b) : Gen.W6 (F := Ideal) m ρ c (Proc.devRef .tc b) = Gen.W5 (F := Ideal) m ρ c (Proc.devRef .tc b) :=
  Gen.W6_of_ne m ρ c b hb
theorem s7 (b : Ref sig .tc) (hb : b ∉ wr2) : Gen.W7 (F := Ideal) m ρ c (Proc.devRef .tc b) = Gen.W6 (F := Ideal) m ρ c (Proc.devRef .tc b) :=
  wr2_keep _ b hb
theorem s8 (b : Ref sig .tc) (hb : ∀ w, Pipeline.arrRef spec2 w ≠ b) : Gen.W8 (F := Ideal) m ρ c (Proc.devRef .tc b) = Gen.W7 (F := Ideal) m ρ c (Proc.devRef .tc b) :=
  Gen.W8_of_ne m ρ c b hb
theorem s9 (b : Ref sig .tc) (hb : b ∉ wr3) : Gen.W9 (F := Ideal) m ρ c (Proc.devRef .tc b) = Gen.W8 (F := Ideal) m ρ c (Proc.devRef .tc b) :=
  wr3_keep _ b hb
theorem s10 (b : Ref sig .tc) (hb : ∀ w, Pipeline.arrRef spec3 w ≠ b) : Gen.W10 (F := Ideal) m ρ c (Proc.devRef .tc b) = Gen.W9 (F := Ideal) m ρ c (Proc.devRef .tc b) :=
  Gen.W10_of_ne m ρ c b hb
theorem s11 (b : Ref sig .tc) (hb : b ∉ wr4) : Gen.W11 (F := Ideal) m ρ c (Proc.devRef .tc b) = Gen.W10 (F := Ideal) m ρ c (Proc.devRef .tc b) :=
  wr4_keep _ b hb
theorem s12 (b : Ref sig .tc) (hb : ∀ w, Pipeline.arrRef spec4 w ≠ b) : Gen.W12 (F := Ideal) m ρ c (Proc.devRef .tc b) = Gen.W11 (F := Ideal) m ρ c (Proc.devRef .tc b) :=
  Gen.W12_of_ne m ρ c b hb
theorem s13 (b : Ref sig .tc) (hb : b ∉ wr5) : Gen.W13 (F := Ideal) m ρ c (Proc.devRef .tc b) = Gen.W12 (F := Ideal) m ρ c (Proc.devRef .tc b) :=
  wr5_keep _ b hb
theorem s14 (b : Ref sig .tc) (hb : ∀ w, Pipeline.arrRef spec5 w ≠ b) : Gen.W14 (F := Ideal) m ρ c (Proc.devRef .tc b) = Gen.W13 (F := Ideal) m ρ c (Proc.devRef .tc b) :=
  Gen.W14_of_ne m ρ c b hb
theorem s15 (b : Ref sig .tc) (hb : b ∉ wr6) : Gen.W15 (F := Ideal) m ρ c (Proc.devRef .tc b) = Gen.W14 (F := Ideal) m ρ c (Proc.devRef .tc b) :=
  wr6_keep _ b hb
theorem s16 (b : Ref sig .tc) (hb : ∀ w, Pipeline.arrRef spec6 w ≠ b) : Gen.W16 (F := Ideal) m ρ c (Proc.devRef .tc b) = Gen.W15 (F := Ideal) m ρ c (Proc.devRef .tc b) :=
  Gen.W16_of_ne m ρ c b hb
theorem s17 (b : Ref sig .tc) (hb : b ∉ wr7) : Gen.W17 (F := Ideal) m ρ c (Proc.devRef .tc b) = Gen.W16 (F := Ideal) m ρ c (Proc.devRef .tc b) :=
  wr7_keep _ b hb

/-! ## Buffers found unchanged where they are read -/

theorem k4_v7 : Gen.W4 (F := Ideal) m ρ c (Proc.devRef .tc main_v7) = Gen.W3 (F := Ideal) m ρ c (Proc.devRef .tc main_v7) :=
  s4 m ρ c main_v7 (by decide)
theorem k5_v7 : Gen.W5 (F := Ideal) m ρ c (Proc.devRef .tc main_v7) = Gen.W3 (F := Ideal) m ρ c (Proc.devRef .tc main_v7) :=
  (s5 m ρ c main_v7 (by decide)).trans (k4_v7 m ρ c)
theorem k6_v7 : Gen.W6 (F := Ideal) m ρ c (Proc.devRef .tc main_v7) = Gen.W3 (F := Ideal) m ρ c (Proc.devRef .tc main_v7) :=
  (s6 m ρ c main_v7 (by decide)).trans (k5_v7 m ρ c)
theorem k7_v7 : Gen.W7 (F := Ideal) m ρ c (Proc.devRef .tc main_v7) = Gen.W3 (F := Ideal) m ρ c (Proc.devRef .tc main_v7) :=
  (s7 m ρ c main_v7 (by decide)).trans (k6_v7 m ρ c)
theorem k8_v7 : Gen.W8 (F := Ideal) m ρ c (Proc.devRef .tc main_v7) = Gen.W3 (F := Ideal) m ρ c (Proc.devRef .tc main_v7) :=
  (s8 m ρ c main_v7 (by decide)).trans (k7_v7 m ρ c)
theorem k9_v7 : Gen.W9 (F := Ideal) m ρ c (Proc.devRef .tc main_v7) = Gen.W3 (F := Ideal) m ρ c (Proc.devRef .tc main_v7) :=
  (s9 m ρ c main_v7 (by decide)).trans (k8_v7 m ρ c)
theorem k10_v7 : Gen.W10 (F := Ideal) m ρ c (Proc.devRef .tc main_v7) = Gen.W3 (F := Ideal) m ρ c (Proc.devRef .tc main_v7) :=
  (s10 m ρ c main_v7 (by decide)).trans (k9_v7 m ρ c)
theorem k11_v7 : Gen.W11 (F := Ideal) m ρ c (Proc.devRef .tc main_v7) = Gen.W3 (F := Ideal) m ρ c (Proc.devRef .tc main_v7) :=
  (s11 m ρ c main_v7 (by decide)).trans (k10_v7 m ρ c)
theorem k12_v7 : Gen.W12 (F := Ideal) m ρ c (Proc.devRef .tc main_v7) = Gen.W3 (F := Ideal) m ρ c (Proc.devRef .tc main_v7) :=
  (s12 m ρ c main_v7 (by decide)).trans (k11_v7 m ρ c)
theorem k4_v8 : Gen.W4 (F := Ideal) m ρ c (Proc.devRef .tc main_v8) = Gen.W3 (F := Ideal) m ρ c (Proc.devRef .tc main_v8) :=
  s4 m ρ c main_v8 (by decide)
theorem k5_v8 : Gen.W5 (F := Ideal) m ρ c (Proc.devRef .tc main_v8) = Gen.W3 (F := Ideal) m ρ c (Proc.devRef .tc main_v8) :=
  (s5 m ρ c main_v8 (by decide)).trans (k4_v8 m ρ c)
theorem k6_v8 : Gen.W6 (F := Ideal) m ρ c (Proc.devRef .tc main_v8) = Gen.W3 (F := Ideal) m ρ c (Proc.devRef .tc main_v8) :=
  (s6 m ρ c main_v8 (by decide)).trans (k5_v8 m ρ c)
theorem k7_v8 : Gen.W7 (F := Ideal) m ρ c (Proc.devRef .tc main_v8) = Gen.W3 (F := Ideal) m ρ c (Proc.devRef .tc main_v8) :=
  (s7 m ρ c main_v8 (by decide)).trans (k6_v8 m ρ c)
theorem k8_v8 : Gen.W8 (F := Ideal) m ρ c (Proc.devRef .tc main_v8) = Gen.W3 (F := Ideal) m ρ c (Proc.devRef .tc main_v8) :=
  (s8 m ρ c main_v8 (by decide)).trans (k7_v8 m ρ c)
theorem k9_v8 : Gen.W9 (F := Ideal) m ρ c (Proc.devRef .tc main_v8) = Gen.W3 (F := Ideal) m ρ c (Proc.devRef .tc main_v8) :=
  (s9 m ρ c main_v8 (by decide)).trans (k8_v8 m ρ c)
theorem k10_v8 : Gen.W10 (F := Ideal) m ρ c (Proc.devRef .tc main_v8) = Gen.W3 (F := Ideal) m ρ c (Proc.devRef .tc main_v8) :=
  (s10 m ρ c main_v8 (by decide)).trans (k9_v8 m ρ c)
theorem k11_v8 : Gen.W11 (F := Ideal) m ρ c (Proc.devRef .tc main_v8) = Gen.W3 (F := Ideal) m ρ c (Proc.devRef .tc main_v8) :=
  (s11 m ρ c main_v8 (by decide)).trans (k10_v8 m ρ c)
theorem k12_v8 : Gen.W12 (F := Ideal) m ρ c (Proc.devRef .tc main_v8) = Gen.W3 (F := Ideal) m ρ c (Proc.devRef .tc main_v8) :=
  (s12 m ρ c main_v8 (by decide)).trans (k11_v8 m ρ c)
theorem k4_v33 : Gen.W4 (F := Ideal) m ρ c (Proc.devRef .tc main_v33) = Gen.W3 (F := Ideal) m ρ c (Proc.devRef .tc main_v33) :=
  s4 m ρ c main_v33 (by decide)
theorem k5_v33 : Gen.W5 (F := Ideal) m ρ c (Proc.devRef .tc main_v33) = Gen.W3 (F := Ideal) m ρ c (Proc.devRef .tc main_v33) :=
  (s5 m ρ c main_v33 (by decide)).trans (k4_v33 m ρ c)
theorem k6_v33 : Gen.W6 (F := Ideal) m ρ c (Proc.devRef .tc main_v33) = Gen.W3 (F := Ideal) m ρ c (Proc.devRef .tc main_v33) :=
  (s6 m ρ c main_v33 (by decide)).trans (k5_v33 m ρ c)
theorem k7_v33 : Gen.W7 (F := Ideal) m ρ c (Proc.devRef .tc main_v33) = Gen.W3 (F := Ideal) m ρ c (Proc.devRef .tc main_v33) :=
  (s7 m ρ c main_v33 (by decide)).trans (k6_v33 m ρ c)
theorem k8_v33 : Gen.W8 (F := Ideal) m ρ c (Proc.devRef .tc main_v33) = Gen.W3 (F := Ideal) m ρ c (Proc.devRef .tc main_v33) :=
  (s8 m ρ c main_v33 (by decide)).trans (k7_v33 m ρ c)
theorem k9_v33 : Gen.W9 (F := Ideal) m ρ c (Proc.devRef .tc main_v33) = Gen.W3 (F := Ideal) m ρ c (Proc.devRef .tc main_v33) :=
  (s9 m ρ c main_v33 (by decide)).trans (k8_v33 m ρ c)
theorem k10_v33 : Gen.W10 (F := Ideal) m ρ c (Proc.devRef .tc main_v33) = Gen.W3 (F := Ideal) m ρ c (Proc.devRef .tc main_v33) :=
  (s10 m ρ c main_v33 (by decide)).trans (k9_v33 m ρ c)
theorem k11_v33 : Gen.W11 (F := Ideal) m ρ c (Proc.devRef .tc main_v33) = Gen.W3 (F := Ideal) m ρ c (Proc.devRef .tc main_v33) :=
  (s11 m ρ c main_v33 (by decide)).trans (k10_v33 m ρ c)
theorem k12_v33 : Gen.W12 (F := Ideal) m ρ c (Proc.devRef .tc main_v33) = Gen.W3 (F := Ideal) m ρ c (Proc.devRef .tc main_v33) :=
  (s12 m ρ c main_v33 (by decide)).trans (k11_v33 m ρ c)
theorem k4_v36 : Gen.W4 (F := Ideal) m ρ c (Proc.devRef .tc main_v36) = Gen.W3 (F := Ideal) m ρ c (Proc.devRef .tc main_v36) :=
  s4 m ρ c main_v36 (by decide)
theorem k5_v36 : Gen.W5 (F := Ideal) m ρ c (Proc.devRef .tc main_v36) = Gen.W3 (F := Ideal) m ρ c (Proc.devRef .tc main_v36) :=
  (s5 m ρ c main_v36 (by decide)).trans (k4_v36 m ρ c)
theorem k6_v36 : Gen.W6 (F := Ideal) m ρ c (Proc.devRef .tc main_v36) = Gen.W3 (F := Ideal) m ρ c (Proc.devRef .tc main_v36) :=
  (s6 m ρ c main_v36 (by decide)).trans (k5_v36 m ρ c)
theorem k7_v36 : Gen.W7 (F := Ideal) m ρ c (Proc.devRef .tc main_v36) = Gen.W3 (F := Ideal) m ρ c (Proc.devRef .tc main_v36) :=
  (s7 m ρ c main_v36 (by decide)).trans (k6_v36 m ρ c)
theorem k8_v36 : Gen.W8 (F := Ideal) m ρ c (Proc.devRef .tc main_v36) = Gen.W3 (F := Ideal) m ρ c (Proc.devRef .tc main_v36) :=
  (s8 m ρ c main_v36 (by decide)).trans (k7_v36 m ρ c)
theorem k4_v37 : Gen.W4 (F := Ideal) m ρ c (Proc.devRef .tc main_v37) = Gen.W3 (F := Ideal) m ρ c (Proc.devRef .tc main_v37) :=
  s4 m ρ c main_v37 (by decide)
theorem k5_v37 : Gen.W5 (F := Ideal) m ρ c (Proc.devRef .tc main_v37) = Gen.W3 (F := Ideal) m ρ c (Proc.devRef .tc main_v37) :=
  (s5 m ρ c main_v37 (by decide)).trans (k4_v37 m ρ c)
theorem k6_v37 : Gen.W6 (F := Ideal) m ρ c (Proc.devRef .tc main_v37) = Gen.W3 (F := Ideal) m ρ c (Proc.devRef .tc main_v37) :=
  (s6 m ρ c main_v37 (by decide)).trans (k5_v37 m ρ c)
theorem k4_v35 : Gen.W4 (F := Ideal) m ρ c (Proc.devRef .tc main_v35) = Gen.W3 (F := Ideal) m ρ c (Proc.devRef .tc main_v35) :=
  s4 m ρ c main_v35 (by decide)
theorem k5_v35 : Gen.W5 (F := Ideal) m ρ c (Proc.devRef .tc main_v35) = Gen.W3 (F := Ideal) m ρ c (Proc.devRef .tc main_v35) :=
  (s5 m ρ c main_v35 (by decide)).trans (k4_v35 m ρ c)
theorem k6_v35 : Gen.W6 (F := Ideal) m ρ c (Proc.devRef .tc main_v35) = Gen.W3 (F := Ideal) m ρ c (Proc.devRef .tc main_v35) :=
  (s6 m ρ c main_v35 (by decide)).trans (k5_v35 m ρ c)
theorem k7_v35 : Gen.W7 (F := Ideal) m ρ c (Proc.devRef .tc main_v35) = Gen.W3 (F := Ideal) m ρ c (Proc.devRef .tc main_v35) :=
  (s7 m ρ c main_v35 (by decide)).trans (k6_v35 m ρ c)
theorem k8_v35 : Gen.W8 (F := Ideal) m ρ c (Proc.devRef .tc main_v35) = Gen.W3 (F := Ideal) m ρ c (Proc.devRef .tc main_v35) :=
  (s8 m ρ c main_v35 (by decide)).trans (k7_v35 m ρ c)
theorem k9_v35 : Gen.W9 (F := Ideal) m ρ c (Proc.devRef .tc main_v35) = Gen.W3 (F := Ideal) m ρ c (Proc.devRef .tc main_v35) :=
  (s9 m ρ c main_v35 (by decide)).trans (k8_v35 m ρ c)
theorem k10_v35 : Gen.W10 (F := Ideal) m ρ c (Proc.devRef .tc main_v35) = Gen.W3 (F := Ideal) m ρ c (Proc.devRef .tc main_v35) :=
  (s10 m ρ c main_v35 (by decide)).trans (k9_v35 m ρ c)
theorem k11_v35 : Gen.W11 (F := Ideal) m ρ c (Proc.devRef .tc main_v35) = Gen.W3 (F := Ideal) m ρ c (Proc.devRef .tc main_v35) :=
  (s11 m ρ c main_v35 (by decide)).trans (k10_v35 m ρ c)
theorem k12_v35 : Gen.W12 (F := Ideal) m ρ c (Proc.devRef .tc main_v35) = Gen.W3 (F := Ideal) m ρ c (Proc.devRef .tc main_v35) :=
  (s12 m ρ c main_v35 (by decide)).trans (k11_v35 m ρ c)
theorem k13_v35 : Gen.W13 (F := Ideal) m ρ c (Proc.devRef .tc main_v35) = Gen.W3 (F := Ideal) m ρ c (Proc.devRef .tc main_v35) :=
  (s13 m ρ c main_v35 (by decide)).trans (k12_v35 m ρ c)
theorem k14_v35 : Gen.W14 (F := Ideal) m ρ c (Proc.devRef .tc main_v35) = Gen.W3 (F := Ideal) m ρ c (Proc.devRef .tc main_v35) :=
  (s14 m ρ c main_v35 (by decide)).trans (k13_v35 m ρ c)
theorem k1_arg0 : Gen.W1 (F := Ideal) m ρ c (Proc.devRef .tc main_arg0) = m ((c.tc : Thread nD τ).loc main_arg0) :=
  (s1 m ρ c main_arg0 (by decide)).trans (rfl)
theorem k2_arg0 : Gen.W2 (F := Ideal) m ρ c (Proc.devRef .tc main_arg0) = m ((c.tc : Thread nD τ).loc main_arg0) :=
  (s2 m ρ c main_arg0 (by decide)).trans (k1_arg0 m ρ c)
theorem k3_arg0 : Gen.W3 (F := Ideal) m ρ c (Proc.devRef .tc main_arg0) = m ((c.tc : Thread nD τ).loc main_arg0) :=
  (s3 m ρ c main_arg0 (by decide)).trans (k2_arg0 m ρ c)
theorem k1_arg2 : Gen.W1 (F := Ideal) m ρ c (Proc.devRef .tc main_arg2) = m ((c.tc : Thread nD τ).loc main_arg2) :=
  (s1 m ρ c main_arg2 (by decide)).trans (rfl)
theorem k2_arg2 : Gen.W2 (F := Ideal) m ρ c (Proc.devRef .tc main_arg2) = m ((c.tc : Thread nD τ).loc main_arg2) :=
  (s2 m ρ c main_arg2 (by decide)).trans (k1_arg2 m ρ c)
theorem k3_arg2 : Gen.W3 (F := Ideal) m ρ c (Proc.devRef .tc main_arg2) = m ((c.tc : Thread nD τ).loc main_arg2) :=
  (s3 m ρ c main_arg2 (by decide)).trans (k2_arg2 m ρ c)
theorem k1_arg3 : Gen.W1 (F := Ideal) m ρ c (Proc.devRef .tc main_arg3) = m ((c.tc : Thread nD τ).loc main_arg3) :=
  (s1 m ρ c main_arg3 (by decide)).trans (rfl)
theorem k2_arg3 : Gen.W2 (F := Ideal) m ρ c (Proc.devRef .tc main_arg3) = m ((c.tc : Thread nD τ).loc main_arg3) :=
  (s2 m ρ c main_arg3 (by decide)).trans (k1_arg3 m ρ c)
theorem k3_arg3 : Gen.W3 (F := Ideal) m ρ c (Proc.devRef .tc main_arg3) = m ((c.tc : Thread nD τ).loc main_arg3) :=
  (s3 m ρ c main_arg3 (by decide)).trans (k2_arg3 m ρ c)
theorem k4_arg3 : Gen.W4 (F := Ideal) m ρ c (Proc.devRef .tc main_arg3) = m ((c.tc : Thread nD τ).loc main_arg3) :=
  (s4 m ρ c main_arg3 (by decide)).trans (k3_arg3 m ρ c)
theorem k1_arg4 : Gen.W1 (F := Ideal) m ρ c (Proc.devRef .tc main_arg4) = m ((c.tc : Thread nD τ).loc main_arg4) :=
  (s1 m ρ c main_arg4 (by decide)).trans (rfl)
theorem k2_arg4 : Gen.W2 (F := Ideal) m ρ c (Proc.devRef .tc main_arg4) = m ((c.tc : Thread nD τ).loc main_arg4) :=
  (s2 m ρ c main_arg4 (by decide)).trans (k1_arg4 m ρ c)
theorem k3_arg4 : Gen.W3 (F := Ideal) m ρ c (Proc.devRef .tc main_arg4) = m ((c.tc : Thread nD τ).loc main_arg4) :=
  (s3 m ρ c main_arg4 (by decide)).trans (k2_arg4 m ρ c)
theorem k4_arg4 : Gen.W4 (F := Ideal) m ρ c (Proc.devRef .tc main_arg4) = m ((c.tc : Thread nD τ).loc main_arg4) :=
  (s4 m ρ c main_arg4 (by decide)).trans (k3_arg4 m ρ c)
theorem k5_arg4 : Gen.W5 (F := Ideal) m ρ c (Proc.devRef .tc main_arg4) = m ((c.tc : Thread nD τ).loc main_arg4) :=
  (s5 m ρ c main_arg4 (by decide)).trans (k4_arg4 m ρ c)
theorem k1_arg5 : Gen.W1 (F := Ideal) m ρ c (Proc.devRef .tc main_arg5) = m ((c.tc : Thread nD τ).loc main_arg5) :=
  (s1 m ρ c main_arg5 (by decide)).trans (rfl)
theorem k2_arg5 : Gen.W2 (F := Ideal) m ρ c (Proc.devRef .tc main_arg5) = m ((c.tc : Thread nD τ).loc main_arg5) :=
  (s2 m ρ c main_arg5 (by decide)).trans (k1_arg5 m ρ c)
theorem k3_arg5 : Gen.W3 (F := Ideal) m ρ c (Proc.devRef .tc main_arg5) = m ((c.tc : Thread nD τ).loc main_arg5) :=
  (s3 m ρ c main_arg5 (by decide)).trans (k2_arg5 m ρ c)
theorem k4_arg5 : Gen.W4 (F := Ideal) m ρ c (Proc.devRef .tc main_arg5) = m ((c.tc : Thread nD τ).loc main_arg5) :=
  (s4 m ρ c main_arg5 (by decide)).trans (k3_arg5 m ρ c)
theorem k5_arg5 : Gen.W5 (F := Ideal) m ρ c (Proc.devRef .tc main_arg5) = m ((c.tc : Thread nD τ).loc main_arg5) :=
  (s5 m ρ c main_arg5 (by decide)).trans (k4_arg5 m ρ c)
theorem k6_arg5 : Gen.W6 (F := Ideal) m ρ c (Proc.devRef .tc main_arg5) = m ((c.tc : Thread nD τ).loc main_arg5) :=
  (s6 m ρ c main_arg5 (by decide)).trans (k5_arg5 m ρ c)
theorem k1_arg6 : Gen.W1 (F := Ideal) m ρ c (Proc.devRef .tc main_arg6) = m ((c.tc : Thread nD τ).loc main_arg6) :=
  (s1 m ρ c main_arg6 (by decide)).trans (rfl)
theorem k2_arg6 : Gen.W2 (F := Ideal) m ρ c (Proc.devRef .tc main_arg6) = m ((c.tc : Thread nD τ).loc main_arg6) :=
  (s2 m ρ c main_arg6 (by decide)).trans (k1_arg6 m ρ c)
theorem k3_arg6 : Gen.W3 (F := Ideal) m ρ c (Proc.devRef .tc main_arg6) = m ((c.tc : Thread nD τ).loc main_arg6) :=
  (s3 m ρ c main_arg6 (by decide)).trans (k2_arg6 m ρ c)
theorem k4_arg6 : Gen.W4 (F := Ideal) m ρ c (Proc.devRef .tc main_arg6) = m ((c.tc : Thread nD τ).loc main_arg6) :=
  (s4 m ρ c main_arg6 (by decide)).trans (k3_arg6 m ρ c)
theorem k5_arg6 : Gen.W5 (F := Ideal) m ρ c (Proc.devRef .tc main_arg6) = m ((c.tc : Thread nD τ).loc main_arg6) :=
  (s5 m ρ c main_arg6 (by decide)).trans (k4_arg6 m ρ c)
theorem k6_arg6 : Gen.W6 (F := Ideal) m ρ c (Proc.devRef .tc main_arg6) = m ((c.tc : Thread nD τ).loc main_arg6) :=
  (s6 m ρ c main_arg6 (by decide)).trans (k5_arg6 m ρ c)
theorem k7_arg6 : Gen.W7 (F := Ideal) m ρ c (Proc.devRef .tc main_arg6) = m ((c.tc : Thread nD τ).loc main_arg6) :=
  (s7 m ρ c main_arg6 (by decide)).trans (k6_arg6 m ρ c)
theorem k1_arg7 : Gen.W1 (F := Ideal) m ρ c (Proc.devRef .tc main_arg7) = m ((c.tc : Thread nD τ).loc main_arg7) :=
  (s1 m ρ c main_arg7 (by decide)).trans (rfl)
theorem k2_arg7 : Gen.W2 (F := Ideal) m ρ c (Proc.devRef .tc main_arg7) = m ((c.tc : Thread nD τ).loc main_arg7) :=
  (s2 m ρ c main_arg7 (by decide)).trans (k1_arg7 m ρ c)
theorem k3_arg7 : Gen.W3 (F := Ideal) m ρ c (Proc.devRef .tc main_arg7) = m ((c.tc : Thread nD τ).loc main_arg7) :=
  (s3 m ρ c main_arg7 (by decide)).trans (k2_arg7 m ρ c)
theorem k4_arg7 : Gen.W4 (F := Ideal) m ρ c (Proc.devRef .tc main_arg7) = m ((c.tc : Thread nD τ).loc main_arg7) :=
  (s4 m ρ c main_arg7 (by decide)).trans (k3_arg7 m ρ c)
theorem k5_arg7 : Gen.W5 (F := Ideal) m ρ c (Proc.devRef .tc main_arg7) = m ((c.tc : Thread nD τ).loc main_arg7) :=
  (s5 m ρ c main_arg7 (by decide)).trans (k4_arg7 m ρ c)
theorem k6_arg7 : Gen.W6 (F := Ideal) m ρ c (Proc.devRef .tc main_arg7) = m ((c.tc : Thread nD τ).loc main_arg7) :=
  (s6 m ρ c main_arg7 (by decide)).trans (k5_arg7 m ρ c)
theorem k7_arg7 : Gen.W7 (F := Ideal) m ρ c (Proc.devRef .tc main_arg7) = m ((c.tc : Thread nD τ).loc main_arg7) :=
  (s7 m ρ c main_arg7 (by decide)).trans (k6_arg7 m ρ c)
theorem k8_arg7 : Gen.W8 (F := Ideal) m ρ c (Proc.devRef .tc main_arg7) = m ((c.tc : Thread nD τ).loc main_arg7) :=
  (s8 m ρ c main_arg7 (by decide)).trans (k7_arg7 m ρ c)
theorem k1_arg8 : Gen.W1 (F := Ideal) m ρ c (Proc.devRef .tc main_arg8) = m ((c.tc : Thread nD τ).loc main_arg8) :=
  (s1 m ρ c main_arg8 (by decide)).trans (rfl)
theorem k2_arg8 : Gen.W2 (F := Ideal) m ρ c (Proc.devRef .tc main_arg8) = m ((c.tc : Thread nD τ).loc main_arg8) :=
  (s2 m ρ c main_arg8 (by decide)).trans (k1_arg8 m ρ c)
theorem k3_arg8 : Gen.W3 (F := Ideal) m ρ c (Proc.devRef .tc main_arg8) = m ((c.tc : Thread nD τ).loc main_arg8) :=
  (s3 m ρ c main_arg8 (by decide)).trans (k2_arg8 m ρ c)
theorem k4_arg8 : Gen.W4 (F := Ideal) m ρ c (Proc.devRef .tc main_arg8) = m ((c.tc : Thread nD τ).loc main_arg8) :=
  (s4 m ρ c main_arg8 (by decide)).trans (k3_arg8 m ρ c)
theorem k5_arg8 : Gen.W5 (F := Ideal) m ρ c (Proc.devRef .tc main_arg8) = m ((c.tc : Thread nD τ).loc main_arg8) :=
  (s5 m ρ c main_arg8 (by decide)).trans (k4_arg8 m ρ c)
theorem k6_arg8 : Gen.W6 (F := Ideal) m ρ c (Proc.devRef .tc main_arg8) = m ((c.tc : Thread nD τ).loc main_arg8) :=
  (s6 m ρ c main_arg8 (by decide)).trans (k5_arg8 m ρ c)
theorem k7_arg8 : Gen.W7 (F := Ideal) m ρ c (Proc.devRef .tc main_arg8) = m ((c.tc : Thread nD τ).loc main_arg8) :=
  (s7 m ρ c main_arg8 (by decide)).trans (k6_arg8 m ρ c)
theorem k8_arg8 : Gen.W8 (F := Ideal) m ρ c (Proc.devRef .tc main_arg8) = m ((c.tc : Thread nD τ).loc main_arg8) :=
  (s8 m ρ c main_arg8 (by decide)).trans (k7_arg8 m ρ c)
theorem k9_arg8 : Gen.W9 (F := Ideal) m ρ c (Proc.devRef .tc main_arg8) = m ((c.tc : Thread nD τ).loc main_arg8) :=
  (s9 m ρ c main_arg8 (by decide)).trans (k8_arg8 m ρ c)
theorem k1_arg9 : Gen.W1 (F := Ideal) m ρ c (Proc.devRef .tc main_arg9) = m ((c.tc : Thread nD τ).loc main_arg9) :=
  (s1 m ρ c main_arg9 (by decide)).trans (rfl)
theorem k2_arg9 : Gen.W2 (F := Ideal) m ρ c (Proc.devRef .tc main_arg9) = m ((c.tc : Thread nD τ).loc main_arg9) :=
  (s2 m ρ c main_arg9 (by decide)).trans (k1_arg9 m ρ c)
theorem k3_arg9 : Gen.W3 (F := Ideal) m ρ c (Proc.devRef .tc main_arg9) = m ((c.tc : Thread nD τ).loc main_arg9) :=
  (s3 m ρ c main_arg9 (by decide)).trans (k2_arg9 m ρ c)
theorem k4_arg9 : Gen.W4 (F := Ideal) m ρ c (Proc.devRef .tc main_arg9) = m ((c.tc : Thread nD τ).loc main_arg9) :=
  (s4 m ρ c main_arg9 (by decide)).trans (k3_arg9 m ρ c)
theorem k5_arg9 : Gen.W5 (F := Ideal) m ρ c (Proc.devRef .tc main_arg9) = m ((c.tc : Thread nD τ).loc main_arg9) :=
  (s5 m ρ c main_arg9 (by decide)).trans (k4_arg9 m ρ c)
theorem k6_arg9 : Gen.W6 (F := Ideal) m ρ c (Proc.devRef .tc main_arg9) = m ((c.tc : Thread nD τ).loc main_arg9) :=
  (s6 m ρ c main_arg9 (by decide)).trans (k5_arg9 m ρ c)
theorem k7_arg9 : Gen.W7 (F := Ideal) m ρ c (Proc.devRef .tc main_arg9) = m ((c.tc : Thread nD τ).loc main_arg9) :=
  (s7 m ρ c main_arg9 (by decide)).trans (k6_arg9 m ρ c)
theorem k8_arg9 : Gen.W8 (F := Ideal) m ρ c (Proc.devRef .tc main_arg9) = m ((c.tc : Thread nD τ).loc main_arg9) :=
  (s8 m ρ c main_arg9 (by decide)).trans (k7_arg9 m ρ c)
theorem k9_arg9 : Gen.W9 (F := Ideal) m ρ c (Proc.devRef .tc main_arg9) = m ((c.tc : Thread nD τ).loc main_arg9) :=
  (s9 m ρ c main_arg9 (by decide)).trans (k8_arg9 m ρ c)
theorem k10_arg9 : Gen.W10 (F := Ideal) m ρ c (Proc.devRef .tc main_arg9) = m ((c.tc : Thread nD τ).loc main_arg9) :=
  (s10 m ρ c main_arg9 (by decide)).trans (k9_arg9 m ρ c)
theorem k1_arg10 : Gen.W1 (F := Ideal) m ρ c (Proc.devRef .tc main_arg10) = m ((c.tc : Thread nD τ).loc main_arg10) :=
  (s1 m ρ c main_arg10 (by decide)).trans (rfl)
theorem k2_arg10 : Gen.W2 (F := Ideal) m ρ c (Proc.devRef .tc main_arg10) = m ((c.tc : Thread nD τ).loc main_arg10) :=
  (s2 m ρ c main_arg10 (by decide)).trans (k1_arg10 m ρ c)
theorem k3_arg10 : Gen.W3 (F := Ideal) m ρ c (Proc.devRef .tc main_arg10) = m ((c.tc : Thread nD τ).loc main_arg10) :=
  (s3 m ρ c main_arg10 (by decide)).trans (k2_arg10 m ρ c)
theorem k4_arg10 : Gen.W4 (F := Ideal) m ρ c (Proc.devRef .tc main_arg10) = m ((c.tc : Thread nD τ).loc main_arg10) :=
  (s4 m ρ c main_arg10 (by decide)).trans (k3_arg10 m ρ c)
theorem k5_arg10 : Gen.W5 (F := Ideal) m ρ c (Proc.devRef .tc main_arg10) = m ((c.tc : Thread nD τ).loc main_arg10) :=
  (s5 m ρ c main_arg10 (by decide)).trans (k4_arg10 m ρ c)
theorem k6_arg10 : Gen.W6 (F := Ideal) m ρ c (Proc.devRef .tc main_arg10) = m ((c.tc : Thread nD τ).loc main_arg10) :=
  (s6 m ρ c main_arg10 (by decide)).trans (k5_arg10 m ρ c)
theorem k7_arg10 : Gen.W7 (F := Ideal) m ρ c (Proc.devRef .tc main_arg10) = m ((c.tc : Thread nD τ).loc main_arg10) :=
  (s7 m ρ c main_arg10 (by decide)).trans (k6_arg10 m ρ c)
theorem k8_arg10 : Gen.W8 (F := Ideal) m ρ c (Proc.devRef .tc main_arg10) = m ((c.tc : Thread nD τ).loc main_arg10) :=
  (s8 m ρ c main_arg10 (by decide)).trans (k7_arg10 m ρ c)
theorem k9_arg10 : Gen.W9 (F := Ideal) m ρ c (Proc.devRef .tc main_arg10) = m ((c.tc : Thread nD τ).loc main_arg10) :=
  (s9 m ρ c main_arg10 (by decide)).trans (k8_arg10 m ρ c)
theorem k10_arg10 : Gen.W10 (F := Ideal) m ρ c (Proc.devRef .tc main_arg10) = m ((c.tc : Thread nD τ).loc main_arg10) :=
  (s10 m ρ c main_arg10 (by decide)).trans (k9_arg10 m ρ c)
theorem k11_arg10 : Gen.W11 (F := Ideal) m ρ c (Proc.devRef .tc main_arg10) = m ((c.tc : Thread nD τ).loc main_arg10) :=
  (s11 m ρ c main_arg10 (by decide)).trans (k10_arg10 m ρ c)
theorem k1_arg11 : Gen.W1 (F := Ideal) m ρ c (Proc.devRef .tc main_arg11) = m ((c.tc : Thread nD τ).loc main_arg11) :=
  (s1 m ρ c main_arg11 (by decide)).trans (rfl)
theorem k2_arg11 : Gen.W2 (F := Ideal) m ρ c (Proc.devRef .tc main_arg11) = m ((c.tc : Thread nD τ).loc main_arg11) :=
  (s2 m ρ c main_arg11 (by decide)).trans (k1_arg11 m ρ c)
theorem k3_arg11 : Gen.W3 (F := Ideal) m ρ c (Proc.devRef .tc main_arg11) = m ((c.tc : Thread nD τ).loc main_arg11) :=
  (s3 m ρ c main_arg11 (by decide)).trans (k2_arg11 m ρ c)
theorem k4_arg11 : Gen.W4 (F := Ideal) m ρ c (Proc.devRef .tc main_arg11) = m ((c.tc : Thread nD τ).loc main_arg11) :=
  (s4 m ρ c main_arg11 (by decide)).trans (k3_arg11 m ρ c)
theorem k5_arg11 : Gen.W5 (F := Ideal) m ρ c (Proc.devRef .tc main_arg11) = m ((c.tc : Thread nD τ).loc main_arg11) :=
  (s5 m ρ c main_arg11 (by decide)).trans (k4_arg11 m ρ c)
theorem k6_arg11 : Gen.W6 (F := Ideal) m ρ c (Proc.devRef .tc main_arg11) = m ((c.tc : Thread nD τ).loc main_arg11) :=
  (s6 m ρ c main_arg11 (by decide)).trans (k5_arg11 m ρ c)
theorem k7_arg11 : Gen.W7 (F := Ideal) m ρ c (Proc.devRef .tc main_arg11) = m ((c.tc : Thread nD τ).loc main_arg11) :=
  (s7 m ρ c main_arg11 (by decide)).trans (k6_arg11 m ρ c)
theorem k8_arg11 : Gen.W8 (F := Ideal) m ρ c (Proc.devRef .tc main_arg11) = m ((c.tc : Thread nD τ).loc main_arg11) :=
  (s8 m ρ c main_arg11 (by decide)).trans (k7_arg11 m ρ c)
theorem k9_arg11 : Gen.W9 (F := Ideal) m ρ c (Proc.devRef .tc main_arg11) = m ((c.tc : Thread nD τ).loc main_arg11) :=
  (s9 m ρ c main_arg11 (by decide)).trans (k8_arg11 m ρ c)
theorem k10_arg11 : Gen.W10 (F := Ideal) m ρ c (Proc.devRef .tc main_arg11) = m ((c.tc : Thread nD τ).loc main_arg11) :=
  (s10 m ρ c main_arg11 (by decide)).trans (k9_arg11 m ρ c)
theorem k11_arg11 : Gen.W11 (F := Ideal) m ρ c (Proc.devRef .tc main_arg11) = m ((c.tc : Thread nD τ).loc main_arg11) :=
  (s11 m ρ c main_arg11 (by decide)).trans (k10_arg11 m ρ c)
theorem k12_arg11 : Gen.W12 (F := Ideal) m ρ c (Proc.devRef .tc main_arg11) = m ((c.tc : Thread nD τ).loc main_arg11) :=
  (s12 m ρ c main_arg11 (by decide)).trans (k11_arg11 m ρ c)
theorem k1_arg12 : Gen.W1 (F := Ideal) m ρ c (Proc.devRef .tc main_arg12) = m ((c.tc : Thread nD τ).loc main_arg12) :=
  (s1 m ρ c main_arg12 (by decide)).trans (rfl)
theorem k2_arg12 : Gen.W2 (F := Ideal) m ρ c (Proc.devRef .tc main_arg12) = m ((c.tc : Thread nD τ).loc main_arg12) :=
  (s2 m ρ c main_arg12 (by decide)).trans (k1_arg12 m ρ c)
theorem k3_arg12 : Gen.W3 (F := Ideal) m ρ c (Proc.devRef .tc main_arg12) = m ((c.tc : Thread nD τ).loc main_arg12) :=
  (s3 m ρ c main_arg12 (by decide)).trans (k2_arg12 m ρ c)
theorem k4_arg12 : Gen.W4 (F := Ideal) m ρ c (Proc.devRef .tc main_arg12) = m ((c.tc : Thread nD τ).loc main_arg12) :=
  (s4 m ρ c main_arg12 (by decide)).trans (k3_arg12 m ρ c)
theorem k5_arg12 : Gen.W5 (F := Ideal) m ρ c (Proc.devRef .tc main_arg12) = m ((c.tc : Thread nD τ).loc main_arg12) :=
  (s5 m ρ c main_arg12 (by decide)).trans (k4_arg12 m ρ c)
theorem k6_arg12 : Gen.W6 (F := Ideal) m ρ c (Proc.devRef .tc main_arg12) = m ((c.tc : Thread nD τ).loc main_arg12) :=
  (s6 m ρ c main_arg12 (by decide)).trans (k5_arg12 m ρ c)
theorem k7_arg12 : Gen.W7 (F := Ideal) m ρ c (Proc.devRef .tc main_arg12) = m ((c.tc : Thread nD τ).loc main_arg12) :=
  (s7 m ρ c main_arg12 (by decide)).trans (k6_arg12 m ρ c)
theorem k8_arg12 : Gen.W8 (F := Ideal) m ρ c (Proc.devRef .tc main_arg12) = m ((c.tc : Thread nD τ).loc main_arg12) :=
  (s8 m ρ c main_arg12 (by decide)).trans (k7_arg12 m ρ c)
theorem k9_arg12 : Gen.W9 (F := Ideal) m ρ c (Proc.devRef .tc main_arg12) = m ((c.tc : Thread nD τ).loc main_arg12) :=
  (s9 m ρ c main_arg12 (by decide)).trans (k8_arg12 m ρ c)
theorem k10_arg12 : Gen.W10 (F := Ideal) m ρ c (Proc.devRef .tc main_arg12) = m ((c.tc : Thread nD τ).loc main_arg12) :=
  (s10 m ρ c main_arg12 (by decide)).trans (k9_arg12 m ρ c)
theorem k11_arg12 : Gen.W11 (F := Ideal) m ρ c (Proc.devRef .tc main_arg12) = m ((c.tc : Thread nD τ).loc main_arg12) :=
  (s11 m ρ c main_arg12 (by decide)).trans (k10_arg12 m ρ c)
theorem k12_arg12 : Gen.W12 (F := Ideal) m ρ c (Proc.devRef .tc main_arg12) = m ((c.tc : Thread nD τ).loc main_arg12) :=
  (s12 m ρ c main_arg12 (by decide)).trans (k11_arg12 m ρ c)
theorem k13_arg12 : Gen.W13 (F := Ideal) m ρ c (Proc.devRef .tc main_arg12) = m ((c.tc : Thread nD τ).loc main_arg12) :=
  (s13 m ρ c main_arg12 (by decide)).trans (k12_arg12 m ρ c)
theorem k1_arg13 : Gen.W1 (F := Ideal) m ρ c (Proc.devRef .tc main_arg13) = m ((c.tc : Thread nD τ).loc main_arg13) :=
  (s1 m ρ c main_arg13 (by decide)).trans (rfl)
theorem k2_arg13 : Gen.W2 (F := Ideal) m ρ c (Proc.devRef .tc main_arg13) = m ((c.tc : Thread nD τ).loc main_arg13) :=
  (s2 m ρ c main_arg13 (by decide)).trans (k1_arg13 m ρ c)
theorem k3_arg13 : Gen.W3 (F := Ideal) m ρ c (Proc.devRef .tc main_arg13) = m ((c.tc : Thread nD τ).loc main_arg13) :=
  (s3 m ρ c main_arg13 (by decide)).trans (k2_arg13 m ρ c)
theorem k4_arg13 : Gen.W4 (F := Ideal) m ρ c (Proc.devRef .tc main_arg13) = m ((c.tc : Thread nD τ).loc main_arg13) :=
  (s4 m ρ c main_arg13 (by decide)).trans (k3_arg13 m ρ c)
theorem k5_arg13 : Gen.W5 (F := Ideal) m ρ c (Proc.devRef .tc main_arg13) = m ((c.tc : Thread nD τ).loc main_arg13) :=
  (s5 m ρ c main_arg13 (by decide)).trans (k4_arg13 m ρ c)
theorem k6_arg13 : Gen.W6 (F := Ideal) m ρ c (Proc.devRef .tc main_arg13) = m ((c.tc : Thread nD τ).loc main_arg13) :=
  (s6 m ρ c main_arg13 (by decide)).trans (k5_arg13 m ρ c)
theorem k7_arg13 : Gen.W7 (F := Ideal) m ρ c (Proc.devRef .tc main_arg13) = m ((c.tc : Thread nD τ).loc main_arg13) :=
  (s7 m ρ c main_arg13 (by decide)).trans (k6_arg13 m ρ c)
theorem k8_arg13 : Gen.W8 (F := Ideal) m ρ c (Proc.devRef .tc main_arg13) = m ((c.tc : Thread nD τ).loc main_arg13) :=
  (s8 m ρ c main_arg13 (by decide)).trans (k7_arg13 m ρ c)
theorem k9_arg13 : Gen.W9 (F := Ideal) m ρ c (Proc.devRef .tc main_arg13) = m ((c.tc : Thread nD τ).loc main_arg13) :=
  (s9 m ρ c main_arg13 (by decide)).trans (k8_arg13 m ρ c)
theorem k10_arg13 : Gen.W10 (F := Ideal) m ρ c (Proc.devRef .tc main_arg13) = m ((c.tc : Thread nD τ).loc main_arg13) :=
  (s10 m ρ c main_arg13 (by decide)).trans (k9_arg13 m ρ c)
theorem k11_arg13 : Gen.W11 (F := Ideal) m ρ c (Proc.devRef .tc main_arg13) = m ((c.tc : Thread nD τ).loc main_arg13) :=
  (s11 m ρ c main_arg13 (by decide)).trans (k10_arg13 m ρ c)
theorem k12_arg13 : Gen.W12 (F := Ideal) m ρ c (Proc.devRef .tc main_arg13) = m ((c.tc : Thread nD τ).loc main_arg13) :=
  (s12 m ρ c main_arg13 (by decide)).trans (k11_arg13 m ρ c)
theorem k1_arg14 : Gen.W1 (F := Ideal) m ρ c (Proc.devRef .tc main_arg14) = m ((c.tc : Thread nD τ).loc main_arg14) :=
  (s1 m ρ c main_arg14 (by decide)).trans (rfl)
theorem k2_arg14 : Gen.W2 (F := Ideal) m ρ c (Proc.devRef .tc main_arg14) = m ((c.tc : Thread nD τ).loc main_arg14) :=
  (s2 m ρ c main_arg14 (by decide)).trans (k1_arg14 m ρ c)
theorem k3_arg14 : Gen.W3 (F := Ideal) m ρ c (Proc.devRef .tc main_arg14) = m ((c.tc : Thread nD τ).loc main_arg14) :=
  (s3 m ρ c main_arg14 (by decide)).trans (k2_arg14 m ρ c)
theorem k4_arg14 : Gen.W4 (F := Ideal) m ρ c (Proc.devRef .tc main_arg14) = m ((c.tc : Thread nD τ).loc main_arg14) :=
  (s4 m ρ c main_arg14 (by decide)).trans (k3_arg14 m ρ c)
theorem k5_arg14 : Gen.W5 (F := Ideal) m ρ c (Proc.devRef .tc main_arg14) = m ((c.tc : Thread nD τ).loc main_arg14) :=
  (s5 m ρ c main_arg14 (by decide)).trans (k4_arg14 m ρ c)
theorem k6_arg14 : Gen.W6 (F := Ideal) m ρ c (Proc.devRef .tc main_arg14) = m ((c.tc : Thread nD τ).loc main_arg14) :=
  (s6 m ρ c main_arg14 (by decide)).trans (k5_arg14 m ρ c)
theorem k7_arg14 : Gen.W7 (F := Ideal) m ρ c (Proc.devRef .tc main_arg14) = m ((c.tc : Thread nD τ).loc main_arg14) :=
  (s7 m ρ c main_arg14 (by decide)).trans (k6_arg14 m ρ c)
theorem k8_arg14 : Gen.W8 (F := Ideal) m ρ c (Proc.devRef .tc main_arg14) = m ((c.tc : Thread nD τ).loc main_arg14) :=
  (s8 m ρ c main_arg14 (by decide)).trans (k7_arg14 m ρ c)
theorem k9_arg14 : Gen.W9 (F := Ideal) m ρ c (Proc.devRef .tc main_arg14) = m ((c.tc : Thread nD τ).loc main_arg14) :=
  (s9 m ρ c main_arg14 (by decide)).trans (k8_arg14 m ρ c)
theorem k10_arg14 : Gen.W10 (F := Ideal) m ρ c (Proc.devRef .tc main_arg14) = m ((c.tc : Thread nD τ).loc main_arg14) :=
  (s10 m ρ c main_arg14 (by decide)).trans (k9_arg14 m ρ c)
theorem k11_arg14 : Gen.W11 (F := Ideal) m ρ c (Proc.devRef .tc main_arg14) = m ((c.tc : Thread nD τ).loc main_arg14) :=
  (s11 m ρ c main_arg14 (by decide)).trans (k10_arg14 m ρ c)
theorem k12_arg14 : Gen.W12 (F := Ideal) m ρ c (Proc.devRef .tc main_arg14) = m ((c.tc : Thread nD τ).loc main_arg14) :=
  (s12 m ρ c main_arg14 (by decide)).trans (k11_arg14 m ρ c)
theorem k13_arg14 : Gen.W13 (F := Ideal) m ρ c (Proc.devRef .tc main_arg14) = m ((c.tc : Thread nD τ).loc main_arg14) :=
  (s13 m ρ c main_arg14 (by decide)).trans (k12_arg14 m ρ c)
theorem k14_arg14 : Gen.W14 (F := Ideal) m ρ c (Proc.devRef .tc main_arg14) = m ((c.tc : Thread nD τ).loc main_arg14) :=
  (s14 m ρ c main_arg14 (by decide)).trans (k13_arg14 m ρ c)
theorem k15_arg14 : Gen.W15 (F := Ideal) m ρ c (Proc.devRef .tc main_arg14) = m ((c.tc : Thread nD τ).loc main_arg14) :=
  (s15 m ρ c main_arg14 (by decide)).trans (k14_arg14 m ρ c)
theorem k1_arg15 : Gen.W1 (F := Ideal) m ρ c (Proc.devRef .tc main_arg15) = m ((c.tc : Thread nD τ).loc main_arg15) :=
  (s1 m ρ c main_arg15 (by decide)).trans (rfl)
theorem k2_arg15 : Gen.W2 (F := Ideal) m ρ c (Proc.devRef .tc main_arg15) = m ((c.tc : Thread nD τ).loc main_arg15) :=
  (s2 m ρ c main_arg15 (by decide)).trans (k1_arg15 m ρ c)
theorem k3_arg15 : Gen.W3 (F := Ideal) m ρ c (Proc.devRef .tc main_arg15) = m ((c.tc : Thread nD τ).loc main_arg15) :=
  (s3 m ρ c main_arg15 (by decide)).trans (k2_arg15 m ρ c)
theorem k4_arg15 : Gen.W4 (F := Ideal) m ρ c (Proc.devRef .tc main_arg15) = m ((c.tc : Thread nD τ).loc main_arg15) :=
  (s4 m ρ c main_arg15 (by decide)).trans (k3_arg15 m ρ c)
theorem k5_arg15 : Gen.W5 (F := Ideal) m ρ c (Proc.devRef .tc main_arg15) = m ((c.tc : Thread nD τ).loc main_arg15) :=
  (s5 m ρ c main_arg15 (by decide)).trans (k4_arg15 m ρ c)
theorem k6_arg15 : Gen.W6 (F := Ideal) m ρ c (Proc.devRef .tc main_arg15) = m ((c.tc : Thread nD τ).loc main_arg15) :=
  (s6 m ρ c main_arg15 (by decide)).trans (k5_arg15 m ρ c)
theorem k7_arg15 : Gen.W7 (F := Ideal) m ρ c (Proc.devRef .tc main_arg15) = m ((c.tc : Thread nD τ).loc main_arg15) :=
  (s7 m ρ c main_arg15 (by decide)).trans (k6_arg15 m ρ c)
theorem k8_arg15 : Gen.W8 (F := Ideal) m ρ c (Proc.devRef .tc main_arg15) = m ((c.tc : Thread nD τ).loc main_arg15) :=
  (s8 m ρ c main_arg15 (by decide)).trans (k7_arg15 m ρ c)
theorem k9_arg15 : Gen.W9 (F := Ideal) m ρ c (Proc.devRef .tc main_arg15) = m ((c.tc : Thread nD τ).loc main_arg15) :=
  (s9 m ρ c main_arg15 (by decide)).trans (k8_arg15 m ρ c)
theorem k10_arg15 : Gen.W10 (F := Ideal) m ρ c (Proc.devRef .tc main_arg15) = m ((c.tc : Thread nD τ).loc main_arg15) :=
  (s10 m ρ c main_arg15 (by decide)).trans (k9_arg15 m ρ c)
theorem k11_arg15 : Gen.W11 (F := Ideal) m ρ c (Proc.devRef .tc main_arg15) = m ((c.tc : Thread nD τ).loc main_arg15) :=
  (s11 m ρ c main_arg15 (by decide)).trans (k10_arg15 m ρ c)
theorem k12_arg15 : Gen.W12 (F := Ideal) m ρ c (Proc.devRef .tc main_arg15) = m ((c.tc : Thread nD τ).loc main_arg15) :=
  (s12 m ρ c main_arg15 (by decide)).trans (k11_arg15 m ρ c)
theorem k13_arg15 : Gen.W13 (F := Ideal) m ρ c (Proc.devRef .tc main_arg15) = m ((c.tc : Thread nD τ).loc main_arg15) :=
  (s13 m ρ c main_arg15 (by decide)).trans (k12_arg15 m ρ c)
theorem k14_arg15 : Gen.W14 (F := Ideal) m ρ c (Proc.devRef .tc main_arg15) = m ((c.tc : Thread nD τ).loc main_arg15) :=
  (s14 m ρ c main_arg15 (by decide)).trans (k13_arg15 m ρ c)

/-! ## The prelude, at the first region's entry -/

theorem pre_v7 : Gen.W3 (F := Ideal) m ρ c (Proc.devRef .tc main_v7) = Cert.ReferenceIdeal.Read.val_main_v7 (F := Ideal) (m ((c.tc : Thread nD τ).loc main_arg1)) :=
  (s3 m ρ c main_v7 (by decide)).trans ((s2 m ρ c main_v7 (by decide)).trans (p0_v7 _ _ rfl))
theorem pre_v8 : Gen.W3 (F := Ideal) m ρ c (Proc.devRef .tc main_v8) = Cert.ReferenceIdeal.Read.val_main_v8 (F := Ideal) (m ((c.tc : Thread nD τ).loc main_arg1)) :=
  (s3 m ρ c main_v8 (by decide)).trans ((s2 m ρ c main_v8 (by decide)).trans (p0_v8 _ _ rfl))
theorem pre_v33 : Gen.W3 (F := Ideal) m ρ c (Proc.devRef .tc main_v33) = Cert.ReferenceIdeal.Read.val_main_v33 (F := Ideal) (m ((c.tc : Thread nD τ).loc main_arg1)) :=
  p2_v33 _ _
    ((s2 m ρ c main_v7 (by decide)).trans (p0_v7 _ _ rfl))
    ((s2 m ρ c main_v8 (by decide)).trans (p0_v8 _ _ rfl))
    (p1_v18 _ _ (p0_v14 _ _ rfl) (p0_v17 _ _ rfl) (p0_cst3 _))
theorem pre_arg0 : Gen.W3 (F := Ideal) m ρ c (Proc.devRef .tc main_arg0) = (m ((c.tc : Thread nD τ).loc main_arg0)) := k3_arg0 m ρ c
theorem pre_arg2 : Gen.W3 (F := Ideal) m ρ c (Proc.devRef .tc main_arg2) = (m ((c.tc : Thread nD τ).loc main_arg2)) := k3_arg2 m ρ c
theorem pre_v38 (k : Fin 10) : Gen.W3 (F := Ideal) m ρ c (Proc.devRef .tc main_v38) (ix2 (0 : Fin 1) k) = (0 : EReal) := p2_v38 _ k
theorem pre_v39 (q : Fin 16) : Gen.W3 (F := Ideal) m ρ c (Proc.devRef .tc main_v39) (ix2 (0 : Fin 1) q) = (0 : EReal) := p2_v39 _ q
/-- The zero vectors of lengths 16, 32 and 64 made before the first region. -/
theorem pre_v35 (q : Fin 16) : Gen.W3 (F := Ideal) m ρ c (Proc.devRef .tc main_v35) (ix1 q) = (0 : EReal) := p2_v35 _ q
theorem pre_v36 (q : Fin 32) : Gen.W3 (F := Ideal) m ρ c (Proc.devRef .tc main_v36) (ix1 q) = (0 : EReal) := p2_v36 _ q
theorem pre_v37 (q : Fin 64) : Gen.W3 (F := Ideal) m ρ c (Proc.devRef .tc main_v37) (ix1 q) = (0 : EReal) := p2_v37 _ q

/-! ## The stretches between the regions -/

theorem agg1 (h : Gen.W4 (F := Ideal) m ρ c (Proc.devRef .tc main_v40) = Cert.ReferenceIdeal.Read.val_main_v34 (F := Ideal) (m ((c.tc : Thread nD τ).loc main_arg0)) (m ((c.tc : Thread nD τ).loc main_arg2))) :
    Gen.W5 (F := Ideal) m ρ c (Proc.devRef .tc main_v53) = Cert.ReferenceIdeal.Read.val_main_v47 (F := Ideal) (m ((c.tc : Thread nD τ).loc main_arg0)) (m ((c.tc : Thread nD τ).loc main_arg1)) (m ((c.tc : Thread nD τ).loc main_arg2)) :=
  agg1_of _ _ _ _ ((k4_v7 m ρ c).trans (pre_v7 m ρ c)) ((k4_v8 m ρ c).trans (pre_v8 m ρ c)) ((k4_v33 m ρ c).trans (pre_v33 m ρ c)) h
theorem row1 (k : Fin 16) : Gen.W5 (F := Ideal) m ρ c (Proc.devRef .tc main_v54) (ix2 (0 : Fin 1) k) = (m ((c.tc : Thread nD τ).loc main_arg3)) (ix1 k) :=
  (rv54_of _ k).trans (congrFun (k4_arg3 m ρ c) (ix1 k))
theorem w1 : Gen.W5 (F := Ideal) m ρ c (Proc.devRef .tc main_arg4) = (m ((c.tc : Thread nD τ).loc main_arg4)) := k5_arg4 m ρ c
theorem zrow1 (q : Fin 32) : Gen.W5 (F := Ideal) m ρ c (Proc.devRef .tc main_v55) (ix2 (0 : Fin 1) q) = (0 : EReal) :=
  (rv55_of _ q).trans ((congrFun (k4_v36 m ρ c) (ix1 q)).trans (pre_v36 m ρ c q))

theorem agg2 (h : Gen.W6 (F := Ideal) m ρ c (Proc.devRef .tc main_v56) = Cert.ReferenceIdeal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    Gen.W7 (F := Ideal) m ρ c (Proc.devRef .tc main_v69) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  agg2_of _ _ _ _ _ _ ((k6_v7 m ρ c).trans (pre_v7 m ρ c)) ((k6_v8 m ρ c).trans (pre_v8 m ρ c)) ((k6_v33 m ρ c).trans (pre_v33 m ρ c)) h
theorem row2 (k : Fin 32) : Gen.W7 (F := Ideal) m ρ c (Proc.devRef .tc main_v70) (ix2 (0 : Fin 1) k) = (m ((c.tc : Thread nD τ).loc main_arg5)) (ix1 k) :=
  (rv70_of _ k).trans (congrFun (k6_arg5 m ρ c) (ix1 k))
theorem w2 : Gen.W7 (F := Ideal) m ρ c (Proc.devRef .tc main_arg6) = (m ((c.tc : Thread nD τ).loc main_arg6)) := k7_arg6 m ρ c
theorem zrow2 (q : Fin 64) : Gen.W7 (F := Ideal) m ρ c (Proc.devRef .tc main_v71) (ix2 (0 : Fin 1) q) = (0 : EReal) :=
  (rv71_of _ q).trans ((congrFun (k6_v37 m ρ c) (ix1 q)).trans (pre_v37 m ρ c q))

theorem agg3 (h : Gen.W8 (F := Ideal) m ρ c (Proc.devRef .tc main_v72) = Cert.ReferenceIdeal.Read.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    Gen.W9 (F := Ideal) m ρ c (Proc.devRef .tc main_v85) = Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  agg3_of _ _ _ _ _ _ _ _ ((k8_v7 m ρ c).trans (pre_v7 m ρ c)) ((k8_v8 m ρ c).trans (pre_v8 m ρ c)) ((k8_v33 m ρ c).trans (pre_v33 m ρ c)) h
theorem row3 (k : Fin 64) : Gen.W9 (F := Ideal) m ρ c (Proc.devRef .tc main_v86) (ix2 (0 : Fin 1) k) = (m ((c.tc : Thread nD τ).loc main_arg7)) (ix1 k) :=
  (rv86_of _ k).trans (congrFun (k8_arg7 m ρ c) (ix1 k))
theorem w3 : Gen.W9 (F := Ideal) m ρ c (Proc.devRef .tc main_arg8) = (m ((c.tc : Thread nD τ).loc main_arg8)) := k9_arg8 m ρ c
theorem zrow3 (q : Fin 32) : Gen.W9 (F := Ideal) m ρ c (Proc.devRef .tc main_v87) (ix2 (0 : Fin 1) q) = (0 : EReal) :=
  (rv87_of _ q).trans ((congrFun (k8_v36 m ρ c) (ix1 q)).trans (pre_v36 m ρ c q))

theorem agg4 (h : Gen.W10 (F := Ideal) m ρ c (Proc.devRef .tc main_v88) = Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    Gen.W11 (F := Ideal) m ρ c (Proc.devRef .tc main_v101) = Cert.ReferenceIdeal.Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  agg4_of _ _ _ _ _ _ _ _ _ _ ((k10_v7 m ρ c).trans (pre_v7 m ρ c)) ((k10_v8 m ρ c).trans (pre_v8 m ρ c)) ((k10_v33 m ρ c).trans (pre_v33 m ρ c)) h
theorem row4 (k : Fin 32) : Gen.W11 (F := Ideal) m ρ c (Proc.devRef .tc main_v102) (ix2 (0 : Fin 1) k) = (m ((c.tc : Thread nD τ).loc main_arg9)) (ix1 k) :=
  (rv102_of _ k).trans (congrFun (k10_arg9 m ρ c) (ix1 k))
theorem w4 : Gen.W11 (F := Ideal) m ρ c (Proc.devRef .tc main_arg10) = (m ((c.tc : Thread nD τ).loc main_arg10)) := k11_arg10 m ρ c
theorem zrow4 (q : Fin 16) : Gen.W11 (F := Ideal) m ρ c (Proc.devRef .tc main_v103) (ix2 (0 : Fin 1) q) = (0 : EReal) :=
  (rv103_of _ q).trans ((congrFun (k10_v35 m ρ c) (ix1 q)).trans (pre_v35 m ρ c q))

theorem agg5 (h : Gen.W12 (F := Ideal) m ρ c (Proc.devRef .tc main_v104) = Cert.ReferenceIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    Gen.W13 (F := Ideal) m ρ c (Proc.devRef .tc main_v117) = Cert.ReferenceIdeal.Read.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  agg5_of _ _ _ _ _ _ _ _ _ _ _ _ ((k12_v7 m ρ c).trans (pre_v7 m ρ c)) ((k12_v8 m ρ c).trans (pre_v8 m ρ c)) ((k12_v33 m ρ c).trans (pre_v33 m ρ c)) h
theorem row5 (k : Fin 16) : Gen.W13 (F := Ideal) m ρ c (Proc.devRef .tc main_v118) (ix2 (0 : Fin 1) k) = (m ((c.tc : Thread nD τ).loc main_arg11)) (ix1 k) :=
  (rv118_of _ k).trans (congrFun (k12_arg11 m ρ c) (ix1 k))
theorem w5 : Gen.W13 (F := Ideal) m ρ c (Proc.devRef .tc main_arg12) = (m ((c.tc : Thread nD τ).loc main_arg12)) := k13_arg12 m ρ c
theorem brow5 (q : Fin 16) : Gen.W13 (F := Ideal) m ρ c (Proc.devRef .tc main_v119) (ix2 (0 : Fin 1) q) = (m ((c.tc : Thread nD τ).loc main_arg13)) (ix1 q) :=
  (rv119_of _ q).trans (congrFun (k12_arg13 m ρ c) (ix1 q))

/-! ## Before the last region, and the tail -/

theorem keep6 : Gen.W15 (F := Ideal) m ρ c (Proc.devRef .tc main_v120) = Gen.W14 (F := Ideal) m ρ c (Proc.devRef .tc main_v120) := s15 m ρ c main_v120 (by decide)
theorem zrow6 (k : Fin 16) : Gen.W15 (F := Ideal) m ρ c (Proc.devRef .tc main_v121) (ix2 (0 : Fin 1) k) = (0 : EReal) :=
  (rv121_of _ k).trans ((congrFun (k14_v35 m ρ c) (ix1 k)).trans (pre_v35 m ρ c k))
theorem w6 : Gen.W15 (F := Ideal) m ρ c (Proc.devRef .tc main_arg14) = (m ((c.tc : Thread nD τ).loc main_arg14)) := k15_arg14 m ρ c
theorem brow6 (q : Fin 9) : Gen.W15 (F := Ideal) m ρ c (Proc.devRef .tc main_v122) (ix2 (0 : Fin 1) q) = (m ((c.tc : Thread nD τ).loc main_arg15)) (ix1 q) :=
  (rv122_of _ q).trans (congrFun (k14_arg15 m ρ c) (ix1 q))

theorem tail (h : Gen.W16 (F := Ideal) m ρ c (Proc.devRef .tc main_v123) = Cert.ReferenceIdeal.Read.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :
    Gen.W17 (F := Ideal) m ρ c (Proc.devRef .tc main_v124) = Cert.ReferenceIdeal.Read.val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  tail_of _ _ _ _ _ _ _ _ _ _ _ _ _ _ _ _ _ h

end Cert.KernelIdeal.Host

end
-- ==== Proof.Bridge.lean ====
/-
  The kernel program's result is the reference's.

  Both programs are one chain: the graph prelude (source and destination index vectors and the edge weights), then five
  graph-convolution layers and a two-layer perceptron. A layer is a dense stage followed by gather–scale–scatter over
  the edges. The kernel program computes each dense stage in a region and leaves the edge aggregation to the same host
  operations the reference uses; it moves the bias and the rectifier of layer ℓ into the stage of layer ℓ+1 (adding a
  zero row where the reference adds nothing). So the two chains are walked side by side: each region's output array is
  the stage function of its inputs (the kernel side), which is the reference's value after the same layer's product
  (the reference side), and each host stretch applies the reference's own operations to equal arrays.
-/
import proofs.«105346_j23545010717334_1_alg».proof.Proof.Gen.KernelIdeal.Frame
import proofs.«105346_j23545010717334_1_alg».proof.Proof.RefRead
import proofs.«105346_j23545010717334_1_alg».proof.Proof.StageSpec
import proofs.«105346_j23545010717334_1_alg».proof.Proof.Stage0
import proofs.«105346_j23545010717334_1_alg».proof.Proof.Stage1
import proofs.«105346_j23545010717334_1_alg».proof.Proof.Stage2
import proofs.«105346_j23545010717334_1_alg».proof.Proof.Stage3
import proofs.«105346_j23545010717334_1_alg».proof.Proof.Stage4
import proofs.«105346_j23545010717334_1_alg».proof.Proof.Stage5
import proofs.«105346_j23545010717334_1_alg».proof.Proof.Stage6
import proofs.«105346_j23545010717334_1_alg».proof.Proof.RefStage
import proofs.«105346_j23545010717334_1_alg».proof.Proof.Host

set_option maxRecDepth 16384

noncomputable section

namespace Cert.Bridge

open Cert.KernelIdeal Cert.KernelIdeal.Gen Cert.StageSpec Idealize.ShloMosaic Idealize.ShloMosaic.TcCoe Idealize.ShloMosaic.ValueIdx
open Idealize.SL.Sem
open Cert.ReferenceIdeal.Read (val_main_v34 val_main_v47 val_main_v52 val_main_v65 val_main_v70 val_main_v83 val_main_v88 val_main_v101 val_main_v106 val_main_v119 val_main_v128 val_main_v132 val_main_v133)

theorem result_eq (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W17 (F := Ideal) m ρ c (Proc.devRef .tc Cert.KernelIdeal.main_v124)
      = Cert.ReferenceIdeal.Read.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  -- the first stage: features times the first weight matrix (both added rows are zero)
  have e0 : W4 (F := Ideal) m ρ c (Proc.devRef .tc main_v40) = val_main_v34 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
    refine (W4_arr m ρ c 4).trans ?_
    rw [Stage0.final]
    show stage id id (W3 (F := Ideal) m ρ c (Proc.devRef .tc main_arg0)) (W3 (F := Ideal) m ρ c (Proc.devRef .tc main_v38))
      (W3 (F := Ideal) m ρ c (Proc.devRef .tc main_arg2)) (W3 (F := Ideal) m ρ c (Proc.devRef .tc main_v39)) = _
    rw [Host.pre_arg0 m ρ c, Host.pre_arg2 m ρ c]
    exact Cert.ReferenceIdeal.RefStage.ref0 _ _ _ (Host.pre_v38 m ρ c) _ (Host.pre_v39 m ρ c)
  have a1 := Host.agg1 m ρ c e0
  have e1 : W6 (F := Ideal) m ρ c (Proc.devRef .tc main_v56) = val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
    refine (W6_arr m ρ c 4).trans ?_
    rw [Stage1.final]
    show stage relu id (W5 (F := Ideal) m ρ c (Proc.devRef .tc main_v53)) (W5 (F := Ideal) m ρ c (Proc.devRef .tc main_v54))
      (W5 (F := Ideal) m ρ c (Proc.devRef .tc main_arg4)) (W5 (F := Ideal) m ρ c (Proc.devRef .tc main_v55)) = _
    rw [a1, Host.w1 m ρ c]
    exact Cert.ReferenceIdeal.RefStage.ref1 _ _ _ _ _ _ (Host.row1 m ρ c) _ (Host.zrow1 m ρ c)
  have a2 := Host.agg2 m ρ c e1
  have e2 : W8 (F := Ideal) m ρ c (Proc.devRef .tc main_v72) = val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
    refine (W8_arr m ρ c 4).trans ?_
    rw [Stage2.final]
    show stage relu id (W7 (F := Ideal) m ρ c (Proc.devRef .tc main_v69)) (W7 (F := Ideal) m ρ c (Proc.devRef .tc main_v70))
      (W7 (F := Ideal) m ρ c (Proc.devRef .tc main_arg6)) (W7 (F := Ideal) m ρ c (Proc.devRef .tc main_v71)) = _
    rw [a2, Host.w2 m ρ c]
    exact Cert.ReferenceIdeal.RefStage.ref2 _ _ _ _ _ _ _ _ (Host.row2 m ρ c) _ (Host.zrow2 m ρ c)
  have a3 := Host.agg3 m ρ c e2
  have e3 : W10 (F := Ideal) m ρ c (Proc.devRef .tc main_v88) = val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    refine (W10_arr m ρ c 4).trans ?_
    rw [Stage3.final]
    show stage relu id (W9 (F := Ideal) m ρ c (Proc.devRef .tc main_v85)) (W9 (F := Ideal) m ρ c (Proc.devRef .tc main_v86))
      (W9 (F := Ideal) m ρ c (Proc.devRef .tc main_arg8)) (W9 (F := Ideal) m ρ c (Proc.devRef .tc main_v87)) = _
    rw [a3, Host.w3 m ρ c]
    exact Cert.ReferenceIdeal.RefStage.ref3 _ _ _ _ _ _ _ _ _ _ (Host.row3 m ρ c) _ (Host.zrow3 m ρ c)
  have a4 := Host.agg4 m ρ c e3
  have e4 : W12 (F := Ideal) m ρ c (Proc.devRef .tc main_v104) = val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) := by
    refine (W12_arr m ρ c 4).trans ?_
    rw [Stage4.final]
    show stage relu id (W11 (F := Ideal) m ρ c (Proc.devRef .tc main_v101)) (W11 (F := Ideal) m ρ c (Proc.devRef .tc main_v102))
      (W11 (F := Ideal) m ρ c (Proc.devRef .tc main_arg10)) (W11 (F := Ideal) m ρ c (Proc.devRef .tc main_v103)) = _
    rw [a4, Host.w4 m ρ c]
    exact Cert.ReferenceIdeal.RefStage.ref4 _ _ _ _ _ _ _ _ _ _ _ _ (Host.row4 m ρ c) _ (Host.zrow4 m ρ c)
  have a5 := Host.agg5 m ρ c e4
  -- the perceptron's first layer carries both rectifiers
  have e5 : W14 (F := Ideal) m ρ c (Proc.devRef .tc main_v120) = val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
    refine (W14_arr m ρ c 4).trans ?_
    rw [Stage5.final]
    show stage relu relu (W13 (F := Ideal) m ρ c (Proc.devRef .tc main_v117)) (W13 (F := Ideal) m ρ c (Proc.devRef .tc main_v118))
      (W13 (F := Ideal) m ρ c (Proc.devRef .tc main_arg12)) (W13 (F := Ideal) m ρ c (Proc.devRef .tc main_v119)) = _
    rw [a5, Host.w5 m ρ c]
    exact Cert.ReferenceIdeal.RefStage.ref5 _ _ _ _ _ _ _ _ _ _ _ _ _ _ _ (Host.row5 m ρ c) _ (Host.brow5 m ρ c)
  -- its second layer: no rectifier, a zero row before the product and the bias row after
  have e6 : W16 (F := Ideal) m ρ c (Proc.devRef .tc main_v123) = val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
    refine (W16_arr m ρ c 4).trans ?_
    rw [Stage6.final]
    show stage id id (W15 (F := Ideal) m ρ c (Proc.devRef .tc main_v120)) (W15 (F := Ideal) m ρ c (Proc.devRef .tc main_v121))
      (W15 (F := Ideal) m ρ c (Proc.devRef .tc main_arg14)) (W15 (F := Ideal) m ρ c (Proc.devRef .tc main_v122)) = _
    rw [Host.keep6 m ρ c, e5, Host.w6 m ρ c]
    exact Cert.ReferenceIdeal.RefStage.ref6 _ _ _ _ _ _ _ _ _ _ _ _ _ _ _ _ _ (Host.zrow6 m ρ c) _ (Host.brow6 m ρ c)
  exact Host.tail m ρ c e6

end Cert.Bridge

end
-- ==== Proof.lean ====
/- The proof of `Cert.Claim`.

   Both programs compute a five-layer graph convolution network followed by a two-layer perceptron, on the same
   arguments. From the edge list both build the source and target index vectors and the edge weights by the same
   operations. A convolution layer is then: a dense stage `h ↦ h · W` on the node features, a gather of the rows at the
   edges' sources, each row scaled by its edge's weight, and a scatter-add of the rows at the edges' targets; the
   reference then adds the layer's bias and applies the rectifier. The kernel computes every dense stage in one
   pipelined region of the form `post (pre (h + pb) · W + qb)` and moves the bias and the rectifier of layer ℓ into
   the entry of the stage of layer ℓ+1 (`pre` the rectifier and `pb` the bias there; the first stage has neither,
   the last two stages are the perceptron's), while gather, scaling and scatter-add stay on the host between the
   regions, operation for operation as in the reference. At the exact instance the two agree: the float format
   changes are the identity, the operations are those of the extended reals, adding a zero row or the zero bias
   changes nothing, and each region's result is the stage's function of the region's entry contents; so, layer
   by layer, the kernel's buffer holds what the reference's operation computes, and the final reshape gives equal
   results.

   The frames of the two kernel programs are the generated ones; the reference's frame is a consequence of its run.
   The idealization's ledger is empty. For the value claim the kernel's run is `KRun.run_value` (the chain of segments,
   with the result buffer's final contents named), the reference's run leaves its result at a term that is read as a
   function of the arguments (`val_main_v133_eq`), and `Bridge.result_eq` identifies the two terms. -/
import proofs.«105346_j23545010717334_1_alg».proof.Defs
import proofs.«105346_j23545010717334_1_alg».proof.Proof.Gen.Kernel
import proofs.«105346_j23545010717334_1_alg».proof.Proof.Gen.Kernel.Skeleton
import proofs.«105346_j23545010717334_1_alg».proof.Proof.Gen.Kernel.Launch
import proofs.«105346_j23545010717334_1_alg».proof.Proof.Gen.Kernel.Points
import proofs.«105346_j23545010717334_1_alg».proof.Proof.Gen.Kernel.Frame
import proofs.«105346_j23545010717334_1_alg».proof.Proof.Gen.KernelIdeal
import proofs.«105346_j23545010717334_1_alg».proof.Proof.Gen.KernelIdeal.Skeleton
import proofs.«105346_j23545010717334_1_alg».proof.Proof.Gen.KernelIdeal.Launch
import proofs.«105346_j23545010717334_1_alg».proof.Proof.Gen.KernelIdeal.Points
import proofs.«105346_j23545010717334_1_alg».proof.Proof.Gen.KernelIdeal.Frame
import proofs.«105346_j23545010717334_1_alg».proof.Proof.Gen.ReferenceIdeal
import proofs.«105346_j23545010717334_1_alg».proof.Proof.Gen.Pre_finite_inputs
import proofs.«105346_j23545010717334_1_alg».proof.Proof.RefRun
import proofs.«105346_j23545010717334_1_alg».proof.Proof.RefRead
import proofs.«105346_j23545010717334_1_alg».proof.Proof.KRun
import proofs.«105346_j23545010717334_1_alg».proof.Proof.Bridge
import Idealize.ShloMosaic.Adequacy
import Idealize.ShloMosaic.Init

noncomputable section

namespace Cert.Proof

open Idealize.ShloMosaic Idealize.ShloMosaic.TcCoe Idealize.SL.Sem

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the exact instance, from memories that agree on the arguments, the kernel's result buffer ends at the
    contents the chain of segments computes for it, the reference's at its result term of its own arguments; the
    arguments agree, and the two terms are one function of them (`Bridge.result_eq`). Both runs leave the arguments
    as launched. -/
theorem algebraic : Cert.algebraic_KernelIdeal_ReferenceIdeal := by
  intro m ρ m' ρ' _ hagree
  refine ⟨fun c => Cert.KernelIdeal.Gen.W17 (F := Ideal) m ρ c (Proc.devRef .tc Cert.KernelIdeal.main_v124),
    Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v133_eq m' c]
  obtain ⟨e0, e1, e2, e3, e4, e5, e6, e7, e8, e9, e10, e11, e12, e13, e14, e15⟩ := hagree c
  rw [e0, e1, e2, e3, e4, e5, e6, e7, e8, e9, e10, e11, e12, e13, e14, e15]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
